-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9x2 : Shape := ⟨2, ![9, 2]⟩
abbrev S16x56x56x2 : Shape := ⟨4, ![16, 56, 56, 2]⟩
abbrev S16x9x56x56x4 : Shape := ⟨5, ![16, 9, 56, 56, 4]⟩
abbrev S16x64x5 : Shape := ⟨3, ![16, 64, 5]⟩
abbrev S_ : Shape := ⟨0, ![]⟩

class Facts : Prop where
  bcast_S_S9x2 : S_.BroadcastsInDim S9x2 (![] : Fin 0 → Fin S9x2.rank)
  reducesTo_S9x2_S_d0_1 : S9x2.ReducesTo [0, 1] S_
  h_S_ : 0 < S_.numel
  bcast_S_S16x56x56x2 : S_.BroadcastsInDim S16x56x56x2 (![] : Fin 0 → Fin S16x56x56x2.rank)
  reducesTo_S16x56x56x2_S_d0_1_2_3 : S16x56x56x2.ReducesTo [0, 1, 2, 3] S_
  bcast_S_S16x9x56x56x4 : S_.BroadcastsInDim S16x9x56x56x4 (![] : Fin 0 → Fin S16x9x56x56x4.rank)
  reducesTo_S16x9x56x56x4_S_d0_1_2_3_4 : S16x9x56x56x4.ReducesTo [0, 1, 2, 3, 4] S_
  bcast_S_S16x64x5 : S_.BroadcastsInDim S16x64x5 (![] : Fin 0 → Fin S16x64x5.rank)
  reducesTo_S16x64x5_S_d0_1_2 : S16x64x5.ReducesTo [0, 1, 2] S_

variable [Facts]

def fn_part1 {F : FTy → Type} [FloatOps F] (main_v13 : IVec S_ 1) (main_v16 : IVec S16x64x5 1) : IVec S_ 1 :=
  let main_c_5 : IVec S_ 1 := constantI S_ 1 1#1
  let main_v17 : IVec S_ 1 := (fun x v => Host.reduce IntOp.andi x v reducesTo_S16x64x5_S_d0_1_2 h_S_) main_v16 main_c_5
  let main_v18 : IVec S_ 1 := andi main_v13 main_v17
  main_v18

def fn {F : FTy → Type} [FloatOps F] (main_arg0 : FVec F S9x2 .f32) (main_arg1 : FVec F S16x56x56x2 .f32) (main_arg2 : FVec F S16x9x56x56x4 .f32) (main_arg3 : FVec F S16x64x5 .f32) : IVec S_ 1 :=
  let main_v0 : FVec F S9x2 .f32 := Host.absf main_arg0
  let main_cst : FVec F S_ .f32 := constant S_ .f32 0x7F800000#32
  let main_v1 : FVec F S9x2 .f32 := broadcastInDim S9x2 ![] bcast_S_S9x2 main_cst
  let main_v2 : IVec S9x2 1 := cmpf .olt main_v0 main_v1
  let main_c : IVec S_ 1 := constantI S_ 1 1#1
  let main_v3 : IVec S_ 1 := (fun x v => Host.reduce IntOp.andi x v reducesTo_S9x2_S_d0_1 h_S_) main_v2 main_c
  let main_v4 : FVec F S16x56x56x2 .f32 := Host.absf main_arg1
  let main_cst_0 : FVec F S_ .f32 := constant S_ .f32 0x7F800000#32
  let main_v5 : FVec F S16x56x56x2 .f32 := broadcastInDim S16x56x56x2 ![] bcast_S_S16x56x56x2 main_cst_0
  let main_v6 : IVec S16x56x56x2 1 := cmpf .olt main_v4 main_v5
  let main_c_1 : IVec S_ 1 := constantI S_ 1 1#1
  let main_v7 : IVec S_ 1 := (fun x v => Host.reduce IntOp.andi x v reducesTo_S16x56x56x2_S_d0_1_2_3 h_S_) main_v6 main_c_1
  let main_v8 : IVec S_ 1 := andi main_v3 main_v7
  let main_v9 : FVec F S16x9x56x56x4 .f32 := Host.absf main_arg2
  let main_cst_2 : FVec F S_ .f32 := constant S_ .f32 0x7F800000#32
  let main_v10 : FVec F S16x9x56x56x4 .f32 := broadcastInDim S16x9x56x56x4 ![] bcast_S_S16x9x56x56x4 main_cst_2
  let main_v11 : IVec S16x9x56x56x4 1 := cmpf .olt main_v9 main_v10
  let main_c_3 : IVec S_ 1 := constantI S_ 1 1#1
  let main_v12 : IVec S_ 1 := (fun x v => Host.reduce IntOp.andi x v reducesTo_S16x9x56x56x4_S_d0_1_2_3_4 h_S_) main_v11 main_c_3
  let main_v13 : IVec S_ 1 := andi main_v8 main_v12
  let main_v14 : FVec F S16x64x5 .f32 := Host.absf main_arg3
  let main_cst_4 : FVec F S_ .f32 := constant S_ .f32 0x7F800000#32
  let main_v15 : FVec F S16x64x5 .f32 := broadcastInDim S16x64x5 ![] bcast_S_S16x64x5 main_cst_4
  let main_v16 : IVec S16x64x5 1 := cmpf .olt main_v14 main_v15
  fn_part1 (F := F) main_v13 main_v16
-- ==== Kernel.lean ====
abbrev S9x2 : Shape := ⟨2, ![9, 2]⟩
abbrev S16x56x56x2 : Shape := ⟨4, ![16, 56, 56, 2]⟩
abbrev S16x9x56x56x4 : Shape := ⟨5, ![16, 9, 56, 56, 4]⟩
abbrev S16x64x5 : Shape := ⟨3, ![16, 64, 5]⟩
abbrev S16x28224x64 : Shape := ⟨3, ![16, 28224, 64]⟩
abbrev S1x56x56x2 : Shape := ⟨4, ![1, 56, 56, 2]⟩
abbrev S1x1x56x56x4 : Shape := ⟨5, ![1, 1, 56, 56, 4]⟩
abbrev S1x64x5 : Shape := ⟨3, ![1, 64, 5]⟩
abbrev S1x3136x64 : Shape := ⟨3, ![1, 3136, 64]⟩
abbrev S56x56x2 : Shape := ⟨3, ![56, 56, 2]⟩
abbrev S56x56x1 : Shape := ⟨3, ![56, 56, 1]⟩
abbrev S56x56 : Shape := ⟨2, ![56, 56]⟩
abbrev S56x56x4 : Shape := ⟨3, ![56, 56, 4]⟩
abbrev S1x2 : Shape := ⟨2, ![1, 2]⟩
abbrev S2 : Shape := ⟨1, ![2]⟩
abbrev S1 : Shape := ⟨1, ![1]⟩
abbrev S64x5 : Shape := ⟨2, ![64, 5]⟩
abbrev S64x1 : Shape := ⟨2, ![64, 1]⟩
abbrev S64 : Shape := ⟨1, ![64]⟩
abbrev S1x1x64 : Shape := ⟨3, ![1, 1, 64]⟩
abbrev S56x56x64 : Shape := ⟨3, ![56, 56, 64]⟩
abbrev S3136x64 : Shape := ⟨2, ![3136, 64]⟩

abbrev nBuf : Space → Nat
  | .hbm => 5
  | .vmem => 9
  | .smem => 0
  | _ => 0

abbrev bufTy : (tb : Table) → Fin (tcTables nBuf tb) → BufTy
  | .hbm, ⟨0, _⟩ => ⟨S9x2, .f32⟩
  | .hbm, ⟨1, _⟩ => ⟨S16x56x56x2, .f32⟩
  | .hbm, ⟨2, _⟩ => ⟨S16x9x56x56x4, .f32⟩
  | .hbm, ⟨3, _⟩ => ⟨S16x64x5, .f32⟩
  | .hbm, ⟨4, _⟩ => ⟨S16x28224x64, .f32⟩
  | .local _ .vmem, ⟨0, _⟩ => ⟨S9x2, .f32⟩
  | .local _ .vmem, ⟨1, _⟩ => ⟨S1x56x56x2, .f32⟩
  | .local _ .vmem, ⟨2, _⟩ => ⟨S1x56x56x2, .f32⟩
  | .local _ .vmem, ⟨3, _⟩ => ⟨S1x1x56x56x4, .f32⟩
  | .local _ .vmem, ⟨4, _⟩ => ⟨S1x1x56x56x4, .f32⟩
  | .local _ .vmem, ⟨5, _⟩ => ⟨S1x64x5, .f32⟩
  | .local _ .vmem, ⟨6, _⟩ => ⟨S1x64x5, .f32⟩
  | .local _ .vmem, ⟨7, _⟩ => ⟨S1x3136x64, .f32⟩
  | .local _ .vmem, ⟨8, _⟩ => ⟨S1x3136x64, .f32⟩
  | _, _ => ⟨S9x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 9], ![false, false]⟩

def k0_off1 (i : grid0.Coords) : Fin 2 → Nat :=
  let arg1 : BitVec 32 := BitVec.ofNat 32 (i 1).val
  let v16 : Index := Scalar.indexCast arg1
  let c0_8 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S9x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x56x56x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x56x56x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3136x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x56x56x2_S1x56x56x2_0_0_0_0 : ∀ a, (![0, 0, 0, 0] : Fin 4 → Nat) a + S1x56x56x2.size a ≤ S1x56x56x2.size a
  h_S1x56x56x2 : 0 < S1x56x56x2.numel
  shapeCasts_S1x56x56x2_S56x56x2 : S1x56x56x2.ShapeCasts S56x56x2
  slices_S56x56x2_o0_0_0_S56x56x1 : S56x56x2.Slices ![0, 0, 0] S56x56x1
  shapeCasts_S56x56x1_S56x56 : S56x56x1.ShapeCasts S56x56
  slices_S56x56x2_o0_0_1_S56x56x1 : S56x56x2.Slices ![0, 0, 1] S56x56x1
  inb_S1x1x56x56x4_S1x1x56x56x4_0_0_0_0_0 : ∀ a, (![0, 0, 0, 0, 0] : Fin 5 → Nat) a + S1x1x56x56x4.size a ≤ S1x1x56x56x4.size a
  h_S1x1x56x56x4 : 0 < S1x1x56x56x4.numel
  shapeCasts_S1x1x56x56x4_S56x56x4 : S1x1x56x56x4.ShapeCasts S56x56x4
  slices_S56x56x4_o0_0_0_S56x56x1 : S56x56x4.Slices ![0, 0, 0] S56x56x1
  slices_S56x56x4_o0_0_1_S56x56x1 : S56x56x4.Slices ![0, 0, 1] S56x56x1
  slices_S56x56x4_o0_0_2_S56x56x1 : S56x56x4.Slices ![0, 0, 2] S56x56x1
  slices_S56x56x4_o0_0_3_S56x56x1 : S56x56x4.Slices ![0, 0, 3] S56x56x1
  h_S1x2 : 0 < S1x2.numel
  shapeCasts_S1x2_S2 : S1x2.ShapeCasts S2
  slices_S2_o0_S1 : S2.Slices ![0] S1
  inpos_S1_p0 : ∀ a, (![0] : Fin 1 → Nat) a < S1.size a
  slices_S2_o1_S1 : S2.Slices ![1] S1
  inb_S1x64x5_S1x64x5_0_0_0 : ∀ a, (![0, 0, 0] : Fin 3 → Nat) a + S1x64x5.size a ≤ S1x64x5.size a
  h_S1x64x5 : 0 < S1x64x5.numel
  shapeCasts_S1x64x5_S64x5 : S1x64x5.ShapeCasts S64x5
  slices_S64x5_o0_0_S64x1 : S64x5.Slices ![0, 0] S64x1
  shapeCasts_S64x1_S64 : S64x1.ShapeCasts S64
  slices_S64x5_o0_1_S64x1 : S64x5.Slices ![0, 1] S64x1
  slices_S64x5_o0_2_S64x1 : S64x5.Slices ![0, 2] S64x1
  slices_S64x5_o0_3_S64x1 : S64x5.Slices ![0, 3] S64x1
  shapeCasts_S56x56_S56x56x1 : S56x56.ShapeCasts S56x56x1
  shapeCasts_S64_S1x1x64 : S64.ShapeCasts S1x1x64
  broadcasts_S56x56x1_S56x56x64 : S56x56x1.Broadcasts S56x56x64
  broadcasts_S1x1x64_S56x56x64 : S1x1x64.Broadcasts S56x56x64
  shapeCasts_S56x56x64_S3136x64 : S56x56x64.ShapeCasts S3136x64
  inb_S1x3136x64_S1x3136x64_0_0_0 : ∀ a, (![0, 0, 0] : Fin 3 → Nat) a + S1x3136x64.size a ≤ S1x3136x64.size a
  h_S1x3136x64 : 0 < S1x3136x64.numel
  shapeCasts_S1x3136x64_S3136x64 : S1x3136x64.ShapeCasts S3136x64
  shapeCasts_S3136x64_S1x3136x64 : S3136x64.ShapeCasts S1x3136x64
  hrank0 : 0 < grid0.rank
  k0_off1_inb : ∀ i : grid0.Coords, ∀ a, (k0_off1 i) a + S1x2.size a ≤ S9x2.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S9x2.size a ≤ S9x2.size a
  hwx0_0 : ∀ i : grid0.Coords, EltTy.bits .f32 = 32 ∨ (Rect.block (s := S9x2) S9x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x56x56x2.size a ≤ S16x56x56x2.size a
  hwx0_1 : ∀ i : grid0.Coords, EltTy.bits .f32 = 32 ∨ (Rect.block (s := S16x56x56x2) S1x56x56x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x56x56x4.size a ≤ S16x9x56x56x4.size a
  hwx0_2 : ∀ i : grid0.Coords, EltTy.bits .f32 = 32 ∨ (Rect.block (s := S16x9x56x56x4) S1x1x56x56x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x5.size a ≤ S16x64x5.size a
  hwx0_3 : ∀ i : grid0.Coords, EltTy.bits .f32 = 32 ∨ (Rect.block (s := S16x64x5) S1x64x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3136x64.size a ≤ S16x28224x64.size a
  hwx0_4 : ∀ i : grid0.Coords, EltTy.bits .f32 = 32 ∨ (Rect.block (s := S16x28224x64) S1x3136x64.size (cc0_transform_4 i) (hinb0_4 i)).WholeWords (EltTy.packing .f32)

variable [Facts₀]

abbrev win0_0 : Pipeline.Window sig grid0 :=
  Pipeline.Window.ofSpec (Memref.whole main_arg0) S9x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x56x56x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x56x56x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x3136x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S9x2 : Shape := ⟨2, ![9, 2]⟩
abbrev S16x56x56x2 : Shape := ⟨4, ![16, 56, 56, 2]⟩
abbrev S16x9x56x56x4 : Shape := ⟨5, ![16, 9, 56, 56, 4]⟩
abbrev S16x64x5 : Shape := ⟨3, ![16, 64, 5]⟩
abbrev S16x56x56x4 : Shape := ⟨4, ![16, 56, 56, 4]⟩
abbrev S16x1x56x56x4 : Shape := ⟨5, ![16, 1, 56, 56, 4]⟩
abbrev S9x1 : Shape := ⟨2, ![9, 1]⟩
abbrev S9 : Shape := ⟨1, ![9]⟩
abbrev S9x4 : Shape := ⟨2, ![9, 4]⟩
abbrev S_ : Shape := ⟨0, ![]⟩
abbrev S1x9x1x1x4 : Shape := ⟨5, ![1, 9, 1, 1, 4]⟩
abbrev S16x9x56x56x1 : Shape := ⟨5, ![16, 9, 56, 56, 1]⟩
abbrev S16x9x56x56 : Shape := ⟨4, ![16, 9, 56, 56]⟩
abbrev S16x28224x1x4 : Shape := ⟨4, ![16, 28224, 1, 4]⟩
abbrev S16x64x4 : Shape := ⟨3, ![16, 64, 4]⟩
abbrev S16x1x64x4 : Shape := ⟨4, ![16, 1, 64, 4]⟩
abbrev S16x28224x1x2 : Shape := ⟨4, ![16, 28224, 1, 2]⟩
abbrev S16x1x64x2 : Shape := ⟨4, ![16, 1, 64, 2]⟩
abbrev S16x28224x64x2 : Shape := ⟨4, ![16, 28224, 64, 2]⟩
abbrev S16x28224x64x1 : Shape := ⟨4, ![16, 28224, 64, 1]⟩
abbrev S16x28224x64 : Shape := ⟨3, ![16, 28224, 64]⟩
abbrev S16x28224x1x1 : Shape := ⟨4, ![16, 28224, 1, 1]⟩
abbrev S16x28224x1 : Shape := ⟨3, ![16, 28224, 1]⟩
abbrev S16x1x64x1 : Shape := ⟨4, ![16, 1, 64, 1]⟩
abbrev S16x1x64 : Shape := ⟨3, ![16, 1, 64]⟩

abbrev nBuf : Space → Nat
  | .hbm => 155
  | .vmem => 0
  | .smem => 0
  | _ => 0

abbrev hbmTy0_0 (i : Nat) : BufTy := match i % 128 with
  | 0 => ⟨S9x2, .f32⟩
  | 1 => ⟨S16x56x56x2, .f32⟩
  | 2 => ⟨S16x9x56x56x4, .f32⟩
  | 3 => ⟨S16x64x5, .f32⟩
  | 4 => ⟨S16x56x56x4, .f32⟩
  | 5 => ⟨S16x1x56x56x4, .f32⟩
  | 6 => ⟨S9x1, .f32⟩
  | 7 => ⟨S9, .f32⟩
  | 8 => ⟨S9, .f32⟩
  | 9 => ⟨S9x1, .f32⟩
  | 10 => ⟨S9, .f32⟩
  | 11 => ⟨S9, .f32⟩
  | 12 => ⟨S9x1, .f32⟩
  | 13 => ⟨S9, .f32⟩
  | 14 => ⟨S9x1, .f32⟩
  | 15 => ⟨S9, .f32⟩
  | 16 => ⟨S9x1, .f32⟩
  | 17 => ⟨S9x1, .f32⟩
  | 18 => ⟨S9x1, .f32⟩
  | 19 => ⟨S9x1, .f32⟩
  | 20 => ⟨S9x4, .f32⟩
  | 21 => ⟨S_, .f32⟩
  | 22 => ⟨S9x4, .f32⟩
  | 23 => ⟨S9x4, .f32⟩
  | 24 => ⟨S1x9x1x1x4, .f32⟩
  | 25 => ⟨S16x9x56x56x4, .f32⟩
  | 26 => ⟨S16x9x56x56x4, .f32⟩
  | 27 => ⟨S16x9x56x56x4, .f32⟩
  | 28 => ⟨S16x9x56x56x1, .f32⟩
  | 29 => ⟨S16x9x56x56, .f32⟩
  | 30 => ⟨S16x9x56x56x1, .f32⟩
  | 31 => ⟨S16x9x56x56, .f32⟩
  | 32 => ⟨S16x9x56x56, .f32⟩
  | 33 => ⟨S_, .f32⟩
  | 34 => ⟨S16x9x56x56, .f32⟩
  | 35 => ⟨S16x9x56x56, .f32⟩
  | 36 => ⟨S16x9x56x56x1, .f32⟩
  | 37 => ⟨S16x9x56x56, .f32⟩
  | 38 => ⟨S16x9x56x56x1, .f32⟩
  | 39 => ⟨S16x9x56x56, .f32⟩
  | 40 => ⟨S16x9x56x56, .f32⟩
  | 41 => ⟨S_, .f32⟩
  | 42 => ⟨S16x9x56x56, .f32⟩
  | 43 => ⟨S16x9x56x56, .f32⟩
  | 44 => ⟨S16x9x56x56x1, .f32⟩
  | 45 => ⟨S16x9x56x56, .f32⟩
  | 46 => ⟨S16x9x56x56x1, .f32⟩
  | 47 => ⟨S16x9x56x56, .f32⟩
  | 48 => ⟨S16x9x56x56, .f32⟩
  | 49 => ⟨S16x9x56x56x1, .f32⟩
  | 50 => ⟨S16x9x56x56, .f32⟩
  | 51 => ⟨S16x9x56x56x1, .f32⟩
  | 52 => ⟨S16x9x56x56, .f32⟩
  | 53 => ⟨S16x9x56x56, .f32⟩
  | 54 => ⟨S16x9x56x56x1, .f32⟩
  | 55 => ⟨S16x9x56x56, .f32⟩
  | 56 => ⟨S16x9x56x56, .f32⟩
  | 57 => ⟨S16x9x56x56x1, .f32⟩
  | 58 => ⟨S16x9x56x56, .f32⟩
  | 59 => ⟨S16x9x56x56, .f32⟩
  | 60 => ⟨S16x9x56x56x1, .f32⟩
  | 61 => ⟨S16x9x56x56, .f32⟩
  | 62 => ⟨S16x9x56x56, .f32⟩
  | 63 => ⟨S16x9x56x56, .f32⟩
  | 64 => ⟨S16x9x56x56x1, .f32⟩
  | 65 => ⟨S16x9x56x56, .f32⟩
  | 66 => ⟨S16x9x56x56, .f32⟩
  | 67 => ⟨S16x9x56x56, .f32⟩
  | 68 => ⟨S_, .f32⟩
  | 69 => ⟨S16x9x56x56, .f32⟩
  | 70 => ⟨S16x9x56x56, .f32⟩
  | 71 => ⟨S16x9x56x56, .f32⟩
  | 72 => ⟨S_, .f32⟩
  | 73 => ⟨S16x9x56x56, .f32⟩
  | 74 => ⟨S16x9x56x56, .f32⟩
  | 75 => ⟨S16x9x56x56, .f32⟩
  | 76 => ⟨S_, .f32⟩
  | 77 => ⟨S16x9x56x56, .f32⟩
  | 78 => ⟨S16x9x56x56, .f32⟩
  | 79 => ⟨S16x9x56x56, .f32⟩
  | 80 => ⟨S_, .f32⟩
  | 81 => ⟨S16x9x56x56, .f32⟩
  | 82 => ⟨S16x9x56x56, .f32⟩
  | 83 => ⟨S16x9x56x56, .f32⟩
  | 84 => ⟨S16x9x56x56x1, .f32⟩
  | 85 => ⟨S16x9x56x56x1, .f32⟩
  | 86 => ⟨S16x9x56x56x1, .f32⟩
  | 87 => ⟨S16x9x56x56x1, .f32⟩
  | 88 => ⟨S16x9x56x56x4, .f32⟩
  | 89 => ⟨S16x28224x1x4, .f32⟩
  | 90 => ⟨S16x64x4, .f32⟩
  | 91 => ⟨S16x1x64x4, .f32⟩
  | 92 => ⟨S16x28224x1x2, .f32⟩
  | 93 => ⟨S16x1x64x2, .f32⟩
  | 94 => ⟨S16x28224x64x2, .f32⟩
  | 95 => ⟨S16x28224x64x2, .f32⟩
  | 96 => ⟨S16x28224x64x2, .f32⟩
  | 97 => ⟨S16x28224x1x2, .f32⟩
  | 98 => ⟨S16x1x64x2, .f32⟩
  | 99 => ⟨S16x28224x64x2, .f32⟩
  | 100 => ⟨S16x28224x64x2, .f32⟩
  | 101 => ⟨S16x28224x64x2, .f32⟩
  | 102 => ⟨S16x28224x64x1, .f32⟩
  | 103 => ⟨S16x28224x64, .f32⟩
  | 104 => ⟨S16x28224x64x1, .f32⟩
  | 105 => ⟨S16x28224x64, .f32⟩
  | 106 => ⟨S16x28224x64, .i1⟩
  | 107 => ⟨S16x28224x64x1, .f32⟩
  | 108 => ⟨S16x28224x64, .f32⟩
  | 109 => ⟨S16x28224x64x1, .f32⟩
  | 110 => ⟨S16x28224x64, .f32⟩
  | 111 => ⟨S16x28224x64, .i1⟩
  | 112 => ⟨S16x28224x64, .i1⟩
  | 113 => ⟨S16x28224x64x1, .f32⟩
  | 114 => ⟨S16x28224x64, .f32⟩
  | 115 => ⟨S16x28224x64x1, .f32⟩
  | 116 => ⟨S16x28224x64, .f32⟩
  | 117 => ⟨S16x28224x64, .f32⟩
  | 118 => ⟨S16x28224x64x1, .f32⟩
  | 119 => ⟨S16x28224x64, .f32⟩
  | 120 => ⟨S16x28224x64x1, .f32⟩
  | 121 => ⟨S16x28224x64, .f32⟩
  | 122 => ⟨S16x28224x64, .f32⟩
  | 123 => ⟨S16x28224x64, .f32⟩
  | 124 => ⟨S_, .f32⟩
  | 125 => ⟨S_, .f32⟩
  | 126 => ⟨S16x28224x64, .f32⟩
  | 127 => ⟨S16x28224x64, .f32⟩
  | _ => ⟨S9x2, .f32⟩

abbrev hbmTy0_1 (i : Nat) : BufTy := match i % 128 with
  | 0 => ⟨S16x28224x1x1, .f32⟩
  | 1 => ⟨S16x28224x1, .f32⟩
  | 2 => ⟨S16x28224x1x1, .f32⟩
  | 3 => ⟨S16x28224x1, .f32⟩
  | 4 => ⟨S16x28224x1, .f32⟩
  | 5 => ⟨S16x28224x1x1, .f32⟩
  | 6 => ⟨S16x28224x1, .f32⟩
  | 7 => ⟨S16x28224x1x1, .f32⟩
  | 8 => ⟨S16x28224x1, .f32⟩
  | 9 => ⟨S16x28224x1, .f32⟩
  | 10 => ⟨S16x28224x1, .f32⟩
  | 11 => ⟨S16x1x64x1, .f32⟩
  | 12 => ⟨S16x1x64, .f32⟩
  | 13 => ⟨S16x1x64x1, .f32⟩
  | 14 => ⟨S16x1x64, .f32⟩
  | 15 => ⟨S16x1x64, .f32⟩
  | 16 => ⟨S16x1x64x1, .f32⟩
  | 17 => ⟨S16x1x64, .f32⟩
  | 18 => ⟨S16x1x64x1, .f32⟩
  | 19 => ⟨S16x1x64, .f32⟩
  | 20 => ⟨S16x1x64, .f32⟩
  | 21 => ⟨S16x1x64, .f32⟩
  | 22 => ⟨S16x28224x64, .f32⟩
  | 23 => ⟨S16x28224x64, .f32⟩
  | 24 => ⟨S16x28224x64, .f32⟩
  | 25 => ⟨S16x28224x64, .f32⟩
  | 26 => ⟨S16x28224x64, .f32⟩
  | _ => ⟨S9x2, .f32⟩

abbrev hbmTy (i : Nat) : BufTy := match i / 128 with
  | 0 => hbmTy0_0 i
  | 1 => hbmTy0_1 i
  | _ => ⟨S9x2, .f32⟩

abbrev bufTy : (tb : Table) → Fin (tcTables nBuf tb) → BufTy
  | .hbm, ⟨i, _⟩ => hbmTy i
  | _, _ => ⟨S9x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_2 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_5 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_cst_6 : Ref sig .tc := ⟨.hbm, 124, rfl⟩
abbrev main_call0_v0 : Ref sig .tc := ⟨.hbm, 125, rfl⟩
abbrev main_call0_v1 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩

abbrev nD : Nat := 1
abbrev τ : Topo := Topo.v7x

variable {F : FTy → Type} [FloatOps F]

class Facts₀ : Prop where
  concatenates_S16x56x56x2_S16x56x56x2_S16x56x56x4_d3 : Shape.Concatenates [S16x56x56x2, S16x56x56x2] S16x56x56x4 3
  bcast_S16x56x56x4_S16x1x56x56x4_0_2_3_4 : S16x56x56x4.BroadcastsInDim S16x1x56x56x4 (![0, 2, 3, 4] : Fin 4 → Fin S16x1x56x56x4.rank)
  slices_S9x2_S9x1_0_0 : S9x2.Slices ![0, 0] S9x1
  shapeCasts_S9x1_S9 : S9x1.ShapeCasts S9
  slices_S9x2_S9x1_0_1 : S9x2.Slices ![0, 1] S9x1
  bcast_S9_S9x1_0 : S9.BroadcastsInDim S9x1 (![0] : Fin 1 → Fin S9x1.rank)
  concatenates_S9x1_S9x1_S9x1_S9x1_S9x4_d1 : Shape.Concatenates [S9x1, S9x1, S9x1, S9x1] S9x4 1
  bcast_S_S9x4 : S_.BroadcastsInDim S9x4 (![] : Fin 0 → Fin S9x4.rank)
  bcast_S9x4_S1x9x1x1x4_1_4 : S9x4.BroadcastsInDim S1x9x1x1x4 (![1, 4] : Fin 2 → Fin S1x9x1x1x4.rank)
  bcast_S16x1x56x56x4_S16x9x56x56x4_0_1_2_3_4 : S16x1x56x56x4.BroadcastsInDim S16x9x56x56x4 (![0, 1, 2, 3, 4] : Fin 5 → Fin S16x9x56x56x4.rank)
  bcast_S1x9x1x1x4_S16x9x56x56x4_0_1_2_3_4 : S1x9x1x1x4.BroadcastsInDim S16x9x56x56x4 (![0, 1, 2, 3, 4] : Fin 5 → Fin S16x9x56x56x4.rank)
  slices_S16x9x56x56x4_S16x9x56x56x1_0_0_0_0_0 : S16x9x56x56x4.Slices ![0, 0, 0, 0, 0] S16x9x56x56x1
  shapeCasts_S16x9x56x56x1_S16x9x56x56 : S16x9x56x56x1.ShapeCasts S16x9x56x56
  slices_S16x9x56x56x4_S16x9x56x56x1_0_0_0_0_2 : S16x9x56x56x4.Slices ![0, 0, 0, 0, 2] S16x9x56x56x1
  bcast_S_S16x9x56x56 : S_.BroadcastsInDim S16x9x56x56 (![] : Fin 0 → Fin S16x9x56x56.rank)
  slices_S16x9x56x56x4_S16x9x56x56x1_0_0_0_0_1 : S16x9x56x56x4.Slices ![0, 0, 0, 0, 1] S16x9x56x56x1
  slices_S16x9x56x56x4_S16x9x56x56x1_0_0_0_0_3 : S16x9x56x56x4.Slices ![0, 0, 0, 0, 3] S16x9x56x56x1
  bcast_S16x9x56x56_S16x9x56x56x1_0_1_2_3 : S16x9x56x56.BroadcastsInDim S16x9x56x56x1 (![0, 1, 2, 3] : Fin 4 → Fin S16x9x56x56x1.rank)
  concatenates_S16x9x56x56x1_S16x9x56x56x1_S16x9x56x56x1_S16x9x56x56x1_S16x9x56x56x4_d4 : Shape.Concatenates [S16x9x56x56x1, S16x9x56x56x1, S16x9x56x56x1, S16x9x56x56x1] S16x9x56x56x4 4
  shapeCasts_S16x9x56x56x4_S16x28224x1x4 : S16x9x56x56x4.ShapeCasts S16x28224x1x4
  slices_S16x64x5_S16x64x4_0_0_0 : S16x64x5.Slices ![0, 0, 0] S16x64x4
  bcast_S16x64x4_S16x1x64x4_0_2_3 : S16x64x4.BroadcastsInDim S16x1x64x4 (![0, 2, 3] : Fin 3 → Fin S16x1x64x4.rank)
  slices_S16x28224x1x4_S16x28224x1x2_0_0_0_0 : S16x28224x1x4.Slices ![0, 0, 0, 0] S16x28224x1x2
  slices_S16x1x64x4_S16x1x64x2_0_0_0_0 : S16x1x64x4.Slices ![0, 0, 0, 0] S16x1x64x2
  bcast_S16x28224x1x2_S16x28224x64x2_0_1_2_3 : S16x28224x1x2.BroadcastsInDim S16x28224x64x2 (![0, 1, 2, 3] : Fin 4 → Fin S16x28224x64x2.rank)
  bcast_S16x1x64x2_S16x28224x64x2_0_1_2_3 : S16x1x64x2.BroadcastsInDim S16x28224x64x2 (![0, 1, 2, 3] : Fin 4 → Fin S16x28224x64x2.rank)
  slices_S16x28224x1x4_S16x28224x1x2_0_0_0_2 : S16x28224x1x4.Slices ![0, 0, 0, 2] S16x28224x1x2
  slices_S16x1x64x4_S16x1x64x2_0_0_0_2 : S16x1x64x4.Slices ![0, 0, 0, 2] S16x1x64x2
  slices_S16x28224x64x2_S16x28224x64x1_0_0_0_0 : S16x28224x64x2.Slices ![0, 0, 0, 0] S16x28224x64x1
  shapeCasts_S16x28224x64x1_S16x28224x64 : S16x28224x64x1.ShapeCasts S16x28224x64
  slices_S16x28224x64x2_S16x28224x64x1_0_0_0_1 : S16x28224x64x2.Slices ![0, 0, 0, 1] S16x28224x64x1
  bcast_S_S16x28224x64 : S_.BroadcastsInDim S16x28224x64 (![] : Fin 0 → Fin S16x28224x64.rank)
  slices_S16x28224x1x4_S16x28224x1x1_0_0_0_2 : S16x28224x1x4.Slices ![0, 0, 0, 2] S16x28224x1x1
  shapeCasts_S16x28224x1x1_S16x28224x1 : S16x28224x1x1.ShapeCasts S16x28224x1
  slices_S16x28224x1x4_S16x28224x1x1_0_0_0_0 : S16x28224x1x4.Slices ![0, 0, 0, 0] S16x28224x1x1
  slices_S16x28224x1x4_S16x28224x1x1_0_0_0_3 : S16x28224x1x4.Slices ![0, 0, 0, 3] S16x28224x1x1
  slices_S16x28224x1x4_S16x28224x1x1_0_0_0_1 : S16x28224x1x4.Slices ![0, 0, 0, 1] S16x28224x1x1
  slices_S16x1x64x4_S16x1x64x1_0_0_0_2 : S16x1x64x4.Slices ![0, 0, 0, 2] S16x1x64x1
  shapeCasts_S16x1x64x1_S16x1x64 : S16x1x64x1.ShapeCasts S16x1x64
  slices_S16x1x64x4_S16x1x64x1_0_0_0_0 : S16x1x64x4.Slices ![0, 0, 0, 0] S16x1x64x1
  slices_S16x1x64x4_S16x1x64x1_0_0_0_3 : S16x1x64x4.Slices ![0, 0, 0, 3] S16x1x64x1
  slices_S16x1x64x4_S16x1x64x1_0_0_0_1 : S16x1x64x4.Slices ![0, 0, 0, 1] S16x1x64x1
  bcast_S16x28224x1_S16x28224x64_0_1_2 : S16x28224x1.BroadcastsInDim S16x28224x64 (![0, 1, 2] : Fin 3 → Fin S16x28224x64.rank)
  bcast_S16x1x64_S16x28224x64_0_1_2 : S16x1x64.BroadcastsInDim S16x28224x64 (![0, 1, 2] : Fin 3 → Fin S16x28224x64.rank)

variable [Facts₀]

class Facts : Prop extends Facts₀ where

variable [Facts]
-- ==== Proof.IouSpec.lean ====
/-
  The value both programs compute, as ONE function of the four argument arrays, index by index.

  A proposal box is a grid cell's centre moved by an offset, with an anchor's width and height scaled in
  log space: along one axis, centre `g + o` and size `a · exp e`, so its edges are
  `(g + o) ∓ ½ · (a · exp e)` (`lo`, `hi`). Its intersection over union with a ground-truth box
  `(bx1, by1, bx2, by2)` is `iou`: the intersection rectangle has corners `max` of the lower edges and
  `min` of the upper edges, its area is taken as `0` when the rectangle is empty along either axis, and the
  union is the two areas' sum less the intersection.

  Row `r` of the result enumerates (anchor, cell row, cell column) in row-major order:
  `r = a · 3136 + h · 56 + w` (`3136 = 56 · 56`).

  The second half of the module is the one law that joins the two programs: an anchor box built as
  `centre ∓ ½·size` has, on the reals, centre `½ · (lower + upper)` and size `upper − lower`.
-/
import Idealize.ShloMosaic.PureOps.Ideal
import Idealize.ShloMosaic.Lib.ValueIdx

noncomputable section

namespace Cert.Iou

open Idealize.ShloMosaic Idealize.ShloMosaic.ValueIdx

/-- The constant one half, as both programs spell it. -/
abbrev half : EReal := Ideal.ofBits .f32 0x3F000000#32
/-- The constant zero, as both programs spell it. -/
abbrev zero : EReal := Ideal.ofBits .f32 0x00000000#32

/-- The lower edge of a proposal along one axis: centre `g + o`, size `a · exp e`. -/
def lo (g o a e : EReal) : EReal := (g + o) - half * (a * Ideal.exp e)
/-- The upper edge of a proposal along one axis. -/
def hi (g o a e : EReal) : EReal := (g + o) + half * (a * Ideal.exp e)

/-- Intersection over union of the box `(px1, py1, px2, py2)` with the box `(bx1, by1, bx2, by2)`. -/
def iou (px1 py1 px2 py2 bx1 by1 bx2 by2 : EReal) : EReal :=
  Ideal.div
    (Scalar.select (IntOp.ori (FloatOps.cmpf (F := Ideal) (φ := .f32) .ogt (max px1 bx1) (min px2 bx2)) (FloatOps.cmpf (F := Ideal) (φ := .f32) .ogt (max py1 by1) (min py2 by2)))
      zero ((min px2 bx2 - max px1 bx1) * (min py2 by2 - max py1 by1)))
    (((px2 - px1) * (py2 - py1) + (bx2 - bx1) * (by2 - by1))
      - Scalar.select (IntOp.ori (FloatOps.cmpf (F := Ideal) (φ := .f32) .ogt (max px1 bx1) (min px2 bx2)) (FloatOps.cmpf (F := Ideal) (φ := .f32) .ogt (max py1 by1) (min py2 by2)))
          zero ((min px2 bx2 - max px1 bx1) * (min py2 by2 - max py1 by1)))

abbrev AncIdx := (⟨2, ![9, 2]⟩ : Shape).Idx
abbrev GridIdx := (⟨4, ![16, 56, 56, 2]⟩ : Shape).Idx
abbrev OffIdx := (⟨5, ![16, 9, 56, 56, 4]⟩ : Shape).Idx
abbrev BoxIdx := (⟨3, ![16, 64, 5]⟩ : Shape).Idx
abbrev OutIdx := (⟨3, ![16, 28224, 64]⟩ : Shape).Idx

/-- The result at batch `b`, anchor `a`, cell `(h, w)`, ground-truth box `n`. -/
def cell (anc : AncIdx → EReal) (grid : GridIdx → EReal) (off : OffIdx → EReal) (bb : BoxIdx → EReal)
    (b : Fin 16) (a : Fin 9) (h w : Fin 56) (n : Fin 64) : EReal :=
  iou
    (lo (grid (ix4 b h w (0 : Fin 2))) (off (ix5 b a h w (0 : Fin 4))) (anc (ix2 a (0 : Fin 2))) (off (ix5 b a h w (2 : Fin 4))))
    (lo (grid (ix4 b h w (1 : Fin 2))) (off (ix5 b a h w (1 : Fin 4))) (anc (ix2 a (1 : Fin 2))) (off (ix5 b a h w (3 : Fin 4))))
    (hi (grid (ix4 b h w (0 : Fin 2))) (off (ix5 b a h w (0 : Fin 4))) (anc (ix2 a (0 : Fin 2))) (off (ix5 b a h w (2 : Fin 4))))
    (hi (grid (ix4 b h w (1 : Fin 2))) (off (ix5 b a h w (1 : Fin 4))) (anc (ix2 a (1 : Fin 2))) (off (ix5 b a h w (3 : Fin 4))))
    (bb (ix3 b n (0 : Fin 5))) (bb (ix3 b n (1 : Fin 5))) (bb (ix3 b n (2 : Fin 5))) (bb (ix3 b n (3 : Fin 5)))

/-- The anchor of result row `r`. -/
def rowAnchor (r : Fin 28224) : Fin 9 := ⟨r.val / 3136, by have := r.isLt; omega⟩
/-- The cell row of result row `r`. -/
def rowH (r : Fin 28224) : Fin 56 := ⟨r.val % 3136 / 56, by have := r.isLt; omega⟩
/-- The cell column of result row `r`. -/
def rowW (r : Fin 28224) : Fin 56 := ⟨r.val % 56, by omega⟩

/-- The whole result array. -/
def G (anc : AncIdx → EReal) (grid : GridIdx → EReal) (off : OffIdx → EReal) (bb : BoxIdx → EReal) : OutIdx → EReal :=
  fun i => cell anc grid off bb (i 0) (rowAnchor (i 1)) (rowH (i 1)) (rowW (i 1)) (i 2)

/-! ## Centre and size of a box given by its two edges, on the reals -/

theorem half_eq : half = ((1 / 2 : ℝ) : EReal) := by
  simp [half, Ideal.ofBits, Ideal.ieee, -EReal.coe_mul]; norm_num

/-- The midpoint of `g − ½a` and `g + ½a` is `g`. -/
theorem centre_eq (g a : ℝ) :
    half * (((g : EReal) + half * (-(a : EReal))) + ((g : EReal) + half * (a : EReal))) = (g : EReal) := by
  rw [half_eq, ← EReal.coe_neg, ← EReal.coe_mul, ← EReal.coe_mul, ← EReal.coe_add, ← EReal.coe_add, ← EReal.coe_add,
    ← EReal.coe_mul]
  congr 1; ring

/-- The distance from `g − ½a` to `g + ½a` is `a`. -/
theorem size_eq (g a : ℝ) :
    ((g : EReal) + half * (a : EReal)) - ((g : EReal) + half * (-(a : EReal))) = (a : EReal) := by
  rw [half_eq, ← EReal.coe_neg, ← EReal.coe_mul, ← EReal.coe_mul, ← EReal.coe_add, ← EReal.coe_add, ← EReal.coe_sub]
  congr 1; ring

end Cert.Iou

end
-- ==== Proof.LibLastAxis.lean ====
/-
  Re-indexings of the last axis of an array, read at an index.

  A column of the last axis: a unit-stride slice of width one at offset `k` on the last axis, followed by the recast that
  drops that axis, reads the operand at the same leading coordinates and `k` on the last axis (ranks 2 to 5). A narrower
  slice of the last axis at offset `k` reads the operand at the same leading coordinates and `k + j` on the last axis
  (ranks 3 and 4). A scalar broadcast to any shape holds the scalar at every index.
  General: nothing here depends on a particular program.
-/
import Idealize.ShloMosaic.Lib.ValueIdx
import Idealize.ShloMosaic.Lib.Pipeline.Value

namespace Cert.LibLastAxis

open Idealize.ShloMosaic Idealize.ShloMosaic.ValueIdx

variable {α : Type}

/-- Column `k` of a rank-2 array, as a vector. -/
theorem col2 {n0 K : Nat} (x : (⟨2, ![n0, K]⟩ : Shape).Idx → α) (k : Nat) (hk : k < K)
    (hs : (⟨2, ![n0, K]⟩ : Shape).Slices ![0, k] ⟨2, ![n0, 1]⟩) (hc : (⟨2, ![n0, 1]⟩ : Shape).ShapeCasts ⟨1, ![n0]⟩)
    (i0 : Fin n0) :
    shapeCast ⟨1, ![n0]⟩ (extractStridedSlice ⟨2, ![n0, 1]⟩ ![0, k] x hs) hc (ix1 i0) = x (ix2 i0 ⟨k, hk⟩) := by
  refine (shapeCast_apply _ hc (ix1 i0) (ix2 i0 (0 : Fin 1)) ?_).trans
    (extractStridedSlice_apply _ x hs _ _ fun d => ?_)
  · rw [Shape.rowMajor_val_two, Shape.rowMajor_val_one]
    show i0.val * 1 + 0 = i0.val
    omega
  · match d with
    | ⟨0, _⟩ => exact (Nat.zero_add _).symm
    | ⟨1, _⟩ => rfl

/-- Column `k` of the last axis of a rank-3 array. -/
theorem col3 {n0 n1 K : Nat} (x : (⟨3, ![n0, n1, K]⟩ : Shape).Idx → α) (k : Nat) (hk : k < K)
    (hs : (⟨3, ![n0, n1, K]⟩ : Shape).Slices ![0, 0, k] ⟨3, ![n0, n1, 1]⟩)
    (hc : (⟨3, ![n0, n1, 1]⟩ : Shape).ShapeCasts ⟨2, ![n0, n1]⟩) (i0 : Fin n0) (i1 : Fin n1) :
    shapeCast ⟨2, ![n0, n1]⟩ (extractStridedSlice ⟨3, ![n0, n1, 1]⟩ ![0, 0, k] x hs) hc (ix2 i0 i1) = x (ix3 i0 i1 ⟨k, hk⟩) := by
  refine (shapeCast_apply _ hc (ix2 i0 i1) (ix3 i0 i1 (0 : Fin 1)) ?_).trans
    (extractStridedSlice_apply _ x hs _ _ fun d => ?_)
  · rw [Shape.rowMajor_val_three, Shape.rowMajor_val_two]
    show (i0.val * n1 + i1.val) * 1 + 0 = i0.val * n1 + i1.val
    omega
  · match d with
    | ⟨0, _⟩ => exact (Nat.zero_add _).symm
    | ⟨1, _⟩ => exact (Nat.zero_add _).symm
    | ⟨2, _⟩ => rfl

/-- Column `k` of the last axis of a rank-4 array. -/
theorem col4 {n0 n1 n2 K : Nat} (x : (⟨4, ![n0, n1, n2, K]⟩ : Shape).Idx → α) (k : Nat) (hk : k < K)
    (hs : (⟨4, ![n0, n1, n2, K]⟩ : Shape).Slices ![0, 0, 0, k] ⟨4, ![n0, n1, n2, 1]⟩)
    (hc : (⟨4, ![n0, n1, n2, 1]⟩ : Shape).ShapeCasts ⟨3, ![n0, n1, n2]⟩) (i0 : Fin n0) (i1 : Fin n1) (i2 : Fin n2) :
    shapeCast ⟨3, ![n0, n1, n2]⟩ (extractStridedSlice ⟨4, ![n0, n1, n2, 1]⟩ ![0, 0, 0, k] x hs) hc (ix3 i0 i1 i2)
      = x (ix4 i0 i1 i2 ⟨k, hk⟩) := by
  refine (shapeCast_apply _ hc (ix3 i0 i1 i2) (ix4 i0 i1 i2 (0 : Fin 1)) ?_).trans
    (extractStridedSlice_apply _ x hs _ _ fun d => ?_)
  · rw [Shape.rowMajor_val_four, Shape.rowMajor_val_three]
    show ((i0.val * n1 + i1.val) * n2 + i2.val) * 1 + 0 = (i0.val * n1 + i1.val) * n2 + i2.val
    omega
  · match d with
    | ⟨0, _⟩ => exact (Nat.zero_add _).symm
    | ⟨1, _⟩ => exact (Nat.zero_add _).symm
    | ⟨2, _⟩ => exact (Nat.zero_add _).symm
    | ⟨3, _⟩ => rfl

/-- Column `k` of the last axis of a rank-5 array. -/
theorem col5 {n0 n1 n2 n3 K : Nat} (x : (⟨5, ![n0, n1, n2, n3, K]⟩ : Shape).Idx → α) (k : Nat) (hk : k < K)
    (hs : (⟨5, ![n0, n1, n2, n3, K]⟩ : Shape).Slices ![0, 0, 0, 0, k] ⟨5, ![n0, n1, n2, n3, 1]⟩)
    (hc : (⟨5, ![n0, n1, n2, n3, 1]⟩ : Shape).ShapeCasts ⟨4, ![n0, n1, n2, n3]⟩)
    (i0 : Fin n0) (i1 : Fin n1) (i2 : Fin n2) (i3 : Fin n3) :
    shapeCast ⟨4, ![n0, n1, n2, n3]⟩ (extractStridedSlice ⟨5, ![n0, n1, n2, n3, 1]⟩ ![0, 0, 0, 0, k] x hs) hc (ix4 i0 i1 i2 i3)
      = x (ix5 i0 i1 i2 i3 ⟨k, hk⟩) := by
  refine (shapeCast_apply _ hc (ix4 i0 i1 i2 i3) (ix5 i0 i1 i2 i3 (0 : Fin 1)) ?_).trans
    (extractStridedSlice_apply _ x hs _ _ fun d => ?_)
  · rw [Shape.rowMajor_val_five, Shape.rowMajor_val_four]
    show (((i0.val * n1 + i1.val) * n2 + i2.val) * n3 + i3.val) * 1 + 0 = ((i0.val * n1 + i1.val) * n2 + i2.val) * n3 + i3.val
    omega
  · match d with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => rfl

/-- A slice of the last axis of a rank-3 array at offset `k`: entry `j` is the operand's entry `k + j`. -/
theorem lastSlice3 {n0 n1 K M : Nat} (x : (⟨3, ![n0, n1, K]⟩ : Shape).Idx → α) (k : Nat)
    (hs : (⟨3, ![n0, n1, K]⟩ : Shape).Slices ![0, 0, k] ⟨3, ![n0, n1, M]⟩) (i0 : Fin n0) (i1 : Fin n1) (j : Fin M)
    (j' : Fin K) (hj : j'.val = k + j.val) :
    extractStridedSlice ⟨3, ![n0, n1, M]⟩ ![0, 0, k] x hs (ix3 i0 i1 j) = x (ix3 i0 i1 j') :=
  extractStridedSlice_apply _ x hs _ _ fun d => match d with
    | ⟨0, _⟩ => (Nat.zero_add _).symm
    | ⟨1, _⟩ => (Nat.zero_add _).symm
    | ⟨2, _⟩ => hj

/-- A slice of the last axis of a rank-4 array at offset `k`: entry `j` is the operand's entry `k + j`. -/
theorem lastSlice4 {n0 n1 n2 K M : Nat} (x : (⟨4, ![n0, n1, n2, K]⟩ : Shape).Idx → α) (k : Nat)
    (hs : (⟨4, ![n0, n1, n2, K]⟩ : Shape).Slices ![0, 0, 0, k] ⟨4, ![n0, n1, n2, M]⟩)
    (i0 : Fin n0) (i1 : Fin n1) (i2 : Fin n2) (j : Fin M) (j' : Fin K) (hj : j'.val = k + j.val) :
    extractStridedSlice ⟨4, ![n0, n1, n2, M]⟩ ![0, 0, 0, k] x hs (ix4 i0 i1 i2 j) = x (ix4 i0 i1 i2 j') :=
  extractStridedSlice_apply _ x hs _ _ fun d => match d with
    | ⟨0, _⟩ => (Nat.zero_add _).symm
    | ⟨1, _⟩ => (Nat.zero_add _).symm
    | ⟨2, _⟩ => (Nat.zero_add _).symm
    | ⟨3, _⟩ => hj

/-- A scalar broadcast to any shape holds the scalar everywhere. -/
theorem bcastScalar {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

end Cert.LibLastAxis
-- ==== Proof.KernelBody.lean ====
/-
  The kernel's body as a pure function of what it loads, read at an index.

  At grid point (batch, anchor) the body loads the batch's cell centres [1,56,56,2], the (batch, anchor) offsets
  [1,1,56,56,4], row `anchor` of the anchors' table [9,2] and the batch's boxes [1,64,5], and stores one block
  [1,3136,64]. Row `q` of the block is cell (q / 56, q % 56); its entry for box `n` is the intersection over union
  of the cell's proposal with the box.
-/
import proofs.«107946_j57105885168323_1_alg».proof.Proof.Gen.KernelIdeal.Value
import proofs.«107946_j57105885168323_1_alg».proof.Proof.IouSpec
import proofs.«107946_j57105885168323_1_alg».proof.Proof.LibLastAxis
import Idealize.ShloMosaic.Lib.Pipeline.Value
import Idealize.ShloMosaic.Lib.ValueIdx
import Idealize.ShloMosaic.Lib.Tactic

noncomputable section

namespace Cert.KernelIdeal.IouBody

open Cert.KernelIdeal Cert.KernelIdeal.Gen Idealize.ShloMosaic Idealize.ShloMosaic.TcCoe Idealize.SL.Sem
open Idealize.ShloMosaic.ValueIdx Cert.LibLastAxis

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

section AnyF
variable {F : FTy → Type} [FloatOps F]

/-- The row of the anchors' table the body loads at grid point `i`: row `i 1`. -/
def ancRow (i : grid0.Coords) (x0 : Vec F S9x2 .f32) : Vec F S1x2 .f32 :=
  View.ld x0 (Rect.unit (s := S9x2) (k0_off1 i) S1x2.size (k0_off1_inb i))

/-- The block the body stores, as a function of the four blocks it loads. -/
def body (i : grid0.Coords) (x0 : Vec F S9x2 .f32) (x1 : Vec F S1x56x56x2 .f32) (x2 : Vec F S1x1x56x56x4 .f32)
    (x3 : Vec F S1x64x5 .f32) : Vec F S1x3136x64 .f32 :=
  k0_pay1 (k0_pay13 (k0_pay9 x1 x2 (ancRow i x0)) (k0_pay10 x1 x2 (ancRow i x0)) (k0_pay11 x1 x2 (ancRow i x0))
    (k0_pay12 x1 x2 (ancRow i x0)) x3)

/-- What the run leaves in the output's staging buffer is that block: the one store covers the buffer, and each load
    reads a whole staging buffer (the anchors' row through its rectangle). -/
theorem out_eq (c : Dev nD) (i : grid0.Coords) (arg2 : Memref sig .tc .vmem S9x2 .f32) (harg2 : arg2.IsWhole)
    (arg3 : Memref sig .tc .vmem S1x56x56x2 .f32) (harg3 : arg3.IsWhole) (arg4 : Memref sig .tc .vmem S1x1x56x56x4 .f32)
    (harg4 : arg4.IsWhole) (arg5 : Memref sig .tc .vmem S1x64x5 .f32) (harg5 : arg5.IsWhole)
    (arg6 : Memref sig .tc .vmem S1x3136x64 .f32) (harg6 : arg6.IsWhole)
    (x0 : Vec F S9x2 .f32) (x1 : Vec F S1x56x56x2 .f32) (x2 : Vec F S1x1x56x56x4 .f32) (x3 : Vec F S1x64x5 .f32) :
    out0_A_4 c i arg2 harg2 arg3 harg3 arg4 harg4 arg5 harg5 arg6 harg6 x0 x1 x2 x3 = body i x0 x1 x2 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x56x56x2) hz4, View.ld_unit_zero (S := S1x1x56x56x4) hz5, View.ld_unit_zero (S := S1x64x5) hz3]
  rfl

end AnyF

/-! ## The body's re-indexings read at an index -/

section Layout
variable {α : Type}

/-- The stored block with its leading unit axis: row `q`, box `n`. -/
theorem blockRows (v : (⟨2, ![3136, 64]⟩ : Shape).Idx → α) (hc : (⟨2, ![3136, 64]⟩ : Shape).ShapeCasts ⟨3, ![1, 3136, 64]⟩)
    (u : Fin 1) (q : Fin 3136) (n : Fin 64) : shapeCast ⟨3, ![1, 3136, 64]⟩ v hc (ix3 u q n) = v (ix2 q n) := by
  refine shapeCast_apply v hc _ _ ?_
  rw [Shape.rowMajor_val_three, Shape.rowMajor_val_two]
  show q.val * 64 + n.val = (u.val * 3136 + q.val) * 64 + n.val
  have hu : u.val = 0 := by have := u.isLt; omega
  omega

/-- The cells flattened into rows: row `q` is cell `(q / 56, q % 56)`. -/
theorem flatCells (z : (⟨3, ![56, 56, 64]⟩ : Shape).Idx → α) (hc : (⟨3, ![56, 56, 64]⟩ : Shape).ShapeCasts ⟨2, ![3136, 64]⟩)
    (q : Fin 3136) (n : Fin 64) (h w : Fin 56) (hh : h.val = q.val / 56) (hw : w.val = q.val % 56) :
    shapeCast ⟨2, ![3136, 64]⟩ z hc (ix2 q n) = z (ix3 h w n) := by
  refine shapeCast_apply z hc _ _ ?_
  rw [Shape.rowMajor_val_three, Shape.rowMajor_val_two]
  show (h.val * 56 + w.val) * 64 + n.val = q.val * 64 + n.val
  omega

/-- A per-cell value against every box. -/
theorem overBoxes (x : (⟨2, ![56, 56]⟩ : Shape).Idx → α) (hc : (⟨2, ![56, 56]⟩ : Shape).ShapeCasts ⟨3, ![56, 56, 1]⟩)
    (hb : (⟨3, ![56, 56, 1]⟩ : Shape).Broadcasts ⟨3, ![56, 56, 64]⟩) (h w : Fin 56) (n : Fin 64) :
    broadcastTo ⟨3, ![56, 56, 64]⟩ (shapeCast ⟨3, ![56, 56, 1]⟩ x hc) hb (ix3 h w n) = x (ix2 h w) := by
  refine (broadcastTo_apply _ hb (ix3 h w n) (ix3 h w (0 : Fin 1)) fun d => ?_).trans (shapeCast_apply x hc _ _ ?_)
  · match d with
    | ⟨0, _⟩ => show h.val = if (56 : Nat) = 1 then 0 else h.val; rw [if_neg (by decide)]
    | ⟨1, _⟩ => show w.val = if (56 : Nat) = 1 then 0 else w.val; rw [if_neg (by decide)]
    | ⟨2, _⟩ => show 0 = if (1 : Nat) = 1 then 0 else n.val; rw [if_pos rfl]
  · rw [Shape.rowMajor_val_three, Shape.rowMajor_val_two]
    show h.val * 56 + w.val = (h.val * 56 + w.val) * 1 + 0
    omega

/-- A per-box value against every cell. -/
theorem overCells (v : (⟨1, ![64]⟩ : Shape).Idx → α) (hc : (⟨1, ![64]⟩ : Shape).ShapeCasts ⟨3, ![1, 1, 64]⟩)
    (hb : (⟨3, ![1, 1, 64]⟩ : Shape).Broadcasts ⟨3, ![56, 56, 64]⟩) (h w : Fin 56) (n : Fin 64) :
    broadcastTo ⟨3, ![56, 56, 64]⟩ (shapeCast ⟨3, ![1, 1, 64]⟩ v hc) hb (ix3 h w n) = v (ix1 n) := by
  refine (broadcastTo_apply _ hb (ix3 h w n) (ix3 (0 : Fin 1) (0 : Fin 1) n) fun d => ?_).trans (shapeCast_apply v hc _ _ ?_)
  · match d with
    | ⟨0, _⟩ => show 0 = if (1 : Nat) = 1 then 0 else h.val; rw [if_pos rfl]
    | ⟨1, _⟩ => show 0 = if (1 : Nat) = 1 then 0 else w.val; rw [if_pos rfl]
    | ⟨2, _⟩ => show n.val = if (64 : Nat) = 1 then 0 else n.val; rw [if_neg (by decide)]
  · rw [Shape.rowMajor_val_three, Shape.rowMajor_val_one]
    show n.val = (0 * 1 + 0) * 64 + n.val
    omega

/-- Coordinate `k` of box `n`. -/
theorem boxCol (x3 : (⟨3, ![1, 64, 5]⟩ : Shape).Idx → α) (k : Nat) (hk : k < 5)
    (hc1 : (⟨3, ![1, 64, 5]⟩ : Shape).ShapeCasts ⟨2, ![64, 5]⟩) (hs : (⟨2, ![64, 5]⟩ : Shape).Slices ![0, k] ⟨2, ![64, 1]⟩)
    (hc2 : (⟨2, ![64, 1]⟩ : Shape).ShapeCasts ⟨1, ![64]⟩) (n : Fin 64) :
    shapeCast ⟨1, ![64]⟩ (extractStridedSlice ⟨2, ![64, 1]⟩ ![0, k] (shapeCast ⟨2, ![64, 5]⟩ x3 hc1) hs) hc2 (ix1 n)
      = x3 (ix3 (0 : Fin 1) n ⟨k, hk⟩) := by
  refine (col2 _ k hk hs hc2 n).trans (shapeCast_apply x3 hc1 _ _ ?_)
  rw [Shape.rowMajor_val_three, Shape.rowMajor_val_two]
  show (0 * 64 + n.val) * 5 + k = n.val * 5 + k
  omega

/-- Coordinate `k` of the centre of cell `(h, w)`. -/
theorem gridCol (x1 : (⟨4, ![1, 56, 56, 2]⟩ : Shape).Idx → α) (k : Nat) (hk : k < 2)
    (hc1 : (⟨4, ![1, 56, 56, 2]⟩ : Shape).ShapeCasts ⟨3, ![56, 56, 2]⟩)
    (hs : (⟨3, ![56, 56, 2]⟩ : Shape).Slices ![0, 0, k] ⟨3, ![56, 56, 1]⟩)
    (hc2 : (⟨3, ![56, 56, 1]⟩ : Shape).ShapeCasts ⟨2, ![56, 56]⟩) (h w : Fin 56) :
    shapeCast ⟨2, ![56, 56]⟩ (extractStridedSlice ⟨3, ![56, 56, 1]⟩ ![0, 0, k] (shapeCast ⟨3, ![56, 56, 2]⟩ x1 hc1) hs) hc2 (ix2 h w)
      = x1 (ix4 (0 : Fin 1) h w ⟨k, hk⟩) := by
  refine (col3 _ k hk hs hc2 h w).trans (shapeCast_apply x1 hc1 _ _ ?_)
  rw [Shape.rowMajor_val_four, Shape.rowMajor_val_three]
  show ((0 * 56 + h.val) * 56 + w.val) * 2 + k = (h.val * 56 + w.val) * 2 + k
  omega

/-- Coordinate `k` of the offsets of cell `(h, w)`. -/
theorem offCol (x2 : (⟨5, ![1, 1, 56, 56, 4]⟩ : Shape).Idx → α) (k : Nat) (hk : k < 4)
    (hc1 : (⟨5, ![1, 1, 56, 56, 4]⟩ : Shape).ShapeCasts ⟨3, ![56, 56, 4]⟩)
    (hs : (⟨3, ![56, 56, 4]⟩ : Shape).Slices ![0, 0, k] ⟨3, ![56, 56, 1]⟩)
    (hc2 : (⟨3, ![56, 56, 1]⟩ : Shape).ShapeCasts ⟨2, ![56, 56]⟩) (h w : Fin 56) :
    shapeCast ⟨2, ![56, 56]⟩ (extractStridedSlice ⟨3, ![56, 56, 1]⟩ ![0, 0, k] (shapeCast ⟨3, ![56, 56, 4]⟩ x2 hc1) hs) hc2 (ix2 h w)
      = x2 (ix5 (0 : Fin 1) (0 : Fin 1) h w ⟨k, hk⟩) := by
  refine (col3 _ k hk hs hc2 h w).trans (shapeCast_apply x2 hc1 _ _ ?_)
  rw [Shape.rowMajor_val_five, Shape.rowMajor_val_three]
  show (((0 * 1 + 0) * 56 + h.val) * 56 + w.val) * 4 + k = (h.val * 56 + w.val) * 4 + k
  omega

/-- Entry `k` of the loaded anchors' row. -/
theorem ancEntry (row : (⟨2, ![1, 2]⟩ : Shape).Idx → α) (k : Nat) (hk : k < 2)
    (hc : (⟨2, ![1, 2]⟩ : Shape).ShapeCasts ⟨1, ![2]⟩) (hs : (⟨1, ![2]⟩ : Shape).Slices ![k] ⟨1, ![1]⟩)
    (hp : ∀ a, (![0] : Fin 1 → Nat) a < (⟨1, ![1]⟩ : Shape).size a) :
    extractAt ![0] (extractStridedSlice ⟨1, ![1]⟩ ![k] (shapeCast ⟨1, ![2]⟩ row hc) hs) hp = row (ix2 (0 : Fin 1) ⟨k, hk⟩) := by
  unfold extractAt
  refine (extractStridedSlice_apply _ _ hs _ (ix1 (⟨k, hk⟩ : Fin 2)) fun d => ?_).trans (shapeCast_apply row hc _ _ ?_)
  · match d with
    | ⟨0, _⟩ => rfl
  · rw [Shape.rowMajor_val_two, Shape.rowMajor_val_one]
    show 0 * 2 + k = k
    omega

end Layout

/-! ## The payloads at an index, over the extended reals -/

section AtIdeal

theorem exp_apply {s : Shape} (a : FVec Ideal s .f32) (i : s.Idx) : exp a i = Ideal.exp (a i) := rfl
theorem ori_apply {s : Shape} (a b : IVec s 1) (i : s.Idx) : ori a b i = IntOp.ori (a i) (b i) := rfl

/-- The lower x-edge of cell `(h, w)`'s proposal. -/
theorem pay9_apply (x1 : Vec Ideal S1x56x56x2 .f32) (x2 : Vec Ideal S1x1x56x56x4 .f32) (row : Vec Ideal S1x2 .f32) (h w : Fin 56) :
    k0_pay9 (F := Ideal) x1 x2 row (ix2 h w)
      = Cert.Iou.lo (x1 (ix4 (0 : Fin 1) h w (0 : Fin 2))) (x2 (ix5 (0 : Fin 1) (0 : Fin 1) h w (0 : Fin 4)))
          (row (ix2 (0 : Fin 1) (0 : Fin 2))) (x2 (ix5 (0 : Fin 1) (0 : Fin 1) h w (2 : Fin 4))) := by
  unfold k0_pay9 k0_pay5 k0_pay7 k0_pay2 k0_pay3 k0_pay4
  dsimp only
  simp only [subf_apply, addf_apply, mulf_apply, broadcast_apply, exp_apply]
  rw [gridCol _ 0 (by decide), offCol _ 0 (by decide), offCol _ 2 (by decide), ancEntry _ 0 (by decide)]
  rfl

/-- The lower y-edge. -/
theorem pay10_apply (x1 : Vec Ideal S1x56x56x2 .f32) (x2 : Vec Ideal S1x1x56x56x4 .f32) (row : Vec Ideal S1x2 .f32) (h w : Fin 56) :
    k0_pay10 (F := Ideal) x1 x2 row (ix2 h w)
      = Cert.Iou.lo (x1 (ix4 (0 : Fin 1) h w (1 : Fin 2))) (x2 (ix5 (0 : Fin 1) (0 : Fin 1) h w (1 : Fin 4)))
          (row (ix2 (0 : Fin 1) (1 : Fin 2))) (x2 (ix5 (0 : Fin 1) (0 : Fin 1) h w (3 : Fin 4))) := by
  unfold k0_pay10 k0_pay6 k0_pay8 k0_pay2 k0_pay3 k0_pay4
  dsimp only
  simp only [subf_apply, addf_apply, mulf_apply, broadcast_apply, exp_apply]
  rw [gridCol _ 1 (by decide), offCol _ 1 (by decide), offCol _ 3 (by decide), ancEntry _ 1 (by decide)]
  rfl

/-- The upper x-edge. -/
theorem pay11_apply (x1 : Vec Ideal S1x56x56x2 .f32) (x2 : Vec Ideal S1x1x56x56x4 .f32) (row : Vec Ideal S1x2 .f32) (h w : Fin 56) :
    k0_pay11 (F := Ideal) x1 x2 row (ix2 h w)
      = Cert.Iou.hi (x1 (ix4 (0 : Fin 1) h w (0 : Fin 2))) (x2 (ix5 (0 : Fin 1) (0 : Fin 1) h w (0 : Fin 4)))
          (row (ix2 (0 : Fin 1) (0 : Fin 2))) (x2 (ix5 (0 : Fin 1) (0 : Fin 1) h w (2 : Fin 4))) := by
  unfold k0_pay11 k0_pay5 k0_pay7 k0_pay2 k0_pay3 k0_pay4
  dsimp only
  simp only [subf_apply, addf_apply, mulf_apply, broadcast_apply, exp_apply]
  rw [gridCol _ 0 (by decide), offCol _ 0 (by decide), offCol _ 2 (by decide), ancEntry _ 0 (by decide)]
  rfl

/-- The upper y-edge. -/
theorem pay12_apply (x1 : Vec Ideal S1x56x56x2 .f32) (x2 : Vec Ideal S1x1x56x56x4 .f32) (row : Vec Ideal S1x2 .f32) (h w : Fin 56) :
    k0_pay12 (F := Ideal) x1 x2 row (ix2 h w)
      = Cert.Iou.hi (x1 (ix4 (0 : Fin 1) h w (1 : Fin 2))) (x2 (ix5 (0 : Fin 1) (0 : Fin 1) h w (1 : Fin 4)))
          (row (ix2 (0 : Fin 1) (1 : Fin 2))) (x2 (ix5 (0 : Fin 1) (0 : Fin 1) h w (3 : Fin 4))) := by
  unfold k0_pay12 k0_pay6 k0_pay8 k0_pay2 k0_pay3 k0_pay4
  dsimp only
  simp only [subf_apply, addf_apply, mulf_apply, broadcast_apply, exp_apply]
  rw [gridCol _ 1 (by decide), offCol _ 1 (by decide), offCol _ 3 (by decide), ancEntry _ 1 (by decide)]
  rfl

/-- Row `q`, box `n` of the flattened block: the intersection over union of cell `(q / 56, q % 56)`'s proposal, given
    by its four edge arrays, with box `n`. -/
theorem pay13_apply (e0 e1 e2 e3 : FVec Ideal S56x56 .f32) (x3 : Vec Ideal S1x64x5 .f32) (q : Fin 3136) (n : Fin 64)
    (h w : Fin 56) (hh : h.val = q.val / 56) (hw : w.val = q.val % 56) :
    k0_pay13 (F := Ideal) e0 e1 e2 e3 x3 (ix2 q n)
      = Cert.Iou.iou (e0 (ix2 h w)) (e1 (ix2 h w)) (e2 (ix2 h w)) (e3 (ix2 h w))
          (x3 (ix3 (0 : Fin 1) n (0 : Fin 5))) (x3 (ix3 (0 : Fin 1) n (1 : Fin 5))) (x3 (ix3 (0 : Fin 1) n (2 : Fin 5)))
          (x3 (ix3 (0 : Fin 1) n (3 : Fin 5))) := by
  unfold k0_pay13
  rw [flatCells _ _ q n h w hh hw]
  simp only [divf_apply, select_apply, ori_apply, cmpf_apply, subf_apply, mulf_apply, addf_apply, maximumf_apply,
    minimumf_apply, broadcast_apply, overBoxes, overCells]
  rw [boxCol _ 0 (by decide), boxCol _ 1 (by decide), boxCol _ 2 (by decide), boxCol _ 3 (by decide)]
  rfl

/-- The stored block at row `q`, box `n`. -/
theorem body_apply (i : grid0.Coords) (x0 : Vec Ideal S9x2 .f32) (x1 : Vec Ideal S1x56x56x2 .f32)
    (x2 : Vec Ideal S1x1x56x56x4 .f32) (x3 : Vec Ideal S1x64x5 .f32) (u : Fin 1) (q : Fin 3136) (n : Fin 64)
    (h w : Fin 56) (hh : h.val = q.val / 56) (hw : w.val = q.val % 56) :
    body (F := Ideal) i x0 x1 x2 x3 (ix3 u q n)
      = Cert.Iou.iou
          (Cert.Iou.lo (x1 (ix4 (0 : Fin 1) h w (0 : Fin 2))) (x2 (ix5 (0 : Fin 1) (0 : Fin 1) h w (0 : Fin 4)))
            (ancRow i x0 (ix2 (0 : Fin 1) (0 : Fin 2))) (x2 (ix5 (0 : Fin 1) (0 : Fin 1) h w (2 : Fin 4))))
          (Cert.Iou.lo (x1 (ix4 (0 : Fin 1) h w (1 : Fin 2))) (x2 (ix5 (0 : Fin 1) (0 : Fin 1) h w (1 : Fin 4)))
            (ancRow i x0 (ix2 (0 : Fin 1) (1 : Fin 2))) (x2 (ix5 (0 : Fin 1) (0 : Fin 1) h w (3 : Fin 4))))
          (Cert.Iou.hi (x1 (ix4 (0 : Fin 1) h w (0 : Fin 2))) (x2 (ix5 (0 : Fin 1) (0 : Fin 1) h w (0 : Fin 4)))
            (ancRow i x0 (ix2 (0 : Fin 1) (0 : Fin 2))) (x2 (ix5 (0 : Fin 1) (0 : Fin 1) h w (2 : Fin 4))))
          (Cert.Iou.hi (x1 (ix4 (0 : Fin 1) h w (1 : Fin 2))) (x2 (ix5 (0 : Fin 1) (0 : Fin 1) h w (1 : Fin 4)))
            (ancRow i x0 (ix2 (0 : Fin 1) (1 : Fin 2))) (x2 (ix5 (0 : Fin 1) (0 : Fin 1) h w (3 : Fin 4))))
          (x3 (ix3 (0 : Fin 1) n (0 : Fin 5))) (x3 (ix3 (0 : Fin 1) n (1 : Fin 5))) (x3 (ix3 (0 : Fin 1) n (2 : Fin 5)))
          (x3 (ix3 (0 : Fin 1) n (3 : Fin 5))) := by
  unfold body k0_pay1
  rw [blockRows _ _ u q n, pay13_apply _ _ _ _ _ q n h w hh hw, pay9_apply, pay10_apply, pay11_apply, pay12_apply]

end AtIdeal

end Cert.KernelIdeal.IouBody

end
-- ==== Proof.KernelValue.lean ====
/-
  From blocks to the array: after the kernel's run the result array is the specification `G` of the argument arrays.

  Grid point `t` is a (batch, anchor) pair; its output block is rows `anchor · 3136 … anchor · 3136 + 3135` of batch
  `batch`, all 64 boxes. The block it writes back is the body's result on the blocks it loads: the batch's cell centres,
  the (batch, anchor) offsets, the anchors' table (of which the body reads row `anchor`) and the batch's boxes; row `q` of
  the block is cell `(q / 56, q % 56)`, which is the cell of result row `anchor · 3136 + q`. So each written block is the
  block of `G`, and the 144 blocks cover the array.
-/
import proofs.«107946_j57105885168323_1_alg».proof.Proof.KernelBody

noncomputable section

namespace Cert.KernelIdeal.IouValue

open Cert.KernelIdeal Cert.KernelIdeal.Gen Cert.KernelIdeal.IouBody Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the 144 grid points: every input block moves with the output block's batch
    (and, for the offsets, anchor) index, the row the body reads of the anchors' table is the output block's anchor
    index, and the output block's indices stay in their ranges. -/
theorem idx_facts : ∀ t : Fin cfg0.N,
    win0_0.index t (0 : Fin 2) = 0 ∧ win0_0.index t (1 : Fin 2) = 0
    ∧ win0_1.index t (0 : Fin 4) = win0_4.index t (0 : Fin 3) ∧ win0_1.index t (1 : Fin 4) = 0
    ∧ win0_1.index t (2 : Fin 4) = 0 ∧ win0_1.index t (3 : Fin 4) = 0
    ∧ win0_2.index t (0 : Fin 5) = win0_4.index t (0 : Fin 3) ∧ win0_2.index t (1 : Fin 5) = win0_4.index t (1 : Fin 3)
    ∧ win0_2.index t (2 : Fin 5) = 0 ∧ win0_2.index t (3 : Fin 5) = 0 ∧ win0_2.index t (4 : Fin 5) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) < 16 ∧ win0_4.index t (1 : Fin 3) < 9
    ∧ k0_off1 (grid0.coords t) (0 : Fin 2) = win0_4.index t (1 : Fin 3) ∧ k0_off1 (grid0.coords t) (1 : Fin 2) = 0 :=
  (by decide +kernel : ∀ t : Fin grid0.N, _)

/-- Every (batch, anchor) pair is some grid point's output block. -/
theorem idx_onto : ∀ (q0 : Fin 16) (q1 : Fin 9), ∃ t : Fin cfg0.N, win0_4.index t = ![q0.val, q1.val, 0] :=
  (by decide +kernel : ∀ (q0 : Fin 16) (q1 : Fin 9), ∃ t : Fin grid0.N, win0_4.index t = ![q0.val, q1.val, 0])

/-- The result array: the specification of the argument arrays as the region finds them. -/
abbrev result (c : Dev nD) : S16x28224x64.Idx → Elt Ideal .f32 :=
  Cert.Iou.G (V m c main_arg0) (V m c main_arg1) (V m c main_arg2) (V m c main_arg3)

/-- WHAT POINT `t` WRITES BACK is block `t` of the result array. -/
theorem flushed_eq (c : Dev nD) (t : Fin cfg0.N) :
    (dats m 0 c).flushed 4 t = ((cfg0.win 4).blk t).view.read (Elt Ideal) (result m c) := by
  rw [Cert.KernelIdeal.Value.flushed4_A, out_eq]
  obtain ⟨f00, f01, f10, f11, f12, f13, f20, f21, f22, f23, f24, f30, f31, f32, f42, f4b, f4a, fo0, fo1⟩ := idx_facts t
  funext y
  obtain ⟨u, q, n, rfl⟩ : ∃ (u : Fin 1) (q : Fin 3136) (n : Fin 64), y = ix3 u q n := ⟨y 0, y 1, y 2, eq_ix3 y⟩
  have hq := q.isLt
  have hu : u.val = 0 := by have := u.isLt; omega
  show body (grid0.coords t) (iblk m c 0 t) (iblk m c 1 t) (iblk m c 2 t) (iblk m c 3 t) (ix3 u q n)
    = result m c (((cfg0.win 4).blk t).view.emb (ix3 u q n))
  -- the array index under the block index
  have hemb : ((cfg0.win 4).blk t).view.emb (ix3 u q n)
      = ix3 (⟨win0_4.index t (0 : Fin 3), f4b⟩ : Fin 16) (⟨win0_4.index t (1 : Fin 3) * 3136 + q.val, by omega⟩ : Fin 28224) n := by
    funext a; apply Fin.ext
    match a with
    | ⟨0, _⟩ => show win0_4.index t (0 : Fin 3) * 1 + 1 * u.val = win0_4.index t (0 : Fin 3); omega
    | ⟨1, _⟩ => show win0_4.index t (1 : Fin 3) * 3136 + 1 * q.val = win0_4.index t (1 : Fin 3) * 3136 + q.val; omega
    | ⟨2, _⟩ => show win0_4.index t (2 : Fin 3) * 64 + 1 * n.val = n.val; omega
  rw [hemb]
  -- the row's anchor and cell
  have hA : Cert.Iou.rowAnchor (⟨win0_4.index t (1 : Fin 3) * 3136 + q.val, by omega⟩ : Fin 28224) = (⟨win0_4.index t (1 : Fin 3), f4a⟩ : Fin 9) :=
    Fin.ext (by show (win0_4.index t (1 : Fin 3) * 3136 + q.val) / 3136 = win0_4.index t (1 : Fin 3); omega)
  have hH : Cert.Iou.rowH (⟨win0_4.index t (1 : Fin 3) * 3136 + q.val, by omega⟩ : Fin 28224) = (⟨q.val / 56, by omega⟩ : Fin 56) :=
    Fin.ext (by show (win0_4.index t (1 : Fin 3) * 3136 + q.val) % 3136 / 56 = q.val / 56; omega)
  have hW : Cert.Iou.rowW (⟨win0_4.index t (1 : Fin 3) * 3136 + q.val, by omega⟩ : Fin 28224) = (⟨q.val % 56, by omega⟩ : Fin 56) :=
    Fin.ext (by show (win0_4.index t (1 : Fin 3) * 3136 + q.val) % 56 = q.val % 56; omega)
  show _ = Cert.Iou.cell (V m c main_arg0) (V m c main_arg1) (V m c main_arg2) (V m c main_arg3)
    (⟨win0_4.index t (0 : Fin 3), f4b⟩ : Fin 16) (Cert.Iou.rowAnchor _) (Cert.Iou.rowH _) (Cert.Iou.rowW _) n
  rw [hA, hH, hW, body_apply (grid0.coords t) _ _ _ _ u q n ⟨q.val / 56, by omega⟩ ⟨q.val % 56, by omega⟩ rfl rfl]
  -- each loaded block read where the output's rectangle says
  have hg : ∀ k : Fin 2, iblk m c 1 t (ix4 (0 : Fin 1) (⟨q.val / 56, by omega⟩ : Fin 56) (⟨q.val % 56, by omega⟩ : Fin 56) k)
      = V m c main_arg1 (ix4 (⟨win0_4.index t (0 : Fin 3), f4b⟩ : Fin 16) (⟨q.val / 56, by omega⟩ : Fin 56) (⟨q.val % 56, by omega⟩ : Fin 56) k) := fun k => by
    show V m c main_arg1 (((cfg0.win 1).blk t).view.emb _) = V m c main_arg1 _
    refine congrArg (V m c main_arg1) (funext fun a => Fin.ext ?_)
    match a with
    | ⟨0, _⟩ => show win0_1.index t (0 : Fin 4) * 1 + 1 * 0 = win0_4.index t (0 : Fin 3); omega
    | ⟨1, _⟩ => show win0_1.index t (1 : Fin 4) * 56 + 1 * (q.val / 56) = q.val / 56; omega
    | ⟨2, _⟩ => show win0_1.index t (2 : Fin 4) * 56 + 1 * (q.val % 56) = q.val % 56; omega
    | ⟨3, _⟩ => show win0_1.index t (3 : Fin 4) * 2 + 1 * k.val = k.val; omega
  have ho : ∀ k : Fin 4, iblk m c 2 t (ix5 (0 : Fin 1) (0 : Fin 1) (⟨q.val / 56, by omega⟩ : Fin 56) (⟨q.val % 56, by omega⟩ : Fin 56) k)
      = V m c main_arg2 (ix5 (⟨win0_4.index t (0 : Fin 3), f4b⟩ : Fin 16) (⟨win0_4.index t (1 : Fin 3), f4a⟩ : Fin 9)
          (⟨q.val / 56, by omega⟩ : Fin 56) (⟨q.val % 56, by omega⟩ : Fin 56) k) := fun k => by
    show V m c main_arg2 (((cfg0.win 2).blk t).view.emb _) = V m c main_arg2 _
    refine congrArg (V m c main_arg2) (funext fun a => Fin.ext ?_)
    match a with
    | ⟨0, _⟩ => show win0_2.index t (0 : Fin 5) * 1 + 1 * 0 = win0_4.index t (0 : Fin 3); omega
    | ⟨1, _⟩ => show win0_2.index t (1 : Fin 5) * 1 + 1 * 0 = win0_4.index t (1 : Fin 3); omega
    | ⟨2, _⟩ => show win0_2.index t (2 : Fin 5) * 56 + 1 * (q.val / 56) = q.val / 56; omega
    | ⟨3, _⟩ => show win0_2.index t (3 : Fin 5) * 56 + 1 * (q.val % 56) = q.val % 56; omega
    | ⟨4, _⟩ => show win0_2.index t (4 : Fin 5) * 4 + 1 * k.val = k.val; omega
  have ha : ∀ k : Fin 2, ancRow (grid0.coords t) (iblk m c 0 t) (ix2 (0 : Fin 1) k)
      = V m c main_arg0 (ix2 (⟨win0_4.index t (1 : Fin 3), f4a⟩ : Fin 9) k) := fun k => by
    show V m c main_arg0 (((cfg0.win 0).blk t).view.emb _) = V m c main_arg0 _
    refine congrArg (V m c main_arg0) (funext fun a => Fin.ext ?_)
    match a with
    | ⟨0, _⟩ => show win0_0.index t (0 : Fin 2) * 9 + 1 * (k0_off1 (grid0.coords t) (0 : Fin 2) + 1 * 0) = win0_4.index t (1 : Fin 3); omega
    | ⟨1, _⟩ => show win0_0.index t (1 : Fin 2) * 2 + 1 * (k0_off1 (grid0.coords t) (1 : Fin 2) + 1 * k.val) = k.val; omega
  have hx : ∀ k : Fin 5, iblk m c 3 t (ix3 (0 : Fin 1) n k)
      = V m c main_arg3 (ix3 (⟨win0_4.index t (0 : Fin 3), f4b⟩ : Fin 16) n k) := fun k => by
    show V m c main_arg3 (((cfg0.win 3).blk t).view.emb _) = V m c main_arg3 _
    refine congrArg (V m c main_arg3) (funext fun a => Fin.ext ?_)
    match a with
    | ⟨0, _⟩ => show win0_3.index t (0 : Fin 3) * 1 + 1 * 0 = win0_4.index t (0 : Fin 3); omega
    | ⟨1, _⟩ => show win0_3.index t (1 : Fin 3) * 64 + 1 * n.val = n.val; omega
    | ⟨2, _⟩ => show win0_3.index t (2 : Fin 3) * 5 + 1 * k.val = k.val; omega
  rw [hg, hg, ho, ho, ho, ho, ha, ha, hx, hx, hx, hx]
  rfl

/-- An index of the array is in point `t`'s block iff each coordinate is in the block's range on its axis. -/
theorem mem_blk (t : Fin cfg0.N) (i : S16x28224x64.Idx) :
    i ∈ ((cfg0.win 4).blk t).view.set ↔ ∀ a : Fin 3, win0_4.index t a * S1x3136x64.size a ≤ (i a).val
      ∧ (i a).val < win0_4.index t a * S1x3136x64.size a + S1x3136x64.size a := by
  show i ∈ ((View.whole main_v0).slice (win0_4.rect t)).set ↔ _
  rw [View.set_slice_whole, Rect.mem_set_unit]
  exact Iff.rfl

/-- THE ARRAY after the run: every index lies in the block of its (batch, anchor) pair. -/
theorem final (c : Dev nD) : (dats m 0 c).arrAt 4 cfg0.N = result m c :=
  (dats m 0 c).arrAt_eq_of_cover 4 (result m c) (fun t _ => flushed_eq m c t) fun i => by
    have h0 : (i 0).val < 16 := (i 0).isLt
    have h1 : (i 1).val < 28224 := (i 1).isLt
    have h2 : (i 2).val < 64 := (i 2).isLt
    obtain ⟨t, ht⟩ := idx_onto ⟨(i 0).val, h0⟩ ⟨(i 1).val / 3136, by omega⟩
    have q0 : win0_4.index t (0 : Fin 3) = (i 0).val := congrFun ht 0
    have q1 : win0_4.index t (1 : Fin 3) = (i 1).val / 3136 := congrFun ht 1
    have q2 : win0_4.index t (2 : Fin 3) = 0 := congrFun ht 2
    refine ⟨t, flush0_4 t, ?_⟩
    rw [mem_blk]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 3136 ≤ (i 1).val ∧ (i 1).val < win0_4.index t (1 : Fin 3) * 3136 + 3136; omega
    | ⟨2, _⟩ => show win0_4.index t (2 : Fin 3) * 64 ≤ (i 2).val ∧ (i 2).val < win0_4.index t (2 : Fin 3) * 64 + 64; omega

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.IouValue

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.LibStraightLineMore.lean ====
/-
  A straight line of operations in single-assignment form, read one operation at a time: the operation with any number
  of operands.

  The companion file reads the operations of one, two and three operands (and a recast) off a single-assignment line:
  the buffer the k-th operation writes holds, after the WHOLE line, that operation's function of what its operand
  buffers hold after the whole line. Here is the same fact for the operation that takes a finite family of operands (a
  concatenation of several arrays is one): its result buffer holds the function of the family of its operands' final
  contents. An operation spelt over typed references is, by definition, the plain operation at the references they
  carry, so the plain lemmas read it as it stands.
  General: nothing here depends on a particular program.
-/
import proofs.«107946_j57105885168323_1_alg».proof.Proof.LibStraightLine

namespace Cert.LibStraightLine

open Idealize.ShloMosaic Idealize.ShloMosaic.StableHlo

variable {τ : Topo} {sig : RefSig} {Val : EltTy → Type}
variable {ops : List (HloOp τ sig Val)} {V : Valuation τ sig Val}

/-- Operation k applies its function to the family of its operand buffers as the whole line leaves them. -/
theorem nary_at (k : Nat) (hk : k < ops.length) {n : Nat} {xs : Fin n → Ref sig .tc} {y : Ref sig .tc}
    {f : ((i : Fin n) → (xs i).ty.Contents Val) → y.ty.Contents Val} {hxs hy}
    (hop : ops[k] = nary xs y f hxs hy)
    (hy' : ∀ op ∈ ops.drop (k + 1), (Proc.devRef .tc y : DevRef τ sig) ∉ op.writes)
    (hxs' : ∀ i : Fin n, ∀ op ∈ ops.drop k, (Proc.devRef .tc (xs i) : DevRef τ sig) ∉ op.writes) :
    after ops V (Proc.devRef .tc y) = f (fun i => after ops V (Proc.devRef .tc (xs i))) := by
  rw [after_eq_result ops V k hk _ hy', hop, nary_result]
  congr 1
  funext i
  exact (after_eq_take ops V k _ (hxs' i)).symm

end Cert.LibStraightLine
-- ==== Proof.RefLine.lean ====
/-
  The reference program as a straight line of its 151 host operations, in program order: the two copies of the cell
  centres joined, the anchors' half sizes with their signs, the anchor boxes, their centres and sizes, the proposals'
  centres and sizes, the proposals' four edges, the boxes, the intersection's corners, its area (zero where it is
  empty), the two areas, the quotient. The call of `where` stands as its three operations at the call's buffers.
  Every weakly fair execution of the program ends with every buffer at the fold of these operations over the launch
  contents; each buffer is written by one operation, listed once in `written`.
-/
import proofs.«107946_j57105885168323_1_alg».proof.ReferenceIdeal
import proofs.«107946_j57105885168323_1_alg».proof.Proof.Gen.ReferenceIdeal
import proofs.«107946_j57105885168323_1_alg».proof.Proof.LibStraightLineMore
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The program's operations, in order. -/
abbrev ops : List (HloOp τ sig (Elt F)) :=
  [ binary main_arg1 main_arg1 main_v0 ((fun a b => concatenate S16x56x56x4 3 [⟨S16x56x56x2, a⟩, ⟨S16x56x56x2, b⟩] concatenates_S16x56x56x2_S16x56x56x2_S16x56x56x4_d3) : (⟨S16x56x56x2, .f32⟩ : BufTy).Contents (Elt F) → (⟨S16x56x56x2, .f32⟩ : BufTy).Contents (Elt F) → (⟨S16x56x56x4, .f32⟩ : BufTy).Contents (Elt F)),
    unary main_v0 main_v1 (broadcastInDim S16x1x56x56x4 ![0, 2, 3, 4] bcast_S16x56x56x4_S16x1x56x56x4_0_2_3_4 : (⟨S16x56x56x4, .f32⟩ : BufTy).Contents (Elt F) → (⟨S16x1x56x56x4, .f32⟩ : BufTy).Contents (Elt F)),
    unary main_arg0 main_v2 ((extractStridedSlice S9x1 ![0, 0] · slices_S9x2_S9x1_0_0) : (⟨S9x2, .f32⟩ : BufTy).Contents (Elt F) → (⟨S9x1, .f32⟩ : BufTy).Contents (Elt F)),
    reshape main_v2 main_v3 rfl shapeCasts_S9x1_S9,
    unary main_v3 main_v4 (Host.negf : (⟨S9, .f32⟩ : BufTy).Contents (Elt F) → (⟨S9, .f32⟩ : BufTy).Contents (Elt F)),
    unary main_arg0 main_v5 ((extractStridedSlice S9x1 ![0, 1] · slices_S9x2_S9x1_0_1) : (⟨S9x2, .f32⟩ : BufTy).Contents (Elt F) → (⟨S9x1, .f32⟩ : BufTy).Contents (Elt F)),
    reshape main_v5 main_v6 rfl shapeCasts_S9x1_S9,
    unary main_v6 main_v7 (Host.negf : (⟨S9, .f32⟩ : BufTy).Contents (Elt F) → (⟨S9, .f32⟩ : BufTy).Contents (Elt F)),
    unary main_arg0 main_v8 ((extractStridedSlice S9x1 ![0, 0] · slices_S9x2_S9x1_0_0) : (⟨S9x2, .f32⟩ : BufTy).Contents (Elt F) → (⟨S9x1, .f32⟩ : BufTy).Contents (Elt F)),
    reshape main_v8 main_v9 rfl shapeCasts_S9x1_S9,
    unary main_arg0 main_v10 ((extractStridedSlice S9x1 ![0, 1] · slices_S9x2_S9x1_0_1) : (⟨S9x2, .f32⟩ : BufTy).Contents (Elt F) → (⟨S9x1, .f32⟩ : BufTy).Contents (Elt F)),
    reshape main_v10 main_v11 rfl shapeCasts_S9x1_S9,
    unary main_v4 main_v12 (broadcastInDim S9x1 ![0] bcast_S9_S9x1_0 : (⟨S9, .f32⟩ : BufTy).Contents (Elt F) → (⟨S9x1, .f32⟩ : BufTy).Contents (Elt F)),
    unary main_v7 main_v13 (broadcastInDim S9x1 ![0] bcast_S9_S9x1_0 : (⟨S9, .f32⟩ : BufTy).Contents (Elt F) → (⟨S9x1, .f32⟩ : BufTy).Contents (Elt F)),
    unary main_v9 main_v14 (broadcastInDim S9x1 ![0] bcast_S9_S9x1_0 : (⟨S9, .f32⟩ : BufTy).Contents (Elt F) → (⟨S9x1, .f32⟩ : BufTy).Contents (Elt F)),
    unary main_v11 main_v15 (broadcastInDim S9x1 ![0] bcast_S9_S9x1_0 : (⟨S9, .f32⟩ : BufTy).Contents (Elt F) → (⟨S9x1, .f32⟩ : BufTy).Contents (Elt F)),
    nary ![main_v12, main_v13, main_v14, main_v15] main_v16 (fun u => concatenate S9x4 1 [⟨S9x1, u 0⟩, ⟨S9x1, u 1⟩, ⟨S9x1, u 2⟩, ⟨S9x1, u 3⟩] concatenates_S9x1_S9x1_S9x1_S9x1_S9x4_d1),
    nullary main_cst (constant S_ .f32 0x3F000000#32),
    unary main_cst main_v17 (broadcastInDim S9x4 ![] bcast_S_S9x4 : (⟨S_, .f32⟩ : BufTy).Contents (Elt F) → (⟨S9x4, .f32⟩ : BufTy).Contents (Elt F)),
    binary main_v17 main_v16 main_v18 (mulf : (⟨S9x4, .f32⟩ : BufTy).Contents (Elt F) → (⟨S9x4, .f32⟩ : BufTy).Contents (Elt F) → (⟨S9x4, .f32⟩ : BufTy).Contents (Elt F)),
    unary main_v18 main_v19 (broadcastInDim S1x9x1x1x4 ![1, 4] bcast_S9x4_S1x9x1x1x4_1_4 : (⟨S9x4, .f32⟩ : BufTy).Contents (Elt F) → (⟨S1x9x1x1x4, .f32⟩ : BufTy).Contents (Elt F)),
    unary main_v1 main_v20 (broadcastInDim S16x9x56x56x4 ![0, 1, 2, 3, 4] bcast_S16x1x56x56x4_S16x9x56x56x4_0_1_2_3_4 : (⟨S16x1x56x56x4, .f32⟩ : BufTy).Contents (Elt F) → (⟨S16x9x56x56x4, .f32⟩ : BufTy).Contents (Elt F)),
    unary main_v19 main_v21 (broadcastInDim S16x9x56x56x4 ![0, 1, 2, 3, 4] bcast_S1x9x1x1x4_S16x9x56x56x4_0_1_2_3_4 : (⟨S1x9x1x1x4, .f32⟩ : BufTy).Contents (Elt F) → (⟨S16x9x56x56x4, .f32⟩ : BufTy).Contents (Elt F)),
    binary main_v20 main_v21 main_v22 (addf : (⟨S16x9x56x56x4, .f32⟩ : BufTy).Contents (Elt F) → (⟨S16x9x56x56x4, .f32⟩ : BufTy).Contents (Elt F) → (⟨S16x9x56x56x4, .f32⟩ : BufTy).Contents (Elt F)),
    unary main_v22 main_v23 ((extractStridedSlice S16x9x56x56x1 ![0, 0, 0, 0, 0] · slices_S16x9x56x56x4_S16x9x56x56x1_0_0_0_0_0) : (⟨S16x9x56x56x4, .f32⟩ : BufTy).Contents (Elt F) → (⟨S16x9x56x56x1, .f32⟩ : BufTy).Contents (Elt F)),
    reshape main_v23 main_v24 rfl shapeCasts_S16x9x56x56x1_S16x9x56x56,
    unary main_v22 main_v25 ((extractStridedSlice S16x9x56x56x1 ![0, 0, 0, 0, 2] · slices_S16x9x56x56x4_S16x9x56x56x1_0_0_0_0_2) : (⟨S16x9x56x56x4, .f32⟩ : BufTy).Contents (Elt F) → (⟨S16x9x56x56x1, .f32⟩ : BufTy).Contents (Elt F)),
    reshape main_v25 main_v26 rfl shapeCasts_S16x9x56x56x1_S16x9x56x56,
    binary main_v24 main_v26 main_v27 (addf : (⟨S16x9x56x56, .f32⟩ : BufTy).Contents (Elt F) → (⟨S16x9x56x56, .f32⟩ : BufTy).Contents (Elt F) → (⟨S16x9x56x56, .f32⟩ : BufTy).Contents (Elt F)),
    nullary main_cst_0 (constant S_ .f32 0x3F000000#32),
    unary main_cst_0 main_v28 (broadcastInDim S16x9x56x56 ![] bcast_S_S16x9x56x56 : (⟨S_, .f32⟩ : BufTy).Contents (Elt F) → (⟨S16x9x56x56, .f32⟩ : BufTy).Contents (Elt F)),
    binary main_v28 main_v27 main_v29 (mulf : (⟨S16x9x56x56, .f32⟩ : BufTy).Contents (Elt F) → (⟨S16x9x56x56, .f32⟩ : BufTy).Contents (Elt F) → (⟨S16x9x56x56, .f32⟩ : BufTy).Contents (Elt F)),
    unary main_v22 main_v30 ((extractStridedSlice S16x9x56x56x1 ![0, 0, 0, 0, 1] · slices_S16x9x56x56x4_S16x9x56x56x1_0_0_0_0_1) : (⟨S16x9x56x56x4, .f32⟩ : BufTy).Contents (Elt F) → (⟨S16x9x56x56x1, .f32⟩ : BufTy).Contents (Elt F)),
    reshape main_v30 main_v31 rfl shapeCasts_S16x9x56x56x1_S16x9x56x56,
    unary main_v22 main_v32 ((extractStridedSlice S16x9x56x56x1 ![0, 0, 0, 0, 3] · slices_S16x9x56x56x4_S16x9x56x56x1_0_0_0_0_3) : (⟨S16x9x56x56x4, .f32⟩ : BufTy).Contents (Elt F) → (⟨S16x9x56x56x1, .f32⟩ : BufTy).Contents (Elt F)),
    reshape main_v32 main_v33 rfl shapeCasts_S16x9x56x56x1_S16x9x56x56,
    binary main_v31 main_v33 main_v34 (addf : (⟨S16x9x56x56, .f32⟩ : BufTy).Contents (Elt F) → (⟨S16x9x56x56, .f32⟩ : BufTy).Contents (Elt F) → (⟨S16x9x56x56, .f32⟩ : BufTy).Contents (Elt F)),
    nullary main_cst_1 (constant S_ .f32 0x3F000000#32),
    unary main_cst_1 main_v35 (broadcastInDim S16x9x56x56 ![] bcast_S_S16x9x56x56 : (⟨S_, .f32⟩ : BufTy).Contents (Elt F) → (⟨S16x9x56x56, .f32⟩ : BufTy).Contents (Elt F)),
    binary main_v35 main_v34 main_v36 (mulf : (⟨S16x9x56x56, .f32⟩ : BufTy).Contents (Elt F) → (⟨S16x9x56x56, .f32⟩ : BufTy).Contents (Elt F) → (⟨S16x9x56x56, .f32⟩ : BufTy).Contents (Elt F)),
    unary main_v22 main_v37 ((extractStridedSlice S16x9x56x56x1 ![0, 0, 0, 0, 2] · slices_S16x9x56x56x4_S16x9x56x56x1_0_0_0_0_2) : (⟨S16x9x56x56x4, .f32⟩ : BufTy).Contents (Elt F) → (⟨S16x9x56x56x1, .f32⟩ : BufTy).Contents (Elt F)),
    reshape main_v37 main_v38 rfl shapeCasts_S16x9x56x56x1_S16x9x56x56,
    unary main_v22 main_v39 ((extractStridedSlice S16x9x56x56x1 ![0, 0, 0, 0, 0] · slices_S16x9x56x56x4_S16x9x56x56x1_0_0_0_0_0) : (⟨S16x9x56x56x4, .f32⟩ : BufTy).Contents (Elt F) → (⟨S16x9x56x56x1, .f32⟩ : BufTy).Contents (Elt F)),
    reshape main_v39 main_v40 rfl shapeCasts_S16x9x56x56x1_S16x9x56x56,
    binary main_v38 main_v40 main_v41 (subf : (⟨S16x9x56x56, .f32⟩ : BufTy).Contents (Elt F) → (⟨S16x9x56x56, .f32⟩ : BufTy).Contents (Elt F) → (⟨S16x9x56x56, .f32⟩ : BufTy).Contents (Elt F)),
    unary main_v22 main_v42 ((extractStridedSlice S16x9x56x56x1 ![0, 0, 0, 0, 3] · slices_S16x9x56x56x4_S16x9x56x56x1_0_0_0_0_3) : (⟨S16x9x56x56x4, .f32⟩ : BufTy).Contents (Elt F) → (⟨S16x9x56x56x1, .f32⟩ : BufTy).Contents (Elt F)),
    reshape main_v42 main_v43 rfl shapeCasts_S16x9x56x56x1_S16x9x56x56,
    unary main_v22 main_v44 ((extractStridedSlice S16x9x56x56x1 ![0, 0, 0, 0, 1] · slices_S16x9x56x56x4_S16x9x56x56x1_0_0_0_0_1) : (⟨S16x9x56x56x4, .f32⟩ : BufTy).Contents (Elt F) → (⟨S16x9x56x56x1, .f32⟩ : BufTy).Contents (Elt F)),
    reshape main_v44 main_v45 rfl shapeCasts_S16x9x56x56x1_S16x9x56x56,
    binary main_v43 main_v45 main_v46 (subf : (⟨S16x9x56x56, .f32⟩ : BufTy).Contents (Elt F) → (⟨S16x9x56x56, .f32⟩ : BufTy).Contents (Elt F) → (⟨S16x9x56x56, .f32⟩ : BufTy).Contents (Elt F)),
    unary main_arg2 main_v47 ((extractStridedSlice S16x9x56x56x1 ![0, 0, 0, 0, 0] · slices_S16x9x56x56x4_S16x9x56x56x1_0_0_0_0_0) : (⟨S16x9x56x56x4, .f32⟩ : BufTy).Contents (Elt F) → (⟨S16x9x56x56x1, .f32⟩ : BufTy).Contents (Elt F)),
    reshape main_v47 main_v48 rfl shapeCasts_S16x9x56x56x1_S16x9x56x56,
    binary main_v29 main_v48 main_v49 (addf : (⟨S16x9x56x56, .f32⟩ : BufTy).Contents (Elt F) → (⟨S16x9x56x56, .f32⟩ : BufTy).Contents (Elt F) → (⟨S16x9x56x56, .f32⟩ : BufTy).Contents (Elt F)),
    unary main_arg2 main_v50 ((extractStridedSlice S16x9x56x56x1 ![0, 0, 0, 0, 1] · slices_S16x9x56x56x4_S16x9x56x56x1_0_0_0_0_1) : (⟨S16x9x56x56x4, .f32⟩ : BufTy).Contents (Elt F) → (⟨S16x9x56x56x1, .f32⟩ : BufTy).Contents (Elt F)),
    reshape main_v50 main_v51 rfl shapeCasts_S16x9x56x56x1_S16x9x56x56,
    binary main_v36 main_v51 main_v52 (addf : (⟨S16x9x56x56, .f32⟩ : BufTy).Contents (Elt F) → (⟨S16x9x56x56, .f32⟩ : BufTy).Contents (Elt F) → (⟨S16x9x56x56, .f32⟩ : BufTy).Contents (Elt F)),
    unary main_arg2 main_v53 ((extractStridedSlice S16x9x56x56x1 ![0, 0, 0, 0, 2] · slices_S16x9x56x56x4_S16x9x56x56x1_0_0_0_0_2) : (⟨S16x9x56x56x4, .f32⟩ : BufTy).Contents (Elt F) → (⟨S16x9x56x56x1, .f32⟩ : BufTy).Contents (Elt F)),
    reshape main_v53 main_v54 rfl shapeCasts_S16x9x56x56x1_S16x9x56x56,
    unary main_v54 main_v55 (Host.exp : (⟨S16x9x56x56, .f32⟩ : BufTy).Contents (Elt F) → (⟨S16x9x56x56, .f32⟩ : BufTy).Contents (Elt F)),
    binary main_v41 main_v55 main_v56 (mulf : (⟨S16x9x56x56, .f32⟩ : BufTy).Contents (Elt F) → (⟨S16x9x56x56, .f32⟩ : BufTy).Contents (Elt F) → (⟨S16x9x56x56, .f32⟩ : BufTy).Contents (Elt F)),
    unary main_arg2 main_v57 ((extractStridedSlice S16x9x56x56x1 ![0, 0, 0, 0, 3] · slices_S16x9x56x56x4_S16x9x56x56x1_0_0_0_0_3) : (⟨S16x9x56x56x4, .f32⟩ : BufTy).Contents (Elt F) → (⟨S16x9x56x56x1, .f32⟩ : BufTy).Contents (Elt F)),
    reshape main_v57 main_v58 rfl shapeCasts_S16x9x56x56x1_S16x9x56x56,
    unary main_v58 main_v59 (Host.exp : (⟨S16x9x56x56, .f32⟩ : BufTy).Contents (Elt F) → (⟨S16x9x56x56, .f32⟩ : BufTy).Contents (Elt F)),
    binary main_v46 main_v59 main_v60 (mulf : (⟨S16x9x56x56, .f32⟩ : BufTy).Contents (Elt F) → (⟨S16x9x56x56, .f32⟩ : BufTy).Contents (Elt F) → (⟨S16x9x56x56, .f32⟩ : BufTy).Contents (Elt F)),
    nullary main_cst_2 (constant S_ .f32 0x3F000000#32),
    unary main_cst_2 main_v61 (broadcastInDim S16x9x56x56 ![] bcast_S_S16x9x56x56 : (⟨S_, .f32⟩ : BufTy).Contents (Elt F) → (⟨S16x9x56x56, .f32⟩ : BufTy).Contents (Elt F)),
    binary main_v61 main_v56 main_v62 (mulf : (⟨S16x9x56x56, .f32⟩ : BufTy).Contents (Elt F) → (⟨S16x9x56x56, .f32⟩ : BufTy).Contents (Elt F) → (⟨S16x9x56x56, .f32⟩ : BufTy).Contents (Elt F)),
    binary main_v49 main_v62 main_v63 (subf : (⟨S16x9x56x56, .f32⟩ : BufTy).Contents (Elt F) → (⟨S16x9x56x56, .f32⟩ : BufTy).Contents (Elt F) → (⟨S16x9x56x56, .f32⟩ : BufTy).Contents (Elt F)),
    nullary main_cst_3 (constant S_ .f32 0x3F000000#32),
    unary main_cst_3 main_v64 (broadcastInDim S16x9x56x56 ![] bcast_S_S16x9x56x56 : (⟨S_, .f32⟩ : BufTy).Contents (Elt F) → (⟨S16x9x56x56, .f32⟩ : BufTy).Contents (Elt F)),
    binary main_v64 main_v60 main_v65 (mulf : (⟨S16x9x56x56, .f32⟩ : BufTy).Contents (Elt F) → (⟨S16x9x56x56, .f32⟩ : BufTy).Contents (Elt F) → (⟨S16x9x56x56, .f32⟩ : BufTy).Contents (Elt F)),
    binary main_v52 main_v65 main_v66 (subf : (⟨S16x9x56x56, .f32⟩ : BufTy).Contents (Elt F) → (⟨S16x9x56x56, .f32⟩ : BufTy).Contents (Elt F) → (⟨S16x9x56x56, .f32⟩ : BufTy).Contents (Elt F)),
    nullary main_cst_4 (constant S_ .f32 0x3F000000#32),
    unary main_cst_4 main_v67 (broadcastInDim S16x9x56x56 ![] bcast_S_S16x9x56x56 : (⟨S_, .f32⟩ : BufTy).Contents (Elt F) → (⟨S16x9x56x56, .f32⟩ : BufTy).Contents (Elt F)),
    binary main_v67 main_v56 main_v68 (mulf : (⟨S16x9x56x56, .f32⟩ : BufTy).Contents (Elt F) → (⟨S16x9x56x56, .f32⟩ : BufTy).Contents (Elt F) → (⟨S16x9x56x56, .f32⟩ : BufTy).Contents (Elt F)),
    binary main_v49 main_v68 main_v69 (addf : (⟨S16x9x56x56, .f32⟩ : BufTy).Contents (Elt F) → (⟨S16x9x56x56, .f32⟩ : BufTy).Contents (Elt F) → (⟨S16x9x56x56, .f32⟩ : BufTy).Contents (Elt F)),
    nullary main_cst_5 (constant S_ .f32 0x3F000000#32),
    unary main_cst_5 main_v70 (broadcastInDim S16x9x56x56 ![] bcast_S_S16x9x56x56 : (⟨S_, .f32⟩ : BufTy).Contents (Elt F) → (⟨S16x9x56x56, .f32⟩ : BufTy).Contents (Elt F)),
    binary main_v70 main_v60 main_v71 (mulf : (⟨S16x9x56x56, .f32⟩ : BufTy).Contents (Elt F) → (⟨S16x9x56x56, .f32⟩ : BufTy).Contents (Elt F) → (⟨S16x9x56x56, .f32⟩ : BufTy).Contents (Elt F)),
    binary main_v52 main_v71 main_v72 (addf : (⟨S16x9x56x56, .f32⟩ : BufTy).Contents (Elt F) → (⟨S16x9x56x56, .f32⟩ : BufTy).Contents (Elt F) → (⟨S16x9x56x56, .f32⟩ : BufTy).Contents (Elt F)),
    unary main_v63 main_v73 (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F)),
    unary main_v66 main_v74 (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F)),
    unary main_v69 main_v75 (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F)),
    unary main_v72 main_v76 (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F)),
    nary ![main_v73, main_v74, main_v75, main_v76] main_v77 (fun u => concatenate S16x9x56x56x4 4 [⟨S16x9x56x56x1, u 0⟩, ⟨S16x9x56x56x1, u 1⟩, ⟨S16x9x56x56x1, u 2⟩, ⟨S16x9x56x56x1, u 3⟩] concatenates_S16x9x56x56x1_S16x9x56x56x1_S16x9x56x56x1_S16x9x56x56x1_S16x9x56x56x4_d4),
    reshape main_v77 main_v78 rfl shapeCasts_S16x9x56x56x4_S16x28224x1x4,
    unary main_arg3 main_v79 ((extractStridedSlice S16x64x4 ![0, 0, 0] · slices_S16x64x5_S16x64x4_0_0_0) : (⟨S16x64x5, .f32⟩ : BufTy).Contents (Elt F) → (⟨S16x64x4, .f32⟩ : BufTy).Contents (Elt F)),
    unary main_v79 main_v80 (broadcastInDim S16x1x64x4 ![0, 2, 3] bcast_S16x64x4_S16x1x64x4_0_2_3 : (⟨S16x64x4, .f32⟩ : BufTy).Contents (Elt F) → (⟨S16x1x64x4, .f32⟩ : BufTy).Contents (Elt F)),
    unary main_v78 main_v81 ((extractStridedSlice S16x28224x1x2 ![0, 0, 0, 0] · slices_S16x28224x1x4_S16x28224x1x2_0_0_0_0) : (⟨S16x28224x1x4, .f32⟩ : BufTy).Contents (Elt F) → (⟨S16x28224x1x2, .f32⟩ : BufTy).Contents (Elt F)),
    unary main_v80 main_v82 ((extractStridedSlice S16x1x64x2 ![0, 0, 0, 0] · slices_S16x1x64x4_S16x1x64x2_0_0_0_0) : (⟨S16x1x64x4, .f32⟩ : BufTy).Contents (Elt F) → (⟨S16x1x64x2, .f32⟩ : BufTy).Contents (Elt F)),
    unary main_v81 main_v83 (broadcastInDim S16x28224x64x2 ![0, 1, 2, 3] bcast_S16x28224x1x2_S16x28224x64x2_0_1_2_3 : (⟨S16x28224x1x2, .f32⟩ : BufTy).Contents (Elt F) → (⟨S16x28224x64x2, .f32⟩ : BufTy).Contents (Elt F)),
    unary main_v82 main_v84 (broadcastInDim S16x28224x64x2 ![0, 1, 2, 3] bcast_S16x1x64x2_S16x28224x64x2_0_1_2_3 : (⟨S16x1x64x2, .f32⟩ : BufTy).Contents (Elt F) → (⟨S16x28224x64x2, .f32⟩ : BufTy).Contents (Elt F)),
    binary main_v83 main_v84 main_v85 (maximumf : (⟨S16x28224x64x2, .f32⟩ : BufTy).Contents (Elt F) → (⟨S16x28224x64x2, .f32⟩ : BufTy).Contents (Elt F) → (⟨S16x28224x64x2, .f32⟩ : BufTy).Contents (Elt F)),
    unary main_v78 main_v86 ((extractStridedSlice S16x28224x1x2 ![0, 0, 0, 2] · slices_S16x28224x1x4_S16x28224x1x2_0_0_0_2) : (⟨S16x28224x1x4, .f32⟩ : BufTy).Contents (Elt F) → (⟨S16x28224x1x2, .f32⟩ : BufTy).Contents (Elt F)),
    unary main_v80 main_v87 ((extractStridedSlice S16x1x64x2 ![0, 0, 0, 2] · slices_S16x1x64x4_S16x1x64x2_0_0_0_2) : (⟨S16x1x64x4, .f32⟩ : BufTy).Contents (Elt F) → (⟨S16x1x64x2, .f32⟩ : BufTy).Contents (Elt F)),
    unary main_v86 main_v88 (broadcastInDim S16x28224x64x2 ![0, 1, 2, 3] bcast_S16x28224x1x2_S16x28224x64x2_0_1_2_3 : (⟨S16x28224x1x2, .f32⟩ : BufTy).Contents (Elt F) → (⟨S16x28224x64x2, .f32⟩ : BufTy).Contents (Elt F)),
    unary main_v87 main_v89 (broadcastInDim S16x28224x64x2 ![0, 1, 2, 3] bcast_S16x1x64x2_S16x28224x64x2_0_1_2_3 : (⟨S16x1x64x2, .f32⟩ : BufTy).Contents (Elt F) → (⟨S16x28224x64x2, .f32⟩ : BufTy).Contents (Elt F)),
    binary main_v88 main_v89 main_v90 (minimumf : (⟨S16x28224x64x2, .f32⟩ : BufTy).Contents (Elt F) → (⟨S16x28224x64x2, .f32⟩ : BufTy).Contents (Elt F) → (⟨S16x28224x64x2, .f32⟩ : BufTy).Contents (Elt F)),
    unary main_v85 main_v91 ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F)),
    reshape main_v91 main_v92 rfl shapeCasts_S16x28224x64x1_S16x28224x64,
    unary main_v90 main_v93 ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F)),
    reshape main_v93 main_v94 rfl shapeCasts_S16x28224x64x1_S16x28224x64,
    binary main_v92 main_v94 main_v95 (cmpf .ogt : (⟨S16x28224x64, .f32⟩ : BufTy).Contents (Elt F) → (⟨S16x28224x64, .f32⟩ : BufTy).Contents (Elt F) → (⟨S16x28224x64, .i1⟩ : BufTy).Contents (Elt F)),
    unary main_v85 main_v96 ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F)),
    reshape main_v96 main_v97 rfl shapeCasts_S16x28224x64x1_S16x28224x64,
    unary main_v90 main_v98 ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F)),
    reshape main_v98 main_v99 rfl shapeCasts_S16x28224x64x1_S16x28224x64,
    binary main_v97 main_v99 main_v100 (cmpf .ogt : (⟨S16x28224x64, .f32⟩ : BufTy).Contents (Elt F) → (⟨S16x28224x64, .f32⟩ : BufTy).Contents (Elt F) → (⟨S16x28224x64, .i1⟩ : BufTy).Contents (Elt F)),
    binary main_v95 main_v100 main_v101 (ori : (⟨S16x28224x64, .i1⟩ : BufTy).Contents (Elt F) → (⟨S16x28224x64, .i1⟩ : BufTy).Contents (Elt F) → (⟨S16x28224x64, .i1⟩ : BufTy).Contents (Elt F)),
    unary main_v90 main_v102 ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F)),
    reshape main_v102 main_v103 rfl shapeCasts_S16x28224x64x1_S16x28224x64,
    unary main_v85 main_v104 ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F)),
    reshape main_v104 main_v105 rfl shapeCasts_S16x28224x64x1_S16x28224x64,
    binary main_v103 main_v105 main_v106 (subf : (⟨S16x28224x64, .f32⟩ : BufTy).Contents (Elt F) → (⟨S16x28224x64, .f32⟩ : BufTy).Contents (Elt F) → (⟨S16x28224x64, .f32⟩ : BufTy).Contents (Elt F)),
    unary main_v90 main_v107 ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F)),
    reshape main_v107 main_v108 rfl shapeCasts_S16x28224x64x1_S16x28224x64,
    unary main_v85 main_v109 ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F)),
    reshape main_v109 main_v110 rfl shapeCasts_S16x28224x64x1_S16x28224x64,
    binary main_v108 main_v110 main_v111 (subf : (⟨S16x28224x64, .f32⟩ : BufTy).Contents (Elt F) → (⟨S16x28224x64, .f32⟩ : BufTy).Contents (Elt F) → (⟨S16x28224x64, .f32⟩ : BufTy).Contents (Elt F)),
    binary main_v106 main_v111 main_v112 (mulf : (⟨S16x28224x64, .f32⟩ : BufTy).Contents (Elt F) → (⟨S16x28224x64, .f32⟩ : BufTy).Contents (Elt F) → (⟨S16x28224x64, .f32⟩ : BufTy).Contents (Elt F)),
    nullary main_cst_6 (constant S_ .f32 0x00000000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S16x28224x64, .f32⟩) main_call0_v1) (broadcastInDim S16x28224x64 ![] bcast_S_S16x28224x64),
    TRef.ternary (TRef.of (T := ⟨S16x28224x64, .i1⟩) main_v101) (TRef.of (T := ⟨S16x28224x64, .f32⟩) main_call0_v1) (TRef.of (T := ⟨S16x28224x64, .f32⟩) main_v112) (TRef.of (T := ⟨S16x28224x64, .f32⟩) main_v113) select,
    unary main_v78 main_v114 ((extractStridedSlice S16x28224x1x1 ![0, 0, 0, 2] · slices_S16x28224x1x4_S16x28224x1x1_0_0_0_2) : (⟨S16x28224x1x4, .f32⟩ : BufTy).Contents (Elt F) → (⟨S16x28224x1x1, .f32⟩ : BufTy).Contents (Elt F)),
    reshape main_v114 main_v115 rfl shapeCasts_S16x28224x1x1_S16x28224x1,
    unary main_v78 main_v116 ((extractStridedSlice S16x28224x1x1 ![0, 0, 0, 0] · slices_S16x28224x1x4_S16x28224x1x1_0_0_0_0) : (⟨S16x28224x1x4, .f32⟩ : BufTy).Contents (Elt F) → (⟨S16x28224x1x1, .f32⟩ : BufTy).Contents (Elt F)),
    reshape main_v116 main_v117 rfl shapeCasts_S16x28224x1x1_S16x28224x1,
    binary main_v115 main_v117 main_v118 (subf : (⟨S16x28224x1, .f32⟩ : BufTy).Contents (Elt F) → (⟨S16x28224x1, .f32⟩ : BufTy).Contents (Elt F) → (⟨S16x28224x1, .f32⟩ : BufTy).Contents (Elt F)),
    unary main_v78 main_v119 ((extractStridedSlice S16x28224x1x1 ![0, 0, 0, 3] · slices_S16x28224x1x4_S16x28224x1x1_0_0_0_3) : (⟨S16x28224x1x4, .f32⟩ : BufTy).Contents (Elt F) → (⟨S16x28224x1x1, .f32⟩ : BufTy).Contents (Elt F)),
    reshape main_v119 main_v120 rfl shapeCasts_S16x28224x1x1_S16x28224x1,
    unary main_v78 main_v121 ((extractStridedSlice S16x28224x1x1 ![0, 0, 0, 1] · slices_S16x28224x1x4_S16x28224x1x1_0_0_0_1) : (⟨S16x28224x1x4, .f32⟩ : BufTy).Contents (Elt F) → (⟨S16x28224x1x1, .f32⟩ : BufTy).Contents (Elt F)),
    reshape main_v121 main_v122 rfl shapeCasts_S16x28224x1x1_S16x28224x1,
    binary main_v120 main_v122 main_v123 (subf : (⟨S16x28224x1, .f32⟩ : BufTy).Contents (Elt F) → (⟨S16x28224x1, .f32⟩ : BufTy).Contents (Elt F) → (⟨S16x28224x1, .f32⟩ : BufTy).Contents (Elt F)),
    binary main_v118 main_v123 main_v124 (mulf : (⟨S16x28224x1, .f32⟩ : BufTy).Contents (Elt F) → (⟨S16x28224x1, .f32⟩ : BufTy).Contents (Elt F) → (⟨S16x28224x1, .f32⟩ : BufTy).Contents (Elt F)),
    unary main_v80 main_v125 ((extractStridedSlice S16x1x64x1 ![0, 0, 0, 2] · slices_S16x1x64x4_S16x1x64x1_0_0_0_2) : (⟨S16x1x64x4, .f32⟩ : BufTy).Contents (Elt F) → (⟨S16x1x64x1, .f32⟩ : BufTy).Contents (Elt F)),
    reshape main_v125 main_v126 rfl shapeCasts_S16x1x64x1_S16x1x64,
    unary main_v80 main_v127 ((extractStridedSlice S16x1x64x1 ![0, 0, 0, 0] · slices_S16x1x64x4_S16x1x64x1_0_0_0_0) : (⟨S16x1x64x4, .f32⟩ : BufTy).Contents (Elt F) → (⟨S16x1x64x1, .f32⟩ : BufTy).Contents (Elt F)),
    reshape main_v127 main_v128 rfl shapeCasts_S16x1x64x1_S16x1x64,
    binary main_v126 main_v128 main_v129 (subf : (⟨S16x1x64, .f32⟩ : BufTy).Contents (Elt F) → (⟨S16x1x64, .f32⟩ : BufTy).Contents (Elt F) → (⟨S16x1x64, .f32⟩ : BufTy).Contents (Elt F)),
    unary main_v80 main_v130 ((extractStridedSlice S16x1x64x1 ![0, 0, 0, 3] · slices_S16x1x64x4_S16x1x64x1_0_0_0_3) : (⟨S16x1x64x4, .f32⟩ : BufTy).Contents (Elt F) → (⟨S16x1x64x1, .f32⟩ : BufTy).Contents (Elt F)),
    reshape main_v130 main_v131 rfl shapeCasts_S16x1x64x1_S16x1x64,
    unary main_v80 main_v132 ((extractStridedSlice S16x1x64x1 ![0, 0, 0, 1] · slices_S16x1x64x4_S16x1x64x1_0_0_0_1) : (⟨S16x1x64x4, .f32⟩ : BufTy).Contents (Elt F) → (⟨S16x1x64x1, .f32⟩ : BufTy).Contents (Elt F)),
    reshape main_v132 main_v133 rfl shapeCasts_S16x1x64x1_S16x1x64,
    binary main_v131 main_v133 main_v134 (subf : (⟨S16x1x64, .f32⟩ : BufTy).Contents (Elt F) → (⟨S16x1x64, .f32⟩ : BufTy).Contents (Elt F) → (⟨S16x1x64, .f32⟩ : BufTy).Contents (Elt F)),
    binary main_v129 main_v134 main_v135 (mulf : (⟨S16x1x64, .f32⟩ : BufTy).Contents (Elt F) → (⟨S16x1x64, .f32⟩ : BufTy).Contents (Elt F) → (⟨S16x1x64, .f32⟩ : BufTy).Contents (Elt F)),
    unary main_v124 main_v136 (broadcastInDim S16x28224x64 ![0, 1, 2] bcast_S16x28224x1_S16x28224x64_0_1_2 : (⟨S16x28224x1, .f32⟩ : BufTy).Contents (Elt F) → (⟨S16x28224x64, .f32⟩ : BufTy).Contents (Elt F)),
    unary main_v135 main_v137 (broadcastInDim S16x28224x64 ![0, 1, 2] bcast_S16x1x64_S16x28224x64_0_1_2 : (⟨S16x1x64, .f32⟩ : BufTy).Contents (Elt F) → (⟨S16x28224x64, .f32⟩ : BufTy).Contents (Elt F)),
    binary main_v136 main_v137 main_v138 (addf : (⟨S16x28224x64, .f32⟩ : BufTy).Contents (Elt F) → (⟨S16x28224x64, .f32⟩ : BufTy).Contents (Elt F) → (⟨S16x28224x64, .f32⟩ : BufTy).Contents (Elt F)),
    binary main_v138 main_v113 main_v139 (subf : (⟨S16x28224x64, .f32⟩ : BufTy).Contents (Elt F) → (⟨S16x28224x64, .f32⟩ : BufTy).Contents (Elt F) → (⟨S16x28224x64, .f32⟩ : BufTy).Contents (Elt F)),
    binary main_v113 main_v139 main_v140 (Host.divf : (⟨S16x28224x64, .f32⟩ : BufTy).Contents (Elt F) → (⟨S16x28224x64, .f32⟩ : BufTy).Contents (Elt F) → (⟨S16x28224x64, .f32⟩ : BufTy).Contents (Elt F)) ]

set_option maxRecDepth 8192 in
set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 8000000 in
theorem ops_sub : (ops : List (HloOp τ sig (Elt F))).Forall fun op => op.bufs ⊆ tcRefs τ sig :=
  ⟨binary_bufs_sub .., unary_bufs_sub .., unary_bufs_sub .., reshape_bufs_sub .., unary_bufs_sub .., unary_bufs_sub .., reshape_bufs_sub .., unary_bufs_sub .., unary_bufs_sub .., reshape_bufs_sub .., unary_bufs_sub .., reshape_bufs_sub .., unary_bufs_sub .., unary_bufs_sub .., unary_bufs_sub .., unary_bufs_sub .., nary_bufs_sub .., nullary_bufs_sub .., unary_bufs_sub .., binary_bufs_sub .., unary_bufs_sub .., unary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., unary_bufs_sub .., reshape_bufs_sub .., unary_bufs_sub .., binary_bufs_sub .., unary_bufs_sub .., reshape_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub .., reshape_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., unary_bufs_sub .., unary_bufs_sub .., ternary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., binary_bufs_sub .., binary_bufs_sub ..⟩

set_option maxRecDepth 8192 in
set_option maxHeartbeats 8000000 in
/-- Every weakly fair execution terminates with every buffer at the operations' fold over the launch contents. -/
theorem line_run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The buffers the operations write, in order. -/
abbrev written : List (Ref sig .tc) :=
  [main_v0, main_v1, main_v2, main_v3, main_v4, main_v5, main_v6, main_v7, main_v8, main_v9, main_v10, main_v11, main_v12, main_v13, main_v14, main_v15, main_v16, main_cst, main_v17, main_v18, main_v19, main_v20, main_v21, main_v22, main_v23, main_v24, main_v25, main_v26, main_v27, main_cst_0, main_v28, main_v29, main_v30, main_v31, main_v32, main_v33, main_v34, main_cst_1, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_cst_2, main_v61, main_v62, main_v63, main_cst_3, main_v64, main_v65, main_v66, main_cst_4, main_v67, main_v68, main_v69, main_cst_5, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_cst_6, main_call0_v0, main_call0_v1, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140]

set_option maxRecDepth 8192 in
set_option maxHeartbeats 8000000 in
theorem written_ok : Cert.LibStraightLine.WritesAre (ops : List (HloOp τ sig (Elt F))) written := rfl

end Cert.ReferenceIdeal.Line

end
-- ==== Proof.RefEqs.lean ====
/-
  The reference's line read one operation at a time: each buffer, after the whole line, holds its operation's function
  of what the operand buffers hold after the whole line (every buffer is written once, and operands are written before
  they are read); the four argument buffers are never written and keep their launch contents.
-/
import proofs.«107946_j57105885168323_1_alg».proof.Proof.RefLine

noncomputable section

namespace Cert.ReferenceIdeal.Line

open Cert.ReferenceIdeal Cert.ReferenceIdeal.Gen Idealize.ShloMosaic Idealize.ShloMosaic.TcCoe Idealize.SL.Sem Idealize.ShloMosaic.StableHlo
open Cert.LibStraightLine

variable {F : FTy → Type} [FloatOps F] (V : Valuation τ sig (Elt F))

theorem at_arg0 : after (ops (F := F)) V (Proc.devRef .tc main_arg0) = V (Proc.devRef .tc main_arg0) := untouched_at written_ok (by decide)
theorem at_arg1 : after (ops (F := F)) V (Proc.devRef .tc main_arg1) = V (Proc.devRef .tc main_arg1) := untouched_at written_ok (by decide)
theorem at_arg2 : after (ops (F := F)) V (Proc.devRef .tc main_arg2) = V (Proc.devRef .tc main_arg2) := untouched_at written_ok (by decide)
theorem at_arg3 : after (ops (F := F)) V (Proc.devRef .tc main_arg3) = V (Proc.devRef .tc main_arg3) := untouched_at written_ok (by decide)

def at_v0 := binary_at (ops := ops (F := F)) (V := V) 0 (by show (0 : Nat) < 151; omega) (a := main_arg1) (b := main_arg1) (y := main_v0) (f := ((fun a b => concatenate S16x56x56x4 3 [⟨S16x56x56x2, a⟩, ⟨S16x56x56x2, b⟩] concatenates_S16x56x56x2_S16x56x56x2_S16x56x56x4_d3) : (⟨S16x56x56x2, .f32⟩ : BufTy).Contents (Elt F) → (⟨S16x56x56x2, .f32⟩ : BufTy).Contents (Elt F) → (⟨S16x56x56x4, .f32⟩ : BufTy).Contents (Elt F))) (ha := ⟨by decide, rfl⟩) (hb := ⟨by decide, rfl⟩) (hy := ⟨by decide, rfl⟩) rfl (not_written written_ok 1 (by decide)) (not_written written_ok 0 (by decide)) (not_written written_ok 0 (by decide))
def at_v1 := unary_at (ops := ops (F := F)) (V := V) 1 (by show (1 : Nat) < 151; omega) (x := main_v0) (y := main_v1) (f := (broadcastInDim S16x1x56x56x4 ![0, 2, 3, 4] bcast_S16x56x56x4_S16x1x56x56x4_0_2_3_4 : (⟨S16x56x56x4, .f32⟩ : BufTy).Contents (Elt F) → (⟨S16x1x56x56x4, .f32⟩ : BufTy).Contents (Elt F))) (hx := ⟨by decide, rfl⟩) (hy := ⟨by decide, rfl⟩) rfl (not_written written_ok 2 (by decide)) (not_written written_ok 1 (by decide))
def at_v2 := unary_at (ops := ops (F := F)) (V := V) 2 (by show (2 : Nat) < 151; omega) (x := main_arg0) (y := main_v2) (f := ((extractStridedSlice S9x1 ![0, 0] · slices_S9x2_S9x1_0_0) : (⟨S9x2, .f32⟩ : BufTy).Contents (Elt F) → (⟨S9x1, .f32⟩ : BufTy).Contents (Elt F))) (hx := ⟨by decide, rfl⟩) (hy := ⟨by decide, rfl⟩) rfl (not_written written_ok 3 (by decide)) (not_written written_ok 2 (by decide))
def at_v3 := reshape_at (ops := ops (F := F)) (V := V) 3 (by show (3 : Nat) < 151; omega) (x := main_v2) (y := main_v3) (he := rfl) (hn := shapeCasts_S9x1_S9) (hx := ⟨by decide, rfl⟩) (hy := ⟨by decide, rfl⟩) rfl (not_written written_ok 4 (by decide)) (not_written written_ok 3 (by decide))
def at_v4 := unary_at (ops := ops (F := F)) (V := V) 4 (by show (4 : Nat) < 151; omega) (x := main_v3) (y := main_v4) (f := (Host.negf : (⟨S9, .f32⟩ : BufTy).Contents (Elt F) → (⟨S9, .f32⟩ : BufTy).Contents (Elt F))) (hx := ⟨by decide, rfl⟩) (hy := ⟨by decide, rfl⟩) rfl (not_written written_ok 5 (by decide)) (not_written written_ok 4 (by decide))
def at_v5 := unary_at (ops := ops (F := F)) (V := V) 5 (by show (5 : Nat) < 151; omega) (x := main_arg0) (y := main_v5) (f := ((extractStridedSlice S9x1 ![0, 1] · slices_S9x2_S9x1_0_1) : (⟨S9x2, .f32⟩ : BufTy).Contents (Elt F) → (⟨S9x1, .f32⟩ : BufTy).Contents (Elt F))) (hx := ⟨by decide, rfl⟩) (hy := ⟨by decide, rfl⟩) rfl (not_written written_ok 6 (by decide)) (not_written written_ok 5 (by decide))
def at_v6 := reshape_at (ops := ops (F := F)) (V := V) 6 (by show (6 : Nat) < 151; omega) (x := main_v5) (y := main_v6) (he := rfl) (hn := shapeCasts_S9x1_S9) (hx := ⟨by decide, rfl⟩) (hy := ⟨by decide, rfl⟩) rfl (not_written written_ok 7 (by decide)) (not_written written_ok 6 (by decide))
def at_v7 := unary_at (ops := ops (F := F)) (V := V) 7 (by show (7 : Nat) < 151; omega) (x := main_v6) (y := main_v7) (f := (Host.negf : (⟨S9, .f32⟩ : BufTy).Contents (Elt F) → (⟨S9, .f32⟩ : BufTy).Contents (Elt F))) (hx := ⟨by decide, rfl⟩) (hy := ⟨by decide, rfl⟩) rfl (not_written written_ok 8 (by decide)) (not_written written_ok 7 (by decide))
def at_v8 := unary_at (ops := ops (F := F)) (V := V) 8 (by show (8 : Nat) < 151; omega) (x := main_arg0) (y := main_v8) (f := ((extractStridedSlice S9x1 ![0, 0] · slices_S9x2_S9x1_0_0) : (⟨S9x2, .f32⟩ : BufTy).Contents (Elt F) → (⟨S9x1, .f32⟩ : BufTy).Contents (Elt F))) (hx := ⟨by decide, rfl⟩) (hy := ⟨by decide, rfl⟩) rfl (not_written written_ok 9 (by decide)) (not_written written_ok 8 (by decide))
def at_v9 := reshape_at (ops := ops (F := F)) (V := V) 9 (by show (9 : Nat) < 151; omega) (x := main_v8) (y := main_v9) (he := rfl) (hn := shapeCasts_S9x1_S9) (hx := ⟨by decide, rfl⟩) (hy := ⟨by decide, rfl⟩) rfl (not_written written_ok 10 (by decide)) (not_written written_ok 9 (by decide))
def at_v10 := unary_at (ops := ops (F := F)) (V := V) 10 (by show (10 : Nat) < 151; omega) (x := main_arg0) (y := main_v10) (f := ((extractStridedSlice S9x1 ![0, 1] · slices_S9x2_S9x1_0_1) : (⟨S9x2, .f32⟩ : BufTy).Contents (Elt F) → (⟨S9x1, .f32⟩ : BufTy).Contents (Elt F))) (hx := ⟨by decide, rfl⟩) (hy := ⟨by decide, rfl⟩) rfl (not_written written_ok 11 (by decide)) (not_written written_ok 10 (by decide))
def at_v11 := reshape_at (ops := ops (F := F)) (V := V) 11 (by show (11 : Nat) < 151; omega) (x := main_v10) (y := main_v11) (he := rfl) (hn := shapeCasts_S9x1_S9) (hx := ⟨by decide, rfl⟩) (hy := ⟨by decide, rfl⟩) rfl (not_written written_ok 12 (by decide)) (not_written written_ok 11 (by decide))
def at_v12 := unary_at (ops := ops (F := F)) (V := V) 12 (by show (12 : Nat) < 151; omega) (x := main_v4) (y := main_v12) (f := (broadcastInDim S9x1 ![0] bcast_S9_S9x1_0 : (⟨S9, .f32⟩ : BufTy).Contents (Elt F) → (⟨S9x1, .f32⟩ : BufTy).Contents (Elt F))) (hx := ⟨by decide, rfl⟩) (hy := ⟨by decide, rfl⟩) rfl (not_written written_ok 13 (by decide)) (not_written written_ok 12 (by decide))
def at_v13 := unary_at (ops := ops (F := F)) (V := V) 13 (by show (13 : Nat) < 151; omega) (x := main_v7) (y := main_v13) (f := (broadcastInDim S9x1 ![0] bcast_S9_S9x1_0 : (⟨S9, .f32⟩ : BufTy).Contents (Elt F) → (⟨S9x1, .f32⟩ : BufTy).Contents (Elt F))) (hx := ⟨by decide, rfl⟩) (hy := ⟨by decide, rfl⟩) rfl (not_written written_ok 14 (by decide)) (not_written written_ok 13 (by decide))
def at_v14 := unary_at (ops := ops (F := F)) (V := V) 14 (by show (14 : Nat) < 151; omega) (x := main_v9) (y := main_v14) (f := (broadcastInDim S9x1 ![0] bcast_S9_S9x1_0 : (⟨S9, .f32⟩ : BufTy).Contents (Elt F) → (⟨S9x1, .f32⟩ : BufTy).Contents (Elt F))) (hx := ⟨by decide, rfl⟩) (hy := ⟨by decide, rfl⟩) rfl (not_written written_ok 15 (by decide)) (not_written written_ok 14 (by decide))
def at_v15 := unary_at (ops := ops (F := F)) (V := V) 15 (by show (15 : Nat) < 151; omega) (x := main_v11) (y := main_v15) (f := (broadcastInDim S9x1 ![0] bcast_S9_S9x1_0 : (⟨S9, .f32⟩ : BufTy).Contents (Elt F) → (⟨S9x1, .f32⟩ : BufTy).Contents (Elt F))) (hx := ⟨by decide, rfl⟩) (hy := ⟨by decide, rfl⟩) rfl (not_written written_ok 16 (by decide)) (not_written written_ok 15 (by decide))
def at_v16 := nary_at (ops := ops (F := F)) (V := V) 16 (by show (16 : Nat) < 151; omega) (xs := ![main_v12, main_v13, main_v14, main_v15]) (y := main_v16) (f := (fun u => concatenate S9x4 1 [⟨S9x1, u 0⟩, ⟨S9x1, u 1⟩, ⟨S9x1, u 2⟩, ⟨S9x1, u 3⟩] concatenates_S9x1_S9x1_S9x1_S9x1_S9x4_d1)) (hxs := by decide) (hy := ⟨by decide, rfl⟩) rfl (not_written written_ok 17 (by decide))
    (fun i => match i with | ⟨0, _⟩ => not_written written_ok 16 (by show main_v12 ∉ _; decide) | ⟨1, _⟩ => not_written written_ok 16 (by show main_v13 ∉ _; decide) | ⟨2, _⟩ => not_written written_ok 16 (by show main_v14 ∉ _; decide) | ⟨3, _⟩ => not_written written_ok 16 (by show main_v15 ∉ _; decide))
def at_cst := nullary_at (ops := ops (F := F)) (V := V) 17 (by show (17 : Nat) < 151; omega) (y := main_cst) (v := (constant S_ .f32 0x3F000000#32)) (hy := ⟨by decide, rfl⟩) rfl (not_written written_ok 18 (by decide))
def at_v17 := unary_at (ops := ops (F := F)) (V := V) 18 (by show (18 : Nat) < 151; omega) (x := main_cst) (y := main_v17) (f := (broadcastInDim S9x4 ![] bcast_S_S9x4 : (⟨S_, .f32⟩ : BufTy).Contents (Elt F) → (⟨S9x4, .f32⟩ : BufTy).Contents (Elt F))) (hx := ⟨by decide, rfl⟩) (hy := ⟨by decide, rfl⟩) rfl (not_written written_ok 19 (by decide)) (not_written written_ok 18 (by decide))
def at_v18 := binary_at (ops := ops (F := F)) (V := V) 19 (by show (19 : Nat) < 151; omega) (a := main_v17) (b := main_v16) (y := main_v18) (f := (mulf : (⟨S9x4, .f32⟩ : BufTy).Contents (Elt F) → (⟨S9x4, .f32⟩ : BufTy).Contents (Elt F) → (⟨S9x4, .f32⟩ : BufTy).Contents (Elt F))) (ha := ⟨by decide, rfl⟩) (hb := ⟨by decide, rfl⟩) (hy := ⟨by decide, rfl⟩) rfl (not_written written_ok 20 (by decide)) (not_written written_ok 19 (by decide)) (not_written written_ok 19 (by decide))
def at_v19 := unary_at (ops := ops (F := F)) (V := V) 20 (by show (20 : Nat) < 151; omega) (x := main_v18) (y := main_v19) (f := (broadcastInDim S1x9x1x1x4 ![1, 4] bcast_S9x4_S1x9x1x1x4_1_4 : (⟨S9x4, .f32⟩ : BufTy).Contents (Elt F) → (⟨S1x9x1x1x4, .f32⟩ : BufTy).Contents (Elt F))) (hx := ⟨by decide, rfl⟩) (hy := ⟨by decide, rfl⟩) rfl (not_written written_ok 21 (by decide)) (not_written written_ok 20 (by decide))
def at_v20 := unary_at (ops := ops (F := F)) (V := V) 21 (by show (21 : Nat) < 151; omega) (x := main_v1) (y := main_v20) (f := (broadcastInDim S16x9x56x56x4 ![0, 1, 2, 3, 4] bcast_S16x1x56x56x4_S16x9x56x56x4_0_1_2_3_4 : (⟨S16x1x56x56x4, .f32⟩ : BufTy).Contents (Elt F) → (⟨S16x9x56x56x4, .f32⟩ : BufTy).Contents (Elt F))) (hx := ⟨by decide, rfl⟩) (hy := ⟨by decide, rfl⟩) rfl (not_written written_ok 22 (by decide)) (not_written written_ok 21 (by decide))
def at_v21 := unary_at (ops := ops (F := F)) (V := V) 22 (by show (22 : Nat) < 151; omega) (x := main_v19) (y := main_v21) (f := (broadcastInDim S16x9x56x56x4 ![0, 1, 2, 3, 4] bcast_S1x9x1x1x4_S16x9x56x56x4_0_1_2_3_4 : (⟨S1x9x1x1x4, .f32⟩ : BufTy).Contents (Elt F) → (⟨S16x9x56x56x4, .f32⟩ : BufTy).Contents (Elt F))) (hx := ⟨by decide, rfl⟩) (hy := ⟨by decide, rfl⟩) rfl (not_written written_ok 23 (by decide)) (not_written written_ok 22 (by decide))
def at_v22 := binary_at (ops := ops (F := F)) (V := V) 23 (by show (23 : Nat) < 151; omega) (a := main_v20) (b := main_v21) (y := main_v22) (f := (addf : (⟨S16x9x56x56x4, .f32⟩ : BufTy).Contents (Elt F) → (⟨S16x9x56x56x4, .f32⟩ : BufTy).Contents (Elt F) → (⟨S16x9x56x56x4, .f32⟩ : BufTy).Contents (Elt F))) (ha := ⟨by decide, rfl⟩) (hb := ⟨by decide, rfl⟩) (hy := ⟨by decide, rfl⟩) rfl (not_written written_ok 24 (by decide)) (not_written written_ok 23 (by decide)) (not_written written_ok 23 (by decide))
def at_v23 := unary_at (ops := ops (F := F)) (V := V) 24 (by show (24 : Nat) < 151; omega) (x := main_v22) (y := main_v23) (f := ((extractStridedSlice S16x9x56x56x1 ![0, 0, 0, 0, 0] · slices_S16x9x56x56x4_S16x9x56x56x1_0_0_0_0_0) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 25 (by decide)) (not_written written_ok 24 (by decide))
def at_v24 := reshape_at (ops := ops (F := F)) (V := V) 25 (by show (25 : Nat) < 151; omega) (x := main_v23) (y := main_v24) (he := rfl) (hn := shapeCasts_S16x9x56x56x1_S16x9x56x56) (hx := ⟨by decide, rfl⟩) (hy := ⟨by decide, rfl⟩) rfl (not_written written_ok 26 (by decide)) (not_written written_ok 25 (by decide))
def at_v25 := unary_at (ops := ops (F := F)) (V := V) 26 (by show (26 : Nat) < 151; omega) (x := main_v22) (y := main_v25) (f := ((extractStridedSlice S16x9x56x56x1 ![0, 0, 0, 0, 2] · slices_S16x9x56x56x4_S16x9x56x56x1_0_0_0_0_2) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 27 (by decide)) (not_written written_ok 26 (by decide))
def at_v26 := reshape_at (ops := ops (F := F)) (V := V) 27 (by show (27 : Nat) < 151; omega) (x := main_v25) (y := main_v26) (he := rfl) (hn := shapeCasts_S16x9x56x56x1_S16x9x56x56) (hx := ⟨by decide, rfl⟩) (hy := ⟨by decide, rfl⟩) rfl (not_written written_ok 28 (by decide)) (not_written written_ok 27 (by decide))
def at_v27 := binary_at (ops := ops (F := F)) (V := V) 28 (by show (28 : Nat) < 151; omega) (a := main_v24) (b := main_v26) (y := main_v27) (f := (addf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 29 (by decide)) (not_written written_ok 28 (by decide)) (not_written written_ok 28 (by decide))
def at_cst_0 := nullary_at (ops := ops (F := F)) (V := V) 29 (by show (29 : Nat) < 151; omega) (y := main_cst_0) (v := (constant S_ .f32 0x3F000000#32)) (hy := ⟨by decide, rfl⟩) rfl (not_written written_ok 30 (by decide))
def at_v28 := unary_at (ops := ops (F := F)) (V := V) 30 (by show (30 : Nat) < 151; omega) (x := main_cst_0) (y := main_v28) (f := (broadcastInDim S16x9x56x56 ![] bcast_S_S16x9x56x56 : (⟨S_, .f32⟩ : BufTy).Contents (Elt F) → (⟨S16x9x56x56, .f32⟩ : BufTy).Contents (Elt F))) (hx := ⟨by decide, rfl⟩) (hy := ⟨by decide, rfl⟩) rfl (not_written written_ok 31 (by decide)) (not_written written_ok 30 (by decide))
def at_v29 := binary_at (ops := ops (F := F)) (V := V) 31 (by show (31 : Nat) < 151; omega) (a := main_v28) (b := main_v27) (y := main_v29) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 32 (by decide)) (not_written written_ok 31 (by decide)) (not_written written_ok 31 (by decide))
def at_v30 := unary_at (ops := ops (F := F)) (V := V) 32 (by show (32 : Nat) < 151; omega) (x := main_v22) (y := main_v30) (f := ((extractStridedSlice S16x9x56x56x1 ![0, 0, 0, 0, 1] · slices_S16x9x56x56x4_S16x9x56x56x1_0_0_0_0_1) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 33 (by decide)) (not_written written_ok 32 (by decide))
def at_v31 := reshape_at (ops := ops (F := F)) (V := V) 33 (by show (33 : Nat) < 151; omega) (x := main_v30) (y := main_v31) (he := rfl) (hn := shapeCasts_S16x9x56x56x1_S16x9x56x56) (hx := ⟨by decide, rfl⟩) (hy := ⟨by decide, rfl⟩) rfl (not_written written_ok 34 (by decide)) (not_written written_ok 33 (by decide))
def at_v32 := unary_at (ops := ops (F := F)) (V := V) 34 (by show (34 : Nat) < 151; omega) (x := main_v22) (y := main_v32) (f := ((extractStridedSlice S16x9x56x56x1 ![0, 0, 0, 0, 3] · slices_S16x9x56x56x4_S16x9x56x56x1_0_0_0_0_3) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 35 (by decide)) (not_written written_ok 34 (by decide))
def at_v33 := reshape_at (ops := ops (F := F)) (V := V) 35 (by show (35 : Nat) < 151; omega) (x := main_v32) (y := main_v33) (he := rfl) (hn := shapeCasts_S16x9x56x56x1_S16x9x56x56) (hx := ⟨by decide, rfl⟩) (hy := ⟨by decide, rfl⟩) rfl (not_written written_ok 36 (by decide)) (not_written written_ok 35 (by decide))
def at_v34 := binary_at (ops := ops (F := F)) (V := V) 36 (by show (36 : Nat) < 151; omega) (a := main_v31) (b := main_v33) (y := main_v34) (f := (addf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 37 (by decide)) (not_written written_ok 36 (by decide)) (not_written written_ok 36 (by decide))
def at_cst_1 := nullary_at (ops := ops (F := F)) (V := V) 37 (by show (37 : Nat) < 151; omega) (y := main_cst_1) (v := (constant S_ .f32 0x3F000000#32)) (hy := ⟨by decide, rfl⟩) rfl (not_written written_ok 38 (by decide))
def at_v35 := unary_at (ops := ops (F := F)) (V := V) 38 (by show (38 : Nat) < 151; omega) (x := main_cst_1) (y := main_v35) (f := (broadcastInDim S16x9x56x56 ![] bcast_S_S16x9x56x56 : (⟨S_, .f32⟩ : BufTy).Contents (Elt F) → (⟨S16x9x56x56, .f32⟩ : BufTy).Contents (Elt F))) (hx := ⟨by decide, rfl⟩) (hy := ⟨by decide, rfl⟩) rfl (not_written written_ok 39 (by decide)) (not_written written_ok 38 (by decide))
def at_v36 := binary_at (ops := ops (F := F)) (V := V) 39 (by show (39 : Nat) < 151; omega) (a := main_v35) (b := main_v34) (y := main_v36) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 40 (by decide)) (not_written written_ok 39 (by decide)) (not_written written_ok 39 (by decide))
def at_v37 := unary_at (ops := ops (F := F)) (V := V) 40 (by show (40 : Nat) < 151; omega) (x := main_v22) (y := main_v37) (f := ((extractStridedSlice S16x9x56x56x1 ![0, 0, 0, 0, 2] · slices_S16x9x56x56x4_S16x9x56x56x1_0_0_0_0_2) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 41 (by decide)) (not_written written_ok 40 (by decide))
def at_v38 := reshape_at (ops := ops (F := F)) (V := V) 41 (by show (41 : Nat) < 151; omega) (x := main_v37) (y := main_v38) (he := rfl) (hn := shapeCasts_S16x9x56x56x1_S16x9x56x56) (hx := ⟨by decide, rfl⟩) (hy := ⟨by decide, rfl⟩) rfl (not_written written_ok 42 (by decide)) (not_written written_ok 41 (by decide))
def at_v39 := unary_at (ops := ops (F := F)) (V := V) 42 (by show (42 : Nat) < 151; omega) (x := main_v22) (y := main_v39) (f := ((extractStridedSlice S16x9x56x56x1 ![0, 0, 0, 0, 0] · slices_S16x9x56x56x4_S16x9x56x56x1_0_0_0_0_0) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 43 (by decide)) (not_written written_ok 42 (by decide))
def at_v40 := reshape_at (ops := ops (F := F)) (V := V) 43 (by show (43 : Nat) < 151; omega) (x := main_v39) (y := main_v40) (he := rfl) (hn := shapeCasts_S16x9x56x56x1_S16x9x56x56) (hx := ⟨by decide, rfl⟩) (hy := ⟨by decide, rfl⟩) rfl (not_written written_ok 44 (by decide)) (not_written written_ok 43 (by decide))
def at_v41 := binary_at (ops := ops (F := F)) (V := V) 44 (by show (44 : Nat) < 151; omega) (a := main_v38) (b := main_v40) (y := main_v41) (f := (subf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 45 (by decide)) (not_written written_ok 44 (by decide)) (not_written written_ok 44 (by decide))
def at_v42 := unary_at (ops := ops (F := F)) (V := V) 45 (by show (45 : Nat) < 151; omega) (x := main_v22) (y := main_v42) (f := ((extractStridedSlice S16x9x56x56x1 ![0, 0, 0, 0, 3] · slices_S16x9x56x56x4_S16x9x56x56x1_0_0_0_0_3) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 46 (by decide)) (not_written written_ok 45 (by decide))
def at_v43 := reshape_at (ops := ops (F := F)) (V := V) 46 (by show (46 : Nat) < 151; omega) (x := main_v42) (y := main_v43) (he := rfl) (hn := shapeCasts_S16x9x56x56x1_S16x9x56x56) (hx := ⟨by decide, rfl⟩) (hy := ⟨by decide, rfl⟩) rfl (not_written written_ok 47 (by decide)) (not_written written_ok 46 (by decide))
def at_v44 := unary_at (ops := ops (F := F)) (V := V) 47 (by show (47 : Nat) < 151; omega) (x := main_v22) (y := main_v44) (f := ((extractStridedSlice S16x9x56x56x1 ![0, 0, 0, 0, 1] · slices_S16x9x56x56x4_S16x9x56x56x1_0_0_0_0_1) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 48 (by decide)) (not_written written_ok 47 (by decide))
def at_v45 := reshape_at (ops := ops (F := F)) (V := V) 48 (by show (48 : Nat) < 151; omega) (x := main_v44) (y := main_v45) (he := rfl) (hn := shapeCasts_S16x9x56x56x1_S16x9x56x56) (hx := ⟨by decide, rfl⟩) (hy := ⟨by decide, rfl⟩) rfl (not_written written_ok 49 (by decide)) (not_written written_ok 48 (by decide))
def at_v46 := binary_at (ops := ops (F := F)) (V := V) 49 (by show (49 : Nat) < 151; omega) (a := main_v43) (b := main_v45) (y := main_v46) (f := (subf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 50 (by decide)) (not_written written_ok 49 (by decide)) (not_written written_ok 49 (by decide))
def at_v47 := unary_at (ops := ops (F := F)) (V := V) 50 (by show (50 : Nat) < 151; omega) (x := main_arg2) (y := main_v47) (f := ((extractStridedSlice S16x9x56x56x1 ![0, 0, 0, 0, 0] · slices_S16x9x56x56x4_S16x9x56x56x1_0_0_0_0_0) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 51 (by decide)) (not_written written_ok 50 (by decide))
def at_v48 := reshape_at (ops := ops (F := F)) (V := V) 51 (by show (51 : Nat) < 151; omega) (x := main_v47) (y := main_v48) (he := rfl) (hn := shapeCasts_S16x9x56x56x1_S16x9x56x56) (hx := ⟨by decide, rfl⟩) (hy := ⟨by decide, rfl⟩) rfl (not_written written_ok 52 (by decide)) (not_written written_ok 51 (by decide))
def at_v49 := binary_at (ops := ops (F := F)) (V := V) 52 (by show (52 : Nat) < 151; omega) (a := main_v29) (b := main_v48) (y := main_v49) (f := (addf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 53 (by decide)) (not_written written_ok 52 (by decide)) (not_written written_ok 52 (by decide))
def at_v50 := unary_at (ops := ops (F := F)) (V := V) 53 (by show (53 : Nat) < 151; omega) (x := main_arg2) (y := main_v50) (f := ((extractStridedSlice S16x9x56x56x1 ![0, 0, 0, 0, 1] · slices_S16x9x56x56x4_S16x9x56x56x1_0_0_0_0_1) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 54 (by decide)) (not_written written_ok 53 (by decide))
def at_v51 := reshape_at (ops := ops (F := F)) (V := V) 54 (by show (54 : Nat) < 151; omega) (x := main_v50) (y := main_v51) (he := rfl) (hn := shapeCasts_S16x9x56x56x1_S16x9x56x56) (hx := ⟨by decide, rfl⟩) (hy := ⟨by decide, rfl⟩) rfl (not_written written_ok 55 (by decide)) (not_written written_ok 54 (by decide))
def at_v52 := binary_at (ops := ops (F := F)) (V := V) 55 (by show (55 : Nat) < 151; omega) (a := main_v36) (b := main_v51) (y := main_v52) (f := (addf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 56 (by decide)) (not_written written_ok 55 (by decide)) (not_written written_ok 55 (by decide))
def at_v53 := unary_at (ops := ops (F := F)) (V := V) 56 (by show (56 : Nat) < 151; omega) (x := main_arg2) (y := main_v53) (f := ((extractStridedSlice S16x9x56x56x1 ![0, 0, 0, 0, 2] · slices_S16x9x56x56x4_S16x9x56x56x1_0_0_0_0_2) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 57 (by decide)) (not_written written_ok 56 (by decide))
def at_v54 := reshape_at (ops := ops (F := F)) (V := V) 57 (by show (57 : Nat) < 151; omega) (x := main_v53) (y := main_v54) (he := rfl) (hn := shapeCasts_S16x9x56x56x1_S16x9x56x56) (hx := ⟨by decide, rfl⟩) (hy := ⟨by decide, rfl⟩) rfl (not_written written_ok 58 (by decide)) (not_written written_ok 57 (by decide))
def at_v55 := unary_at (ops := ops (F := F)) (V := V) 58 (by show (58 : Nat) < 151; omega) (x := main_v54) (y := main_v55) (f := (Host.exp : (⟨S16x9x56x56, .f32⟩ : BufTy).Contents (Elt F) → (⟨S16x9x56x56, .f32⟩ : BufTy).Contents (Elt F))) (hx := ⟨by decide, rfl⟩) (hy := ⟨by decide, rfl⟩) rfl (not_written written_ok 59 (by decide)) (not_written written_ok 58 (by decide))
def at_v56 := binary_at (ops := ops (F := F)) (V := V) 59 (by show (59 : Nat) < 151; omega) (a := main_v41) (b := main_v55) (y := main_v56) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 60 (by decide)) (not_written written_ok 59 (by decide)) (not_written written_ok 59 (by decide))
def at_v57 := unary_at (ops := ops (F := F)) (V := V) 60 (by show (60 : Nat) < 151; omega) (x := main_arg2) (y := main_v57) (f := ((extractStridedSlice S16x9x56x56x1 ![0, 0, 0, 0, 3] · slices_S16x9x56x56x4_S16x9x56x56x1_0_0_0_0_3) : (⟨S16x9x56x56x4, .f32⟩ : BufTy).Contents (Elt F) → (⟨S16x9x56x56x1, .f32⟩ : BufTy).Contents (Elt F))) (hx := ⟨by decide, rfl⟩) (hy := ⟨by decide, rfl⟩) rfl (not_written written_ok 61 (by decide)) (not_written written_ok 60 (by decide))
def at_v58 := reshape_at (ops := ops (F := F)) (V := V) 61 (by show (61 : Nat) < 151; omega) (x := main_v57) (y := main_v58) (he := rfl) (hn := shapeCasts_S16x9x56x56x1_S16x9x56x56) (hx := ⟨by decide, rfl⟩) (hy := ⟨by decide, rfl⟩) rfl (not_written written_ok 62 (by decide)) (not_written written_ok 61 (by decide))
def at_v59 := unary_at (ops := ops (F := F)) (V := V) 62 (by show (62 : Nat) < 151; omega) (x := main_v58) (y := main_v59) (f := (Host.exp : (⟨S16x9x56x56, .f32⟩ : BufTy).Contents (Elt F) → (⟨S16x9x56x56, .f32⟩ : BufTy).Contents (Elt F))) (hx := ⟨by decide, rfl⟩) (hy := ⟨by decide, rfl⟩) rfl (not_written written_ok 63 (by decide)) (not_written written_ok 62 (by decide))
def at_v60 := binary_at (ops := ops (F := F)) (V := V) 63 (by show (63 : Nat) < 151; omega) (a := main_v46) (b := main_v59) (y := main_v60) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 64 (by decide)) (not_written written_ok 63 (by decide)) (not_written written_ok 63 (by decide))
def at_cst_2 := nullary_at (ops := ops (F := F)) (V := V) 64 (by show (64 : Nat) < 151; omega) (y := main_cst_2) (v := (constant S_ .f32 0x3F000000#32)) (hy := ⟨by decide, rfl⟩) rfl (not_written written_ok 65 (by decide))
def at_v61 := unary_at (ops := ops (F := F)) (V := V) 65 (by show (65 : Nat) < 151; omega) (x := main_cst_2) (y := main_v61) (f := (broadcastInDim S16x9x56x56 ![] bcast_S_S16x9x56x56 : (⟨S_, .f32⟩ : BufTy).Contents (Elt F) → (⟨S16x9x56x56, .f32⟩ : BufTy).Contents (Elt F))) (hx := ⟨by decide, rfl⟩) (hy := ⟨by decide, rfl⟩) rfl (not_written written_ok 66 (by decide)) (not_written written_ok 65 (by decide))
def at_v62 := binary_at (ops := ops (F := F)) (V := V) 66 (by show (66 : Nat) < 151; omega) (a := main_v61) (b := main_v56) (y := main_v62) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 67 (by decide)) (not_written written_ok 66 (by decide)) (not_written written_ok 66 (by decide))
def at_v63 := binary_at (ops := ops (F := F)) (V := V) 67 (by show (67 : Nat) < 151; omega) (a := main_v49) (b := main_v62) (y := main_v63) (f := (subf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 68 (by decide)) (not_written written_ok 67 (by decide)) (not_written written_ok 67 (by decide))
def at_cst_3 := nullary_at (ops := ops (F := F)) (V := V) 68 (by show (68 : Nat) < 151; omega) (y := main_cst_3) (v := (constant S_ .f32 0x3F000000#32)) (hy := ⟨by decide, rfl⟩) rfl (not_written written_ok 69 (by decide))
def at_v64 := unary_at (ops := ops (F := F)) (V := V) 69 (by show (69 : Nat) < 151; omega) (x := main_cst_3) (y := main_v64) (f := (broadcastInDim S16x9x56x56 ![] bcast_S_S16x9x56x56 : (⟨S_, .f32⟩ : BufTy).Contents (Elt F) → (⟨S16x9x56x56, .f32⟩ : BufTy).Contents (Elt F))) (hx := ⟨by decide, rfl⟩) (hy := ⟨by decide, rfl⟩) rfl (not_written written_ok 70 (by decide)) (not_written written_ok 69 (by decide))
def at_v65 := binary_at (ops := ops (F := F)) (V := V) 70 (by show (70 : Nat) < 151; omega) (a := main_v64) (b := main_v60) (y := main_v65) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 71 (by decide)) (not_written written_ok 70 (by decide)) (not_written written_ok 70 (by decide))
def at_v66 := binary_at (ops := ops (F := F)) (V := V) 71 (by show (71 : Nat) < 151; omega) (a := main_v52) (b := main_v65) (y := main_v66) (f := (subf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 72 (by decide)) (not_written written_ok 71 (by decide)) (not_written written_ok 71 (by decide))
def at_cst_4 := nullary_at (ops := ops (F := F)) (V := V) 72 (by show (72 : Nat) < 151; omega) (y := main_cst_4) (v := (constant S_ .f32 0x3F000000#32)) (hy := ⟨by decide, rfl⟩) rfl (not_written written_ok 73 (by decide))
def at_v67 := unary_at (ops := ops (F := F)) (V := V) 73 (by show (73 : Nat) < 151; omega) (x := main_cst_4) (y := main_v67) (f := (broadcastInDim S16x9x56x56 ![] bcast_S_S16x9x56x56 : (⟨S_, .f32⟩ : BufTy).Contents (Elt F) → (⟨S16x9x56x56, .f32⟩ : BufTy).Contents (Elt F))) (hx := ⟨by decide, rfl⟩) (hy := ⟨by decide, rfl⟩) rfl (not_written written_ok 74 (by decide)) (not_written written_ok 73 (by decide))
def at_v68 := binary_at (ops := ops (F := F)) (V := V) 74 (by show (74 : Nat) < 151; omega) (a := main_v67) (b := main_v56) (y := main_v68) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 75 (by decide)) (not_written written_ok 74 (by decide)) (not_written written_ok 74 (by decide))
def at_v69 := binary_at (ops := ops (F := F)) (V := V) 75 (by show (75 : Nat) < 151; omega) (a := main_v49) (b := main_v68) (y := main_v69) (f := (addf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 76 (by decide)) (not_written written_ok 75 (by decide)) (not_written written_ok 75 (by decide))
def at_cst_5 := nullary_at (ops := ops (F := F)) (V := V) 76 (by show (76 : Nat) < 151; omega) (y := main_cst_5) (v := (constant S_ .f32 0x3F000000#32)) (hy := ⟨by decide, rfl⟩) rfl (not_written written_ok 77 (by decide))
def at_v70 := unary_at (ops := ops (F := F)) (V := V) 77 (by show (77 : Nat) < 151; omega) (x := main_cst_5) (y := main_v70) (f := (broadcastInDim S16x9x56x56 ![] bcast_S_S16x9x56x56 : (⟨S_, .f32⟩ : BufTy).Contents (Elt F) → (⟨S16x9x56x56, .f32⟩ : BufTy).Contents (Elt F))) (hx := ⟨by decide, rfl⟩) (hy := ⟨by decide, rfl⟩) rfl (not_written written_ok 78 (by decide)) (not_written written_ok 77 (by decide))
def at_v71 := binary_at (ops := ops (F := F)) (V := V) 78 (by show (78 : Nat) < 151; omega) (a := main_v70) (b := main_v60) (y := main_v71) (f := (mulf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 79 (by decide)) (not_written written_ok 78 (by decide)) (not_written written_ok 78 (by decide))
def at_v72 := binary_at (ops := ops (F := F)) (V := V) 79 (by show (79 : Nat) < 151; omega) (a := main_v52) (b := main_v71) (y := main_v72) (f := (addf : (⟨S16x9x56x56, .f32⟩ : BufTy).Contents (Elt F) → (⟨S16x9x56x56, .f32⟩ : BufTy).Contents (Elt F) → (⟨S16x9x56x56, .f32⟩ : BufTy).Contents (Elt F))) (ha := ⟨by decide, rfl⟩) (hb := ⟨by decide, rfl⟩) (hy := ⟨by decide, rfl⟩) rfl (not_written written_ok 80 (by decide)) (not_written written_ok 79 (by decide)) (not_written written_ok 79 (by decide))
def at_v73 := unary_at (ops := ops (F := F)) (V := V) 80 (by show (80 : Nat) < 151; omega) (x := main_v63) (y := main_v73) (f := (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F))) (hx := ⟨by decide, rfl⟩) (hy := ⟨by decide, rfl⟩) rfl (not_written written_ok 81 (by decide)) (not_written written_ok 80 (by decide))
def at_v74 := unary_at (ops := ops (F := F)) (V := V) 81 (by show (81 : Nat) < 151; omega) (x := main_v66) (y := main_v74) (f := (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F))) (hx := ⟨by decide, rfl⟩) (hy := ⟨by decide, rfl⟩) rfl (not_written written_ok 82 (by decide)) (not_written written_ok 81 (by decide))
def at_v75 := unary_at (ops := ops (F := F)) (V := V) 82 (by show (82 : Nat) < 151; omega) (x := main_v69) (y := main_v75) (f := (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F))) (hx := ⟨by decide, rfl⟩) (hy := ⟨by decide, rfl⟩) rfl (not_written written_ok 83 (by decide)) (not_written written_ok 82 (by decide))
def at_v76 := unary_at (ops := ops (F := F)) (V := V) 83 (by show (83 : Nat) < 151; omega) (x := main_v72) (y := main_v76) (f := (broadcastInDim S16x9x56x56x1 ![0, 1, 2, 3] bcast_S16x9x56x56_S16x9x56x56x1_0_1_2_3 : (⟨S16x9x56x56, .f32⟩ : BufTy).Contents (Elt F) → (⟨S16x9x56x56x1, .f32⟩ : BufTy).Contents (Elt F))) (hx := ⟨by decide, rfl⟩) (hy := ⟨by decide, rfl⟩) rfl (not_written written_ok 84 (by decide)) (not_written written_ok 83 (by decide))
def at_v77 := nary_at (ops := ops (F := F)) (V := V) 84 (by show (84 : Nat) < 151; omega) (xs := ![main_v73, main_v74, main_v75, main_v76]) (y := main_v77) (f := (fun u => concatenate S16x9x56x56x4 4 [⟨S16x9x56x56x1, u 0⟩, ⟨S16x9x56x56x1, u 1⟩, ⟨S16x9x56x56x1, u 2⟩, ⟨S16x9x56x56x1, u 3⟩] concatenates_S16x9x56x56x1_S16x9x56x56x1_S16x9x56x56x1_S16x9x56x56x1_S16x9x56x56x4_d4)) (hxs := by decide) (hy := ⟨by decide, rfl⟩) rfl (not_written written_ok 85 (by decide))
    (fun i => match i with | ⟨0, _⟩ => not_written written_ok 84 (by show main_v73 ∉ _; decide) | ⟨1, _⟩ => not_written written_ok 84 (by show main_v74 ∉ _; decide) | ⟨2, _⟩ => not_written written_ok 84 (by show main_v75 ∉ _; decide) | ⟨3, _⟩ => not_written written_ok 84 (by show main_v76 ∉ _; decide))
def at_v78 := reshape_at (ops := ops (F := F)) (V := V) 85 (by show (85 : Nat) < 151; omega) (x := main_v77) (y := main_v78) (he := rfl) (hn := shapeCasts_S16x9x56x56x4_S16x28224x1x4) (hx := ⟨by decide, rfl⟩) (hy := ⟨by decide, rfl⟩) rfl (not_written written_ok 86 (by decide)) (not_written written_ok 85 (by decide))
def at_v79 := unary_at (ops := ops (F := F)) (V := V) 86 (by show (86 : Nat) < 151; omega) (x := main_arg3) (y := main_v79) (f := ((extractStridedSlice S16x64x4 ![0, 0, 0] · slices_S16x64x5_S16x64x4_0_0_0) : (⟨S16x64x5, .f32⟩ : BufTy).Contents (Elt F) → (⟨S16x64x4, .f32⟩ : BufTy).Contents (Elt F))) (hx := ⟨by decide, rfl⟩) (hy := ⟨by decide, rfl⟩) rfl (not_written written_ok 87 (by decide)) (not_written written_ok 86 (by decide))
def at_v80 := unary_at (ops := ops (F := F)) (V := V) 87 (by show (87 : Nat) < 151; omega) (x := main_v79) (y := main_v80) (f := (broadcastInDim S16x1x64x4 ![0, 2, 3] bcast_S16x64x4_S16x1x64x4_0_2_3 : (⟨S16x64x4, .f32⟩ : BufTy).Contents (Elt F) → (⟨S16x1x64x4, .f32⟩ : BufTy).Contents (Elt F))) (hx := ⟨by decide, rfl⟩) (hy := ⟨by decide, rfl⟩) rfl (not_written written_ok 88 (by decide)) (not_written written_ok 87 (by decide))
def at_v81 := unary_at (ops := ops (F := F)) (V := V) 88 (by show (88 : Nat) < 151; omega) (x := main_v78) (y := main_v81) (f := ((extractStridedSlice S16x28224x1x2 ![0, 0, 0, 0] · slices_S16x28224x1x4_S16x28224x1x2_0_0_0_0) : (⟨S16x28224x1x4, .f32⟩ : BufTy).Contents (Elt F) → (⟨S16x28224x1x2, .f32⟩ : BufTy).Contents (Elt F))) (hx := ⟨by decide, rfl⟩) (hy := ⟨by decide, rfl⟩) rfl (not_written written_ok 89 (by decide)) (not_written written_ok 88 (by decide))
def at_v82 := unary_at (ops := ops (F := F)) (V := V) 89 (by show (89 : Nat) < 151; omega) (x := main_v80) (y := main_v82) (f := ((extractStridedSlice S16x1x64x2 ![0, 0, 0, 0] · slices_S16x1x64x4_S16x1x64x2_0_0_0_0) : (⟨S16x1x64x4, .f32⟩ : BufTy).Contents (Elt F) → (⟨S16x1x64x2, .f32⟩ : BufTy).Contents (Elt F))) (hx := ⟨by decide, rfl⟩) (hy := ⟨by decide, rfl⟩) rfl (not_written written_ok 90 (by decide)) (not_written written_ok 89 (by decide))
def at_v83 := unary_at (ops := ops (F := F)) (V := V) 90 (by show (90 : Nat) < 151; omega) (x := main_v81) (y := main_v83) (f := (broadcastInDim S16x28224x64x2 ![0, 1, 2, 3] bcast_S16x28224x1x2_S16x28224x64x2_0_1_2_3 : (⟨S16x28224x1x2, .f32⟩ : BufTy).Contents (Elt F) → (⟨S16x28224x64x2, .f32⟩ : BufTy).Contents (Elt F))) (hx := ⟨by decide, rfl⟩) (hy := ⟨by decide, rfl⟩) rfl (not_written written_ok 91 (by decide)) (not_written written_ok 90 (by decide))
def at_v84 := unary_at (ops := ops (F := F)) (V := V) 91 (by show (91 : Nat) < 151; omega) (x := main_v82) (y := main_v84) (f := (broadcastInDim S16x28224x64x2 ![0, 1, 2, 3] bcast_S16x1x64x2_S16x28224x64x2_0_1_2_3 : (⟨S16x1x64x2, .f32⟩ : BufTy).Contents (Elt F) → (⟨S16x28224x64x2, .f32⟩ : BufTy).Contents (Elt F))) (hx := ⟨by decide, rfl⟩) (hy := ⟨by decide, rfl⟩) rfl (not_written written_ok 92 (by decide)) (not_written written_ok 91 (by decide))
def at_v85 := binary_at (ops := ops (F := F)) (V := V) 92 (by show (92 : Nat) < 151; omega) (a := main_v83) (b := main_v84) (y := main_v85) (f := (maximumf : (⟨S16x28224x64x2, .f32⟩ : BufTy).Contents (Elt F) → (⟨S16x28224x64x2, .f32⟩ : BufTy).Contents (Elt F) → (⟨S16x28224x64x2, .f32⟩ : BufTy).Contents (Elt F))) (ha := ⟨by decide, rfl⟩) (hb := ⟨by decide, rfl⟩) (hy := ⟨by decide, rfl⟩) rfl (not_written written_ok 93 (by decide)) (not_written written_ok 92 (by decide)) (not_written written_ok 92 (by decide))
def at_v86 := unary_at (ops := ops (F := F)) (V := V) 93 (by show (93 : Nat) < 151; omega) (x := main_v78) (y := main_v86) (f := ((extractStridedSlice S16x28224x1x2 ![0, 0, 0, 2] · slices_S16x28224x1x4_S16x28224x1x2_0_0_0_2) : (⟨S16x28224x1x4, .f32⟩ : BufTy).Contents (Elt F) → (⟨S16x28224x1x2, .f32⟩ : BufTy).Contents (Elt F))) (hx := ⟨by decide, rfl⟩) (hy := ⟨by decide, rfl⟩) rfl (not_written written_ok 94 (by decide)) (not_written written_ok 93 (by decide))
def at_v87 := unary_at (ops := ops (F := F)) (V := V) 94 (by show (94 : Nat) < 151; omega) (x := main_v80) (y := main_v87) (f := ((extractStridedSlice S16x1x64x2 ![0, 0, 0, 2] · slices_S16x1x64x4_S16x1x64x2_0_0_0_2) : (⟨S16x1x64x4, .f32⟩ : BufTy).Contents (Elt F) → (⟨S16x1x64x2, .f32⟩ : BufTy).Contents (Elt F))) (hx := ⟨by decide, rfl⟩) (hy := ⟨by decide, rfl⟩) rfl (not_written written_ok 95 (by decide)) (not_written written_ok 94 (by decide))
def at_v88 := unary_at (ops := ops (F := F)) (V := V) 95 (by show (95 : Nat) < 151; omega) (x := main_v86) (y := main_v88) (f := (broadcastInDim S16x28224x64x2 ![0, 1, 2, 3] bcast_S16x28224x1x2_S16x28224x64x2_0_1_2_3 : (⟨S16x28224x1x2, .f32⟩ : BufTy).Contents (Elt F) → (⟨S16x28224x64x2, .f32⟩ : BufTy).Contents (Elt F))) (hx := ⟨by decide, rfl⟩) (hy := ⟨by decide, rfl⟩) rfl (not_written written_ok 96 (by decide)) (not_written written_ok 95 (by decide))
def at_v89 := unary_at (ops := ops (F := F)) (V := V) 96 (by show (96 : Nat) < 151; omega) (x := main_v87) (y := main_v89) (f := (broadcastInDim S16x28224x64x2 ![0, 1, 2, 3] bcast_S16x1x64x2_S16x28224x64x2_0_1_2_3 : (⟨S16x1x64x2, .f32⟩ : BufTy).Contents (Elt F) → (⟨S16x28224x64x2, .f32⟩ : BufTy).Contents (Elt F))) (hx := ⟨by decide, rfl⟩) (hy := ⟨by decide, rfl⟩) rfl (not_written written_ok 97 (by decide)) (not_written written_ok 96 (by decide))
def at_v90 := binary_at (ops := ops (F := F)) (V := V) 97 (by show (97 : Nat) < 151; omega) (a := main_v88) (b := main_v89) (y := main_v90) (f := (minimumf : (⟨S16x28224x64x2, .f32⟩ : BufTy).Contents (Elt F) → (⟨S16x28224x64x2, .f32⟩ : BufTy).Contents (Elt F) → (⟨S16x28224x64x2, .f32⟩ : BufTy).Contents (Elt F))) (ha := ⟨by decide, rfl⟩) (hb := ⟨by decide, rfl⟩) (hy := ⟨by decide, rfl⟩) rfl (not_written written_ok 98 (by decide)) (not_written written_ok 97 (by decide)) (not_written written_ok 97 (by decide))
def at_v91 := unary_at (ops := ops (F := F)) (V := V) 98 (by show (98 : Nat) < 151; omega) (x := main_v85) (y := main_v91) (f := ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 99 (by decide)) (not_written written_ok 98 (by decide))
def at_v92 := reshape_at (ops := ops (F := F)) (V := V) 99 (by show (99 : Nat) < 151; omega) (x := main_v91) (y := main_v92) (he := rfl) (hn := shapeCasts_S16x28224x64x1_S16x28224x64) (hx := ⟨by decide, rfl⟩) (hy := ⟨by decide, rfl⟩) rfl (not_written written_ok 100 (by decide)) (not_written written_ok 99 (by decide))
def at_v93 := unary_at (ops := ops (F := F)) (V := V) 100 (by show (100 : Nat) < 151; omega) (x := main_v90) (y := main_v93) (f := ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 101 (by decide)) (not_written written_ok 100 (by decide))
def at_v94 := reshape_at (ops := ops (F := F)) (V := V) 101 (by show (101 : Nat) < 151; omega) (x := main_v93) (y := main_v94) (he := rfl) (hn := shapeCasts_S16x28224x64x1_S16x28224x64) (hx := ⟨by decide, rfl⟩) (hy := ⟨by decide, rfl⟩) rfl (not_written written_ok 102 (by decide)) (not_written written_ok 101 (by decide))
def at_v95 := binary_at (ops := ops (F := F)) (V := V) 102 (by show (102 : Nat) < 151; omega) (a := main_v92) (b := main_v94) (y := main_v95) (f := (cmpf .ogt : (⟨S16x28224x64, .f32⟩ : BufTy).Contents (Elt F) → (⟨S16x28224x64, .f32⟩ : BufTy).Contents (Elt F) → (⟨S16x28224x64, .i1⟩ : BufTy).Contents (Elt F))) (ha := ⟨by decide, rfl⟩) (hb := ⟨by decide, rfl⟩) (hy := ⟨by decide, rfl⟩) rfl (not_written written_ok 103 (by decide)) (not_written written_ok 102 (by decide)) (not_written written_ok 102 (by decide))
def at_v96 := unary_at (ops := ops (F := F)) (V := V) 103 (by show (103 : Nat) < 151; omega) (x := main_v85) (y := main_v96) (f := ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 104 (by decide)) (not_written written_ok 103 (by decide))
def at_v97 := reshape_at (ops := ops (F := F)) (V := V) 104 (by show (104 : Nat) < 151; omega) (x := main_v96) (y := main_v97) (he := rfl) (hn := shapeCasts_S16x28224x64x1_S16x28224x64) (hx := ⟨by decide, rfl⟩) (hy := ⟨by decide, rfl⟩) rfl (not_written written_ok 105 (by decide)) (not_written written_ok 104 (by decide))
def at_v98 := unary_at (ops := ops (F := F)) (V := V) 105 (by show (105 : Nat) < 151; omega) (x := main_v90) (y := main_v98) (f := ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 106 (by decide)) (not_written written_ok 105 (by decide))
def at_v99 := reshape_at (ops := ops (F := F)) (V := V) 106 (by show (106 : Nat) < 151; omega) (x := main_v98) (y := main_v99) (he := rfl) (hn := shapeCasts_S16x28224x64x1_S16x28224x64) (hx := ⟨by decide, rfl⟩) (hy := ⟨by decide, rfl⟩) rfl (not_written written_ok 107 (by decide)) (not_written written_ok 106 (by decide))
def at_v100 := binary_at (ops := ops (F := F)) (V := V) 107 (by show (107 : Nat) < 151; omega) (a := main_v97) (b := main_v99) (y := main_v100) (f := (cmpf .ogt : (⟨S16x28224x64, .f32⟩ : BufTy).Contents (Elt F) → (⟨S16x28224x64, .f32⟩ : BufTy).Contents (Elt F) → (⟨S16x28224x64, .i1⟩ : BufTy).Contents (Elt F))) (ha := ⟨by decide, rfl⟩) (hb := ⟨by decide, rfl⟩) (hy := ⟨by decide, rfl⟩) rfl (not_written written_ok 108 (by decide)) (not_written written_ok 107 (by decide)) (not_written written_ok 107 (by decide))
def at_v101 := binary_at (ops := ops (F := F)) (V := V) 108 (by show (108 : Nat) < 151; omega) (a := main_v95) (b := main_v100) (y := main_v101) (f := (ori : (⟨S16x28224x64, .i1⟩ : BufTy).Contents (Elt F) → (⟨S16x28224x64, .i1⟩ : BufTy).Contents (Elt F) → (⟨S16x28224x64, .i1⟩ : BufTy).Contents (Elt F))) (ha := ⟨by decide, rfl⟩) (hb := ⟨by decide, rfl⟩) (hy := ⟨by decide, rfl⟩) rfl (not_written written_ok 109 (by decide)) (not_written written_ok 108 (by decide)) (not_written written_ok 108 (by decide))
def at_v102 := unary_at (ops := ops (F := F)) (V := V) 109 (by show (109 : Nat) < 151; omega) (x := main_v90) (y := main_v102) (f := ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 110 (by decide)) (not_written written_ok 109 (by decide))
def at_v103 := reshape_at (ops := ops (F := F)) (V := V) 110 (by show (110 : Nat) < 151; omega) (x := main_v102) (y := main_v103) (he := rfl) (hn := shapeCasts_S16x28224x64x1_S16x28224x64) (hx := ⟨by decide, rfl⟩) (hy := ⟨by decide, rfl⟩) rfl (not_written written_ok 111 (by decide)) (not_written written_ok 110 (by decide))
def at_v104 := unary_at (ops := ops (F := F)) (V := V) 111 (by show (111 : Nat) < 151; omega) (x := main_v85) (y := main_v104) (f := ((extractStridedSlice S16x28224x64x1 ![0, 0, 0, 0] · slices_S16x28224x64x2_S16x28224x64x1_0_0_0_0) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 112 (by decide)) (not_written written_ok 111 (by decide))
def at_v105 := reshape_at (ops := ops (F := F)) (V := V) 112 (by show (112 : Nat) < 151; omega) (x := main_v104) (y := main_v105) (he := rfl) (hn := shapeCasts_S16x28224x64x1_S16x28224x64) (hx := ⟨by decide, rfl⟩) (hy := ⟨by decide, rfl⟩) rfl (not_written written_ok 113 (by decide)) (not_written written_ok 112 (by decide))
def at_v106 := binary_at (ops := ops (F := F)) (V := V) 113 (by show (113 : Nat) < 151; omega) (a := main_v103) (b := main_v105) (y := main_v106) (f := (subf : (⟨S16x28224x64, .f32⟩ : BufTy).Contents (Elt F) → (⟨S16x28224x64, .f32⟩ : BufTy).Contents (Elt F) → (⟨S16x28224x64, .f32⟩ : BufTy).Contents (Elt F))) (ha := ⟨by decide, rfl⟩) (hb := ⟨by decide, rfl⟩) (hy := ⟨by decide, rfl⟩) rfl (not_written written_ok 114 (by decide)) (not_written written_ok 113 (by decide)) (not_written written_ok 113 (by decide))
def at_v107 := unary_at (ops := ops (F := F)) (V := V) 114 (by show (114 : Nat) < 151; omega) (x := main_v90) (y := main_v107) (f := ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 115 (by decide)) (not_written written_ok 114 (by decide))
def at_v108 := reshape_at (ops := ops (F := F)) (V := V) 115 (by show (115 : Nat) < 151; omega) (x := main_v107) (y := main_v108) (he := rfl) (hn := shapeCasts_S16x28224x64x1_S16x28224x64) (hx := ⟨by decide, rfl⟩) (hy := ⟨by decide, rfl⟩) rfl (not_written written_ok 116 (by decide)) (not_written written_ok 115 (by decide))
def at_v109 := unary_at (ops := ops (F := F)) (V := V) 116 (by show (116 : Nat) < 151; omega) (x := main_v85) (y := main_v109) (f := ((extractStridedSlice S16x28224x64x1 ![0, 0, 0, 1] · slices_S16x28224x64x2_S16x28224x64x1_0_0_0_1) : (⟨S16x28224x64x2, .f32⟩ : BufTy).Contents (Elt F) → (⟨S16x28224x64x1, .f32⟩ : BufTy).Contents (Elt F))) (hx := ⟨by decide, rfl⟩) (hy := ⟨by decide, rfl⟩) rfl (not_written written_ok 117 (by decide)) (not_written written_ok 116 (by decide))
def at_v110 := reshape_at (ops := ops (F := F)) (V := V) 117 (by show (117 : Nat) < 151; omega) (x := main_v109) (y := main_v110) (he := rfl) (hn := shapeCasts_S16x28224x64x1_S16x28224x64) (hx := ⟨by decide, rfl⟩) (hy := ⟨by decide, rfl⟩) rfl (not_written written_ok 118 (by decide)) (not_written written_ok 117 (by decide))
def at_v111 := binary_at (ops := ops (F := F)) (V := V) 118 (by show (118 : Nat) < 151; omega) (a := main_v108) (b := main_v110) (y := main_v111) (f := (subf : (⟨S16x28224x64, .f32⟩ : BufTy).Contents (Elt F) → (⟨S16x28224x64, .f32⟩ : BufTy).Contents (Elt F) → (⟨S16x28224x64, .f32⟩ : BufTy).Contents (Elt F))) (ha := ⟨by decide, rfl⟩) (hb := ⟨by decide, rfl⟩) (hy := ⟨by decide, rfl⟩) rfl (not_written written_ok 119 (by decide)) (not_written written_ok 118 (by decide)) (not_written written_ok 118 (by decide))
def at_v112 := binary_at (ops := ops (F := F)) (V := V) 119 (by show (119 : Nat) < 151; omega) (a := main_v106) (b := main_v111) (y := main_v112) (f := (mulf : (⟨S16x28224x64, .f32⟩ : BufTy).Contents (Elt F) → (⟨S16x28224x64, .f32⟩ : BufTy).Contents (Elt F) → (⟨S16x28224x64, .f32⟩ : BufTy).Contents (Elt F))) (ha := ⟨by decide, rfl⟩) (hb := ⟨by decide, rfl⟩) (hy := ⟨by decide, rfl⟩) rfl (not_written written_ok 120 (by decide)) (not_written written_ok 119 (by decide)) (not_written written_ok 119 (by decide))
def at_cst_6 := nullary_at (ops := ops (F := F)) (V := V) 120 (by show (120 : Nat) < 151; omega) (y := main_cst_6) (v := (constant S_ .f32 0x00000000#32)) (hy := ⟨by decide, rfl⟩) rfl (not_written written_ok 121 (by decide))
def at_call0_v0 := unary_at (ops := ops (F := F)) (V := V) 121 (by show (121 : Nat) < 151; omega) (x := main_cst_6) (y := main_call0_v0) (f := ((fun u => id u) : (⟨S_, .f32⟩ : BufTy).Contents (Elt F) → (⟨S_, .f32⟩ : BufTy).Contents (Elt F))) (hx := (TRef.of (T := ⟨S_, .f32⟩) main_cst_6).dev) (hy := (TRef.of (T := ⟨S_, .f32⟩) main_call0_v0).dev) rfl (not_written written_ok 122 (by decide)) (not_written written_ok 121 (by decide))
def at_call0_v1 := unary_at (ops := ops (F := F)) (V := V) 122 (by show (122 : Nat) < 151; omega) (x := main_call0_v0) (y := main_call0_v1) (f := ((fun u => (broadcastInDim S16x28224x64 ![] bcast_S_S16x28224x64) u) : (⟨S_, .f32⟩ : BufTy).Contents (Elt F) → (⟨S16x28224x64, .f32⟩ : BufTy).Contents (Elt F))) (hx := (TRef.of (T := ⟨S_, .f32⟩) main_call0_v0).dev) (hy := (TRef.of (T := ⟨S16x28224x64, .f32⟩) main_call0_v1).dev) rfl (not_written written_ok 123 (by decide)) (not_written written_ok 122 (by decide))
def at_v113 := ternary_at (ops := ops (F := F)) (V := V) 123 (by show (123 : Nat) < 151; omega) (c := main_v101) (a := main_call0_v1) (b := main_v112) (y := main_v113) (f := ((fun w u v => select w u v) : (⟨S16x28224x64, .i1⟩ : BufTy).Contents (Elt F) → (⟨S16x28224x64, .f32⟩ : BufTy).Contents (Elt F) → (⟨S16x28224x64, .f32⟩ : BufTy).Contents (Elt F) → (⟨S16x28224x64, .f32⟩ : BufTy).Contents (Elt F))) (hc := (TRef.of (T := ⟨S16x28224x64, .i1⟩) main_v101).dev) (ha := (TRef.of (T := ⟨S16x28224x64, .f32⟩) main_call0_v1).dev) (hb := (TRef.of (T := ⟨S16x28224x64, .f32⟩) main_v112).dev) (hy := (TRef.of (T := ⟨S16x28224x64, .f32⟩) main_v113).dev) rfl (not_written written_ok 124 (by decide)) (not_written written_ok 123 (by decide)) (not_written written_ok 123 (by decide)) (not_written written_ok 123 (by decide))
def at_v114 := unary_at (ops := ops (F := F)) (V := V) 124 (by show (124 : Nat) < 151; omega) (x := main_v78) (y := main_v114) (f := ((extractStridedSlice S16x28224x1x1 ![0, 0, 0, 2] · slices_S16x28224x1x4_S16x28224x1x1_0_0_0_2) : (⟨S16x28224x1x4, .f32⟩ : BufTy).Contents (Elt F) → (⟨S16x28224x1x1, .f32⟩ : BufTy).Contents (Elt F))) (hx := ⟨by decide, rfl⟩) (hy := ⟨by decide, rfl⟩) rfl (not_written written_ok 125 (by decide)) (not_written written_ok 124 (by decide))
def at_v115 := reshape_at (ops := ops (F := F)) (V := V) 125 (by show (125 : Nat) < 151; omega) (x := main_v114) (y := main_v115) (he := rfl) (hn := shapeCasts_S16x28224x1x1_S16x28224x1) (hx := ⟨by decide, rfl⟩) (hy := ⟨by decide, rfl⟩) rfl (not_written written_ok 126 (by decide)) (not_written written_ok 125 (by decide))
def at_v116 := unary_at (ops := ops (F := F)) (V := V) 126 (by show (126 : Nat) < 151; omega) (x := main_v78) (y := main_v116) (f := ((extractStridedSlice S16x28224x1x1 ![0, 0, 0, 0] · slices_S16x28224x1x4_S16x28224x1x1_0_0_0_0) : (⟨S16x28224x1x4, .f32⟩ : BufTy).Contents (Elt F) → (⟨S16x28224x1x1, .f32⟩ : BufTy).Contents (Elt F))) (hx := ⟨by decide, rfl⟩) (hy := ⟨by decide, rfl⟩) rfl (not_written written_ok 127 (by decide)) (not_written written_ok 126 (by decide))
def at_v117 := reshape_at (ops := ops (F := F)) (V := V) 127 (by show (127 : Nat) < 151; omega) (x := main_v116) (y := main_v117) (he := rfl) (hn := shapeCasts_S16x28224x1x1_S16x28224x1) (hx := ⟨by decide, rfl⟩) (hy := ⟨by decide, rfl⟩) rfl (not_written written_ok 128 (by decide)) (not_written written_ok 127 (by decide))
def at_v118 := binary_at (ops := ops (F := F)) (V := V) 128 (by show (128 : Nat) < 151; omega) (a := main_v115) (b := main_v117) (y := main_v118) (f := (subf : (⟨S16x28224x1, .f32⟩ : BufTy).Contents (Elt F) → (⟨S16x28224x1, .f32⟩ : BufTy).Contents (Elt F) → (⟨S16x28224x1, .f32⟩ : BufTy).Contents (Elt F))) (ha := ⟨by decide, rfl⟩) (hb := ⟨by decide, rfl⟩) (hy := ⟨by decide, rfl⟩) rfl (not_written written_ok 129 (by decide)) (not_written written_ok 128 (by decide)) (not_written written_ok 128 (by decide))
def at_v119 := unary_at (ops := ops (F := F)) (V := V) 129 (by show (129 : Nat) < 151; omega) (x := main_v78) (y := main_v119) (f := ((extractStridedSlice S16x28224x1x1 ![0, 0, 0, 3] · slices_S16x28224x1x4_S16x28224x1x1_0_0_0_3) : (⟨S16x28224x1x4, .f32⟩ : BufTy).Contents (Elt F) → (⟨S16x28224x1x1, .f32⟩ : BufTy).Contents (Elt F))) (hx := ⟨by decide, rfl⟩) (hy := ⟨by decide, rfl⟩) rfl (not_written written_ok 130 (by decide)) (not_written written_ok 129 (by decide))
def at_v120 := reshape_at (ops := ops (F := F)) (V := V) 130 (by show (130 : Nat) < 151; omega) (x := main_v119) (y := main_v120) (he := rfl) (hn := shapeCasts_S16x28224x1x1_S16x28224x1) (hx := ⟨by decide, rfl⟩) (hy := ⟨by decide, rfl⟩) rfl (not_written written_ok 131 (by decide)) (not_written written_ok 130 (by decide))
def at_v121 := unary_at (ops := ops (F := F)) (V := V) 131 (by show (131 : Nat) < 151; omega) (x := main_v78) (y := main_v121) (f := ((extractStridedSlice S16x28224x1x1 ![0, 0, 0, 1] · slices_S16x28224x1x4_S16x28224x1x1_0_0_0_1) : (⟨S16x28224x1x4, .f32⟩ : BufTy).Contents (Elt F) → (⟨S16x28224x1x1, .f32⟩ : BufTy).Contents (Elt F))) (hx := ⟨by decide, rfl⟩) (hy := ⟨by decide, rfl⟩) rfl (not_written written_ok 132 (by decide)) (not_written written_ok 131 (by decide))
def at_v122 := reshape_at (ops := ops (F := F)) (V := V) 132 (by show (132 : Nat) < 151; omega) (x := main_v121) (y := main_v122) (he := rfl) (hn := shapeCasts_S16x28224x1x1_S16x28224x1) (hx := ⟨by decide, rfl⟩) (hy := ⟨by decide, rfl⟩) rfl (not_written written_ok 133 (by decide)) (not_written written_ok 132 (by decide))
def at_v123 := binary_at (ops := ops (F := F)) (V := V) 133 (by show (133 : Nat) < 151; omega) (a := main_v120) (b := main_v122) (y := main_v123) (f := (subf : (⟨S16x28224x1, .f32⟩ : BufTy).Contents (Elt F) → (⟨S16x28224x1, .f32⟩ : BufTy).Contents (Elt F) → (⟨S16x28224x1, .f32⟩ : BufTy).Contents (Elt F))) (ha := ⟨by decide, rfl⟩) (hb := ⟨by decide, rfl⟩) (hy := ⟨by decide, rfl⟩) rfl (not_written written_ok 134 (by decide)) (not_written written_ok 133 (by decide)) (not_written written_ok 133 (by decide))
def at_v124 := binary_at (ops := ops (F := F)) (V := V) 134 (by show (134 : Nat) < 151; omega) (a := main_v118) (b := main_v123) (y := main_v124) (f := (mulf : (⟨S16x28224x1, .f32⟩ : BufTy).Contents (Elt F) → (⟨S16x28224x1, .f32⟩ : BufTy).Contents (Elt F) → (⟨S16x28224x1, .f32⟩ : BufTy).Contents (Elt F))) (ha := ⟨by decide, rfl⟩) (hb := ⟨by decide, rfl⟩) (hy := ⟨by decide, rfl⟩) rfl (not_written written_ok 135 (by decide)) (not_written written_ok 134 (by decide)) (not_written written_ok 134 (by decide))
def at_v125 := unary_at (ops := ops (F := F)) (V := V) 135 (by show (135 : Nat) < 151; omega) (x := main_v80) (y := main_v125) (f := ((extractStridedSlice S16x1x64x1 ![0, 0, 0, 2] · slices_S16x1x64x4_S16x1x64x1_0_0_0_2) : (⟨S16x1x64x4, .f32⟩ : BufTy).Contents (Elt F) → (⟨S16x1x64x1, .f32⟩ : BufTy).Contents (Elt F))) (hx := ⟨by decide, rfl⟩) (hy := ⟨by decide, rfl⟩) rfl (not_written written_ok 136 (by decide)) (not_written written_ok 135 (by decide))
def at_v126 := reshape_at (ops := ops (F := F)) (V := V) 136 (by show (136 : Nat) < 151; omega) (x := main_v125) (y := main_v126) (he := rfl) (hn := shapeCasts_S16x1x64x1_S16x1x64) (hx := ⟨by decide, rfl⟩) (hy := ⟨by decide, rfl⟩) rfl (not_written written_ok 137 (by decide)) (not_written written_ok 136 (by decide))
def at_v127 := unary_at (ops := ops (F := F)) (V := V) 137 (by show (137 : Nat) < 151; omega) (x := main_v80) (y := main_v127) (f := ((extractStridedSlice S16x1x64x1 ![0, 0, 0, 0] · slices_S16x1x64x4_S16x1x64x1_0_0_0_0) : (⟨S16x1x64x4, .f32⟩ : BufTy).Contents (Elt F) → (⟨S16x1x64x1, .f32⟩ : BufTy).Contents (Elt F))) (hx := ⟨by decide, rfl⟩) (hy := ⟨by decide, rfl⟩) rfl (not_written written_ok 138 (by decide)) (not_written written_ok 137 (by decide))
def at_v128 := reshape_at (ops := ops (F := F)) (V := V) 138 (by show (138 : Nat) < 151; omega) (x := main_v127) (y := main_v128) (he := rfl) (hn := shapeCasts_S16x1x64x1_S16x1x64) (hx := ⟨by decide, rfl⟩) (hy := ⟨by decide, rfl⟩) rfl (not_written written_ok 139 (by decide)) (not_written written_ok 138 (by decide))
def at_v129 := binary_at (ops := ops (F := F)) (V := V) 139 (by show (139 : Nat) < 151; omega) (a := main_v126) (b := main_v128) (y := main_v129) (f := (subf : (⟨S16x1x64, .f32⟩ : BufTy).Contents (Elt F) → (⟨S16x1x64, .f32⟩ : BufTy).Contents (Elt F) → (⟨S16x1x64, .f32⟩ : BufTy).Contents (Elt F))) (ha := ⟨by decide, rfl⟩) (hb := ⟨by decide, rfl⟩) (hy := ⟨by decide, rfl⟩) rfl (not_written written_ok 140 (by decide)) (not_written written_ok 139 (by decide)) (not_written written_ok 139 (by decide))
def at_v130 := unary_at (ops := ops (F := F)) (V := V) 140 (by show (140 : Nat) < 151; omega) (x := main_v80) (y := main_v130) (f := ((extractStridedSlice S16x1x64x1 ![0, 0, 0, 3] · slices_S16x1x64x4_S16x1x64x1_0_0_0_3) : (⟨S16x1x64x4, .f32⟩ : BufTy).Contents (Elt F) → (⟨S16x1x64x1, .f32⟩ : BufTy).Contents (Elt F))) (hx := ⟨by decide, rfl⟩) (hy := ⟨by decide, rfl⟩) rfl (not_written written_ok 141 (by decide)) (not_written written_ok 140 (by decide))
def at_v131 := reshape_at (ops := ops (F := F)) (V := V) 141 (by show (141 : Nat) < 151; omega) (x := main_v130) (y := main_v131) (he := rfl) (hn := shapeCasts_S16x1x64x1_S16x1x64) (hx := ⟨by decide, rfl⟩) (hy := ⟨by decide, rfl⟩) rfl (not_written written_ok 142 (by decide)) (not_written written_ok 141 (by decide))
def at_v132 := unary_at (ops := ops (F := F)) (V := V) 142 (by show (142 : Nat) < 151; omega) (x := main_v80) (y := main_v132) (f := ((extractStridedSlice S16x1x64x1 ![0, 0, 0, 1] · slices_S16x1x64x4_S16x1x64x1_0_0_0_1) : (⟨S16x1x64x4, .f32⟩ : BufTy).Contents (Elt F) → (⟨S16x1x64x1, .f32⟩ : BufTy).Contents (Elt F))) (hx := ⟨by decide, rfl⟩) (hy := ⟨by decide, rfl⟩) rfl (not_written written_ok 143 (by decide)) (not_written written_ok 142 (by decide))
def at_v133 := reshape_at (ops := ops (F := F)) (V := V) 143 (by show (143 : Nat) < 151; omega) (x := main_v132) (y := main_v133) (he := rfl) (hn := shapeCasts_S16x1x64x1_S16x1x64) (hx := ⟨by decide, rfl⟩) (hy := ⟨by decide, rfl⟩) rfl (not_written written_ok 144 (by decide)) (not_written written_ok 143 (by decide))
def at_v134 := binary_at (ops := ops (F := F)) (V := V) 144 (by show (144 : Nat) < 151; omega) (a := main_v131) (b := main_v133) (y := main_v134) (f := (subf : (⟨S16x1x64, .f32⟩ : BufTy).Contents (Elt F) → (⟨S16x1x64, .f32⟩ : BufTy).Contents (Elt F) → (⟨S16x1x64, .f32⟩ : BufTy).Contents (Elt F))) (ha := ⟨by decide, rfl⟩) (hb := ⟨by decide, rfl⟩) (hy := ⟨by decide, rfl⟩) rfl (not_written written_ok 145 (by decide)) (not_written written_ok 144 (by decide)) (not_written written_ok 144 (by decide))
def at_v135 := binary_at (ops := ops (F := F)) (V := V) 145 (by show (145 : Nat) < 151; omega) (a := main_v129) (b := main_v134) (y := main_v135) (f := (mulf : (⟨S16x1x64, .f32⟩ : BufTy).Contents (Elt F) → (⟨S16x1x64, .f32⟩ : BufTy).Contents (Elt F) → (⟨S16x1x64, .f32⟩ : BufTy).Contents (Elt F))) (ha := ⟨by decide, rfl⟩) (hb := ⟨by decide, rfl⟩) (hy := ⟨by decide, rfl⟩) rfl (not_written written_ok 146 (by decide)) (not_written written_ok 145 (by decide)) (not_written written_ok 145 (by decide))
def at_v136 := unary_at (ops := ops (F := F)) (V := V) 146 (by show (146 : Nat) < 151; omega) (x := main_v124) (y := main_v136) (f := (broadcastInDim S16x28224x64 ![0, 1, 2] bcast_S16x28224x1_S16x28224x64_0_1_2 : (⟨S16x28224x1, .f32⟩ : BufTy).Contents (Elt F) → (⟨S16x28224x64, .f32⟩ : BufTy).Contents (Elt F))) (hx := ⟨by decide, rfl⟩) (hy := ⟨by decide, rfl⟩) rfl (not_written written_ok 147 (by decide)) (not_written written_ok 146 (by decide))
def at_v137 := unary_at (ops := ops (F := F)) (V := V) 147 (by show (147 : Nat) < 151; omega) (x := main_v135) (y := main_v137) (f := (broadcastInDim S16x28224x64 ![0, 1, 2] bcast_S16x1x64_S16x28224x64_0_1_2 : (⟨S16x1x64, .f32⟩ : BufTy).Contents (Elt F) → (⟨S16x28224x64, .f32⟩ : BufTy).Contents (Elt F))) (hx := ⟨by decide, rfl⟩) (hy := ⟨by decide, rfl⟩) rfl (not_written written_ok 148 (by decide)) (not_written written_ok 147 (by decide))
def at_v138 := binary_at (ops := ops (F := F)) (V := V) 148 (by show (148 : Nat) < 151; omega) (a := main_v136) (b := main_v137) (y := main_v138) (f := (addf : (⟨S16x28224x64, .f32⟩ : BufTy).Contents (Elt F) → (⟨S16x28224x64, .f32⟩ : BufTy).Contents (Elt F) → (⟨S16x28224x64, .f32⟩ : BufTy).Contents (Elt F))) (ha := ⟨by decide, rfl⟩) (hb := ⟨by decide, rfl⟩) (hy := ⟨by decide, rfl⟩) rfl (not_written written_ok 149 (by decide)) (not_written written_ok 148 (by decide)) (not_written written_ok 148 (by decide))
def at_v139 := binary_at (ops := ops (F := F)) (V := V) 149 (by show (149 : Nat) < 151; omega) (a := main_v138) (b := main_v113) (y := main_v139) (f := (subf : (⟨S16x28224x64, .f32⟩ : BufTy).Contents (Elt F) → (⟨S16x28224x64, .f32⟩ : BufTy).Contents (Elt F) → (⟨S16x28224x64, .f32⟩ : BufTy).Contents (Elt F))) (ha := ⟨by decide, rfl⟩) (hb := ⟨by decide, rfl⟩) (hy := ⟨by decide, rfl⟩) rfl (not_written written_ok 150 (by decide)) (not_written written_ok 149 (by decide)) (not_written written_ok 149 (by decide))
def at_v140 := binary_at (ops := ops (F := F)) (V := V) 150 (by show (150 : Nat) < 151; omega) (a := main_v113) (b := main_v139) (y := main_v140) (f := (Host.divf : (⟨S16x28224x64, .f32⟩ : BufTy).Contents (Elt F) → (⟨S16x28224x64, .f32⟩ : BufTy).Contents (Elt F) → (⟨S16x28224x64, .f32⟩ : BufTy).Contents (Elt F))) (ha := ⟨by decide, rfl⟩) (hb := ⟨by decide, rfl⟩) (hy := ⟨by decide, rfl⟩) rfl (not_written written_ok 151 (by decide)) (not_written written_ok 150 (by decide)) (not_written written_ok 150 (by decide))

end Cert.ReferenceIdeal.Line

end
-- ==== Proof.IouLayout.lean ====
/-
  The reference program's re-indexing operations read at an index, one lemma per kind of operation and pair of shapes
  (columns and slices of the last axis are general and live in LibLastAxis.lean): the
  broadcasts that insert or stretch unit axes, the recast of (anchor, row, column) into one row index, and the joins of
  two or four arrays along an axis. Each says: the result at an index is the operand at the index with the same
  coordinates, `0` on a unit axis, the offset added on a sliced axis.
-/
import Idealize.ShloMosaic.Lib.ValueIdx
import Idealize.ShloMosaic.Lib.Pipeline.Value
import proofs.«107946_j57105885168323_1_alg».proof.Proof.LibLastAxis

namespace Cert.Iou.Layout

open Idealize.ShloMosaic Idealize.ShloMosaic.ValueIdx

variable {α : Type}

/-! ## Broadcasts -/

/-- A copy of cell data for every anchor: a new unit axis after the batch axis. -/
theorem bcastInsert1 (h : (⟨4, ![16, 56, 56, 4]⟩ : Shape).BroadcastsInDim ⟨5, ![16, 1, 56, 56, 4]⟩ (![0, 2, 3, 4] : Fin 4 → Fin 5))
    (x : (⟨4, ![16, 56, 56, 4]⟩ : Shape).Idx → α) (b : Fin 16) (u : Fin 1) (p q : Fin 56) (k : Fin 4) :
    broadcastInDim ⟨5, ![16, 1, 56, 56, 4]⟩ ![0, 2, 3, 4] h x (ix5 b u p q k) = x (ix4 b p q k) :=
  broadcastInDim_apply _ h x _ _ fun a => match a with
    | ⟨0, _⟩ => by show b.val = if (16 : Nat) = 1 then 0 else b.val; rw [if_neg (by decide)]
    | ⟨1, _⟩ => by show p.val = if (56 : Nat) = 1 then 0 else p.val; rw [if_neg (by decide)]
    | ⟨2, _⟩ => by show q.val = if (56 : Nat) = 1 then 0 else q.val; rw [if_neg (by decide)]
    | ⟨3, _⟩ => by show k.val = if (4 : Nat) = 1 then 0 else k.val; rw [if_neg (by decide)]

/-- A vector of nine as a column. -/
theorem bcastColumn9 (h : (⟨1, ![9]⟩ : Shape).BroadcastsInDim ⟨2, ![9, 1]⟩ (![0] : Fin 1 → Fin 2))
    (x : (⟨1, ![9]⟩ : Shape).Idx → α) (a : Fin 9) (u : Fin 1) :
    broadcastInDim ⟨2, ![9, 1]⟩ ![0] h x (ix2 a u) = x (ix1 a) :=
  broadcastInDim_apply _ h x _ _ fun d => match d with
    | ⟨0, _⟩ => by show a.val = if (9 : Nat) = 1 then 0 else a.val; rw [if_neg (by decide)]

/-- The anchors' table placed on the anchor axis and the last axis of a rank-5 array of unit extents elsewhere. -/
theorem bcastAnchorAxes (h : (⟨2, ![9, 4]⟩ : Shape).BroadcastsInDim ⟨5, ![1, 9, 1, 1, 4]⟩ (![1, 4] : Fin 2 → Fin 5))
    (x : (⟨2, ![9, 4]⟩ : Shape).Idx → α) (u0 : Fin 1) (a : Fin 9) (u2 u3 : Fin 1) (k : Fin 4) :
    broadcastInDim ⟨5, ![1, 9, 1, 1, 4]⟩ ![1, 4] h x (ix5 u0 a u2 u3 k) = x (ix2 a k) :=
  broadcastInDim_apply _ h x _ _ fun d => match d with
    | ⟨0, _⟩ => by show a.val = if (9 : Nat) = 1 then 0 else a.val; rw [if_neg (by decide)]
    | ⟨1, _⟩ => by show k.val = if (4 : Nat) = 1 then 0 else k.val; rw [if_neg (by decide)]

/-- Cell data stretched over the nine anchors. -/
theorem bcastOverAnchors (h : (⟨5, ![16, 1, 56, 56, 4]⟩ : Shape).BroadcastsInDim ⟨5, ![16, 9, 56, 56, 4]⟩ (![0, 1, 2, 3, 4] : Fin 5 → Fin 5))
    (x : (⟨5, ![16, 1, 56, 56, 4]⟩ : Shape).Idx → α) (b : Fin 16) (a : Fin 9) (p q : Fin 56) (k : Fin 4) :
    broadcastInDim ⟨5, ![16, 9, 56, 56, 4]⟩ ![0, 1, 2, 3, 4] h x (ix5 b a p q k) = x (ix5 b (0 : Fin 1) p q k) :=
  broadcastInDim_apply _ h x _ _ fun d => match d with
    | ⟨0, _⟩ => by show b.val = if (16 : Nat) = 1 then 0 else b.val; rw [if_neg (by decide)]
    | ⟨1, _⟩ => by show 0 = if (1 : Nat) = 1 then 0 else a.val; rw [if_pos rfl]
    | ⟨2, _⟩ => by show p.val = if (56 : Nat) = 1 then 0 else p.val; rw [if_neg (by decide)]
    | ⟨3, _⟩ => by show q.val = if (56 : Nat) = 1 then 0 else q.val; rw [if_neg (by decide)]
    | ⟨4, _⟩ => by show k.val = if (4 : Nat) = 1 then 0 else k.val; rw [if_neg (by decide)]

/-- Anchor data stretched over batches and cells. -/
theorem bcastOverCells (h : (⟨5, ![1, 9, 1, 1, 4]⟩ : Shape).BroadcastsInDim ⟨5, ![16, 9, 56, 56, 4]⟩ (![0, 1, 2, 3, 4] : Fin 5 → Fin 5))
    (x : (⟨5, ![1, 9, 1, 1, 4]⟩ : Shape).Idx → α) (b : Fin 16) (a : Fin 9) (p q : Fin 56) (k : Fin 4) :
    broadcastInDim ⟨5, ![16, 9, 56, 56, 4]⟩ ![0, 1, 2, 3, 4] h x (ix5 b a p q k)
      = x (ix5 (0 : Fin 1) a (0 : Fin 1) (0 : Fin 1) k) :=
  broadcastInDim_apply _ h x _ _ fun d => match d with
    | ⟨0, _⟩ => by show 0 = if (1 : Nat) = 1 then 0 else b.val; rw [if_pos rfl]
    | ⟨1, _⟩ => by show a.val = if (9 : Nat) = 1 then 0 else a.val; rw [if_neg (by decide)]
    | ⟨2, _⟩ => by show 0 = if (1 : Nat) = 1 then 0 else p.val; rw [if_pos rfl]
    | ⟨3, _⟩ => by show 0 = if (1 : Nat) = 1 then 0 else q.val; rw [if_pos rfl]
    | ⟨4, _⟩ => by show k.val = if (4 : Nat) = 1 then 0 else k.val; rw [if_neg (by decide)]

/-- A trailing unit axis added. -/
theorem bcastTrailingUnit (h : (⟨4, ![16, 9, 56, 56]⟩ : Shape).BroadcastsInDim ⟨5, ![16, 9, 56, 56, 1]⟩ (![0, 1, 2, 3] : Fin 4 → Fin 5))
    (x : (⟨4, ![16, 9, 56, 56]⟩ : Shape).Idx → α) (b : Fin 16) (a : Fin 9) (p q : Fin 56) (u : Fin 1) :
    broadcastInDim ⟨5, ![16, 9, 56, 56, 1]⟩ ![0, 1, 2, 3] h x (ix5 b a p q u) = x (ix4 b a p q) :=
  broadcastInDim_apply _ h x _ _ fun d => match d with
    | ⟨0, _⟩ => by show b.val = if (16 : Nat) = 1 then 0 else b.val; rw [if_neg (by decide)]
    | ⟨1, _⟩ => by show a.val = if (9 : Nat) = 1 then 0 else a.val; rw [if_neg (by decide)]
    | ⟨2, _⟩ => by show p.val = if (56 : Nat) = 1 then 0 else p.val; rw [if_neg (by decide)]
    | ⟨3, _⟩ => by show q.val = if (56 : Nat) = 1 then 0 else q.val; rw [if_neg (by decide)]

/-- The boxes with a unit row axis inserted. -/
theorem bcastBoxes (h : (⟨3, ![16, 64, 4]⟩ : Shape).BroadcastsInDim ⟨4, ![16, 1, 64, 4]⟩ (![0, 2, 3] : Fin 3 → Fin 4))
    (x : (⟨3, ![16, 64, 4]⟩ : Shape).Idx → α) (b : Fin 16) (u : Fin 1) (n : Fin 64) (k : Fin 4) :
    broadcastInDim ⟨4, ![16, 1, 64, 4]⟩ ![0, 2, 3] h x (ix4 b u n k) = x (ix3 b n k) :=
  broadcastInDim_apply _ h x _ _ fun d => match d with
    | ⟨0, _⟩ => by show b.val = if (16 : Nat) = 1 then 0 else b.val; rw [if_neg (by decide)]
    | ⟨1, _⟩ => by show n.val = if (64 : Nat) = 1 then 0 else n.val; rw [if_neg (by decide)]
    | ⟨2, _⟩ => by show k.val = if (4 : Nat) = 1 then 0 else k.val; rw [if_neg (by decide)]

/-- Row data stretched over the 64 boxes (pairs of coordinates). -/
theorem bcastRowsOverBoxes2 (h : (⟨4, ![16, 28224, 1, 2]⟩ : Shape).BroadcastsInDim ⟨4, ![16, 28224, 64, 2]⟩ (![0, 1, 2, 3] : Fin 4 → Fin 4))
    (x : (⟨4, ![16, 28224, 1, 2]⟩ : Shape).Idx → α) (b : Fin 16) (r : Fin 28224) (n : Fin 64) (k : Fin 2) :
    broadcastInDim ⟨4, ![16, 28224, 64, 2]⟩ ![0, 1, 2, 3] h x (ix4 b r n k) = x (ix4 b r (0 : Fin 1) k) :=
  broadcastInDim_apply _ h x _ _ fun d => match d with
    | ⟨0, _⟩ => by show b.val = if (16 : Nat) = 1 then 0 else b.val; rw [if_neg (by decide)]
    | ⟨1, _⟩ => by show r.val = if (28224 : Nat) = 1 then 0 else r.val; rw [if_neg (by decide)]
    | ⟨2, _⟩ => by show 0 = if (1 : Nat) = 1 then 0 else n.val; rw [if_pos rfl]
    | ⟨3, _⟩ => by show k.val = if (2 : Nat) = 1 then 0 else k.val; rw [if_neg (by decide)]

/-- Box data stretched over the 28224 rows (pairs of coordinates). -/
theorem bcastBoxesOverRows2 (h : (⟨4, ![16, 1, 64, 2]⟩ : Shape).BroadcastsInDim ⟨4, ![16, 28224, 64, 2]⟩ (![0, 1, 2, 3] : Fin 4 → Fin 4))
    (x : (⟨4, ![16, 1, 64, 2]⟩ : Shape).Idx → α) (b : Fin 16) (r : Fin 28224) (n : Fin 64) (k : Fin 2) :
    broadcastInDim ⟨4, ![16, 28224, 64, 2]⟩ ![0, 1, 2, 3] h x (ix4 b r n k) = x (ix4 b (0 : Fin 1) n k) :=
  broadcastInDim_apply _ h x _ _ fun d => match d with
    | ⟨0, _⟩ => by show b.val = if (16 : Nat) = 1 then 0 else b.val; rw [if_neg (by decide)]
    | ⟨1, _⟩ => by show 0 = if (1 : Nat) = 1 then 0 else r.val; rw [if_pos rfl]
    | ⟨2, _⟩ => by show n.val = if (64 : Nat) = 1 then 0 else n.val; rw [if_neg (by decide)]
    | ⟨3, _⟩ => by show k.val = if (2 : Nat) = 1 then 0 else k.val; rw [if_neg (by decide)]

/-- Row data stretched over the 64 boxes. -/
theorem bcastRowsOverBoxes (h : (⟨3, ![16, 28224, 1]⟩ : Shape).BroadcastsInDim ⟨3, ![16, 28224, 64]⟩ (![0, 1, 2] : Fin 3 → Fin 3))
    (x : (⟨3, ![16, 28224, 1]⟩ : Shape).Idx → α) (b : Fin 16) (r : Fin 28224) (n : Fin 64) :
    broadcastInDim ⟨3, ![16, 28224, 64]⟩ ![0, 1, 2] h x (ix3 b r n) = x (ix3 b r (0 : Fin 1)) :=
  broadcastInDim_apply _ h x _ _ fun d => match d with
    | ⟨0, _⟩ => by show b.val = if (16 : Nat) = 1 then 0 else b.val; rw [if_neg (by decide)]
    | ⟨1, _⟩ => by show r.val = if (28224 : Nat) = 1 then 0 else r.val; rw [if_neg (by decide)]
    | ⟨2, _⟩ => by show 0 = if (1 : Nat) = 1 then 0 else n.val; rw [if_pos rfl]

/-- Box data stretched over the 28224 rows. -/
theorem bcastBoxesOverRows (h : (⟨3, ![16, 1, 64]⟩ : Shape).BroadcastsInDim ⟨3, ![16, 28224, 64]⟩ (![0, 1, 2] : Fin 3 → Fin 3))
    (x : (⟨3, ![16, 1, 64]⟩ : Shape).Idx → α) (b : Fin 16) (r : Fin 28224) (n : Fin 64) :
    broadcastInDim ⟨3, ![16, 28224, 64]⟩ ![0, 1, 2] h x (ix3 b r n) = x (ix3 b (0 : Fin 1) n) :=
  broadcastInDim_apply _ h x _ _ fun d => match d with
    | ⟨0, _⟩ => by show b.val = if (16 : Nat) = 1 then 0 else b.val; rw [if_neg (by decide)]
    | ⟨1, _⟩ => by show 0 = if (1 : Nat) = 1 then 0 else r.val; rw [if_pos rfl]
    | ⟨2, _⟩ => by show n.val = if (64 : Nat) = 1 then 0 else n.val; rw [if_neg (by decide)]

/-! ## (anchor, cell row, cell column) recast as one row index -/

/-- Row `r` of the recast array is anchor `r / 3136`, cell row `r % 3136 / 56`, cell column `r % 56`. -/
theorem recastRows (h : (⟨5, ![16, 9, 56, 56, 4]⟩ : Shape).ShapeCasts ⟨4, ![16, 28224, 1, 4]⟩)
    (x : (⟨5, ![16, 9, 56, 56, 4]⟩ : Shape).Idx → α) (b : Fin 16) (r : Fin 28224) (u : Fin 1) (k : Fin 4)
    (a : Fin 9) (p q : Fin 56) (ha : a.val = r.val / 3136) (hp : p.val = r.val % 3136 / 56) (hq : q.val = r.val % 56) :
    shapeCast ⟨4, ![16, 28224, 1, 4]⟩ x h (ix4 b r u k) = x (ix5 b a p q k) := by
  refine shapeCast_apply x h _ _ ?_
  rw [Shape.rowMajor_val_five, Shape.rowMajor_val_four]
  show (((b.val * 9 + a.val) * 56 + p.val) * 56 + q.val) * 4 + k.val = ((b.val * 28224 + r.val) * 1 + u.val) * 4 + k.val
  have hu : u.val = 0 := by have := u.isLt; omega
  have hr := r.isLt
  omega

/-! ## Joins -/

/-- Two copies of the cell centres side by side: coordinates 0, 1 come from the first copy. -/
theorem joinPairLo (h : Shape.Concatenates [(⟨4, ![16, 56, 56, 2]⟩ : Shape), ⟨4, ![16, 56, 56, 2]⟩] ⟨4, ![16, 56, 56, 4]⟩ (3 : Fin 4))
    (x0 x1 : (⟨4, ![16, 56, 56, 2]⟩ : Shape).Idx → α) (b : Fin 16) (p q : Fin 56) (k : Fin 2) (k' : Fin 4) (hk : k'.val = k.val) :
    concatenate ⟨4, ![16, 56, 56, 4]⟩ 3 [⟨⟨4, ![16, 56, 56, 2]⟩, x0⟩, ⟨⟨4, ![16, 56, 56, 2]⟩, x1⟩] h (ix4 b p q k') = x0 (ix4 b p q k) :=
  concatenate_pair_apply_left 3 x0 x1 h _ rfl (ix4 b p q k) fun d => match d with
    | ⟨0, _⟩ => rfl
    | ⟨1, _⟩ => rfl
    | ⟨2, _⟩ => rfl
    | ⟨3, _⟩ => hk.symm

/-- … and coordinates 2, 3 from the second. -/
theorem joinPairHi (h : Shape.Concatenates [(⟨4, ![16, 56, 56, 2]⟩ : Shape), ⟨4, ![16, 56, 56, 2]⟩] ⟨4, ![16, 56, 56, 4]⟩ (3 : Fin 4))
    (x0 x1 : (⟨4, ![16, 56, 56, 2]⟩ : Shape).Idx → α) (b : Fin 16) (p q : Fin 56) (k : Fin 2) (k' : Fin 4) (hk : k'.val = k.val + 2) :
    concatenate ⟨4, ![16, 56, 56, 4]⟩ 3 [⟨⟨4, ![16, 56, 56, 2]⟩, x0⟩, ⟨⟨4, ![16, 56, 56, 2]⟩, x1⟩] h (ix4 b p q k') = x1 (ix4 b p q k) :=
  concatenate_pair_apply_right 3 x0 x1 h _ rfl rfl (ix4 b p q k)
    (fun d hd => match d with
      | ⟨0, _⟩ => rfl
      | ⟨1, _⟩ => rfl
      | ⟨2, _⟩ => rfl
      | ⟨3, _⟩ => absurd rfl hd)
    hk.symm

/-- Four columns of nine joined into a table `[9, 4]`: column `c` is the `c`-th piece. -/
theorem joinColumns (h : Shape.Concatenates [(⟨2, ![9, 1]⟩ : Shape), ⟨2, ![9, 1]⟩, ⟨2, ![9, 1]⟩, ⟨2, ![9, 1]⟩] ⟨2, ![9, 4]⟩ (1 : Fin 2))
    (y0 y1 y2 y3 : (⟨2, ![9, 1]⟩ : Shape).Idx → α) (a : Fin 9) (c : Fin 4) :
    concatenate ⟨2, ![9, 4]⟩ 1 [⟨⟨2, ![9, 1]⟩, y0⟩, ⟨⟨2, ![9, 1]⟩, y1⟩, ⟨⟨2, ![9, 1]⟩, y2⟩, ⟨⟨2, ![9, 1]⟩, y3⟩] h (ix2 a c)
      = (![y0, y1, y2, y3] c) (ix2 a (0 : Fin 1)) :=
  match c with
  | ⟨0, _⟩ => concatenate_apply_piece 1 [⟨⟨2, ![9, 1]⟩, y0⟩, ⟨⟨2, ![9, 1]⟩, y1⟩, ⟨⟨2, ![9, 1]⟩, y2⟩, ⟨⟨2, ![9, 1]⟩, y3⟩] h _ 0 (by show (0 : Nat) < 4; omega) _ y0 rfl rfl 0 rfl (ix2 a (0 : Fin 1))
      (fun d hd => match d with | ⟨0, _⟩ => rfl | ⟨1, _⟩ => absurd rfl hd) rfl
  | ⟨1, _⟩ => concatenate_apply_piece 1 [⟨⟨2, ![9, 1]⟩, y0⟩, ⟨⟨2, ![9, 1]⟩, y1⟩, ⟨⟨2, ![9, 1]⟩, y2⟩, ⟨⟨2, ![9, 1]⟩, y3⟩] h _ 1 (by show (1 : Nat) < 4; omega) _ y1 rfl rfl 1 rfl (ix2 a (0 : Fin 1))
      (fun d hd => match d with | ⟨0, _⟩ => rfl | ⟨1, _⟩ => absurd rfl hd) rfl
  | ⟨2, _⟩ => concatenate_apply_piece 1 [⟨⟨2, ![9, 1]⟩, y0⟩, ⟨⟨2, ![9, 1]⟩, y1⟩, ⟨⟨2, ![9, 1]⟩, y2⟩, ⟨⟨2, ![9, 1]⟩, y3⟩] h _ 2 (by show (2 : Nat) < 4; omega) _ y2 rfl rfl 2 rfl (ix2 a (0 : Fin 1))
      (fun d hd => match d with | ⟨0, _⟩ => rfl | ⟨1, _⟩ => absurd rfl hd) rfl
  | ⟨3, _⟩ => concatenate_apply_piece 1 [⟨⟨2, ![9, 1]⟩, y0⟩, ⟨⟨2, ![9, 1]⟩, y1⟩, ⟨⟨2, ![9, 1]⟩, y2⟩, ⟨⟨2, ![9, 1]⟩, y3⟩] h _ 3 (by show (3 : Nat) < 4; omega) _ y3 rfl rfl 3 rfl (ix2 a (0 : Fin 1))
      (fun d hd => match d with | ⟨0, _⟩ => rfl | ⟨1, _⟩ => absurd rfl hd) rfl

/-- Four arrays with a trailing unit axis joined along it: coordinate `c` of the last axis is the `c`-th piece. -/
theorem joinLast (h : Shape.Concatenates [(⟨5, ![16, 9, 56, 56, 1]⟩ : Shape), ⟨5, ![16, 9, 56, 56, 1]⟩, ⟨5, ![16, 9, 56, 56, 1]⟩, ⟨5, ![16, 9, 56, 56, 1]⟩]
      ⟨5, ![16, 9, 56, 56, 4]⟩ (4 : Fin 5))
    (y0 y1 y2 y3 : (⟨5, ![16, 9, 56, 56, 1]⟩ : Shape).Idx → α) (b : Fin 16) (a : Fin 9) (p q : Fin 56) (c : Fin 4) :
    concatenate ⟨5, ![16, 9, 56, 56, 4]⟩ 4 [⟨⟨5, ![16, 9, 56, 56, 1]⟩, y0⟩, ⟨⟨5, ![16, 9, 56, 56, 1]⟩, y1⟩, ⟨⟨5, ![16, 9, 56, 56, 1]⟩, y2⟩,
        ⟨⟨5, ![16, 9, 56, 56, 1]⟩, y3⟩] h (ix5 b a p q c)
      = (![y0, y1, y2, y3] c) (ix5 b a p q (0 : Fin 1)) :=
  match c with
  | ⟨0, _⟩ => concatenate_apply_piece 4 [⟨⟨5, ![16, 9, 56, 56, 1]⟩, y0⟩, ⟨⟨5, ![16, 9, 56, 56, 1]⟩, y1⟩, ⟨⟨5, ![16, 9, 56, 56, 1]⟩, y2⟩, ⟨⟨5, ![16, 9, 56, 56, 1]⟩, y3⟩] h _ 0 (by show (0 : Nat) < 4; omega) _ y0 rfl rfl 0 rfl (ix5 b a p q (0 : Fin 1))
      (fun d hd => match d with | ⟨0, _⟩ => rfl | ⟨1, _⟩ => rfl | ⟨2, _⟩ => rfl | ⟨3, _⟩ => rfl | ⟨4, _⟩ => absurd rfl hd) rfl
  | ⟨1, _⟩ => concatenate_apply_piece 4 [⟨⟨5, ![16, 9, 56, 56, 1]⟩, y0⟩, ⟨⟨5, ![16, 9, 56, 56, 1]⟩, y1⟩, ⟨⟨5, ![16, 9, 56, 56, 1]⟩, y2⟩, ⟨⟨5, ![16, 9, 56, 56, 1]⟩, y3⟩] h _ 1 (by show (1 : Nat) < 4; omega) _ y1 rfl rfl 1 rfl (ix5 b a p q (0 : Fin 1))
      (fun d hd => match d with | ⟨0, _⟩ => rfl | ⟨1, _⟩ => rfl | ⟨2, _⟩ => rfl | ⟨3, _⟩ => rfl | ⟨4, _⟩ => absurd rfl hd) rfl
  | ⟨2, _⟩ => concatenate_apply_piece 4 [⟨⟨5, ![16, 9, 56, 56, 1]⟩, y0⟩, ⟨⟨5, ![16, 9, 56, 56, 1]⟩, y1⟩, ⟨⟨5, ![16, 9, 56, 56, 1]⟩, y2⟩, ⟨⟨5, ![16, 9, 56, 56, 1]⟩, y3⟩] h _ 2 (by show (2 : Nat) < 4; omega) _ y2 rfl rfl 2 rfl (ix5 b a p q (0 : Fin 1))
      (fun d hd => match d with | ⟨0, _⟩ => rfl | ⟨1, _⟩ => rfl | ⟨2, _⟩ => rfl | ⟨3, _⟩ => rfl | ⟨4, _⟩ => absurd rfl hd) rfl
  | ⟨3, _⟩ => concatenate_apply_piece 4 [⟨⟨5, ![16, 9, 56, 56, 1]⟩, y0⟩, ⟨⟨5, ![16, 9, 56, 56, 1]⟩, y1⟩, ⟨⟨5, ![16, 9, 56, 56, 1]⟩, y2⟩, ⟨⟨5, ![16, 9, 56, 56, 1]⟩, y3⟩] h _ 3 (by show (3 : Nat) < 4; omega) _ y3 rfl rfl 3 rfl (ix5 b a p q (0 : Fin 1))
      (fun d hd => match d with | ⟨0, _⟩ => rfl | ⟨1, _⟩ => rfl | ⟨2, _⟩ => rfl | ⟨3, _⟩ => rfl | ⟨4, _⟩ => absurd rfl hd) rfl

end Cert.Iou.Layout
-- ==== Proof.RefReadB.lean ====
/-
  The reference's buffers read at an index, one buffer at a time (the proposals' edges joined and recast into rows, the boxes, the intersection's corners and its area): what each buffer
  holds after the line, at an index, in terms of what its operand buffers hold at the index its operation reads there.
  A pointwise operation reads both operands at the same index; a slice of the last axis followed by dropping it reads a
  column; a broadcast reads the index with `0` on the stretched axes; a join reads the piece that holds the index; the
  recast of (anchor, row, column) into one row index reads row `r` at anchor `r / 3136`, cell `(r % 3136 / 56, r % 56)`.
  The arithmetic is the extended reals' (the buffers' entries are extended reals by definition of the instance).
-/
import proofs.«107946_j57105885168323_1_alg».proof.Proof.RefEqs
import proofs.«107946_j57105885168323_1_alg».proof.Proof.IouLayout
import proofs.«107946_j57105885168323_1_alg».proof.Proof.IouSpec

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.Iou.Layout Cert.LibLastAxis

variable (V : Valuation τ sig (Elt Ideal))

/-- What buffer `b` holds after the line, as an array of extended reals of shape `S`. -/
local notation "A⟦" b ", " S "⟧" => (after (ops (F := Ideal)) V (Proc.devRef Proc.tc b) : Shape.Idx S → EReal)
/-- … and as an array of truth values. -/
local notation "B⟦" b ", " S "⟧" => (after (ops (F := Ideal)) V (Proc.devRef Proc.tc b) : Shape.Idx S → BitVec 1)

theorem L_v73 (b : Fin 16) (a : Fin 9) (p q : Fin 56) (u : Fin 1) : A⟦main_v73, S16x9x56x56x1⟧ (ix5 b a p q u) = A⟦main_v63, S16x9x56x56⟧ (ix4 b a p q) :=
  (congrFun (at_v73 V) _).trans (bcastTrailingUnit _ _ b a p q u)
theorem L_v74 (b : Fin 16) (a : Fin 9) (p q : Fin 56) (u : Fin 1) : A⟦main_v74, S16x9x56x56x1⟧ (ix5 b a p q u) = A⟦main_v66, S16x9x56x56⟧ (ix4 b a p q) :=
  (congrFun (at_v74 V) _).trans (bcastTrailingUnit _ _ b a p q u)
theorem L_v75 (b : Fin 16) (a : Fin 9) (p q : Fin 56) (u : Fin 1) : A⟦main_v75, S16x9x56x56x1⟧ (ix5 b a p q u) = A⟦main_v69, S16x9x56x56⟧ (ix4 b a p q) :=
  (congrFun (at_v75 V) _).trans (bcastTrailingUnit _ _ b a p q u)
theorem L_v76 (b : Fin 16) (a : Fin 9) (p q : Fin 56) (u : Fin 1) : A⟦main_v76, S16x9x56x56x1⟧ (ix5 b a p q u) = A⟦main_v72, S16x9x56x56⟧ (ix4 b a p q) :=
  (congrFun (at_v76 V) _).trans (bcastTrailingUnit _ _ b a p q u)
def L_v77_0 (b : Fin 16) (a : Fin 9) (p q : Fin 56) :=
  (congrFun (at_v77 V) (ix5 b a p q (0 : Fin 4))).trans (joinLast _ _ _ _ _ b a p q (0 : Fin 4))
def L_v77_1 (b : Fin 16) (a : Fin 9) (p q : Fin 56) :=
  (congrFun (at_v77 V) (ix5 b a p q (1 : Fin 4))).trans (joinLast _ _ _ _ _ b a p q (1 : Fin 4))
def L_v77_2 (b : Fin 16) (a : Fin 9) (p q : Fin 56) :=
  (congrFun (at_v77 V) (ix5 b a p q (2 : Fin 4))).trans (joinLast _ _ _ _ _ b a p q (2 : Fin 4))
def L_v77_3 (b : Fin 16) (a : Fin 9) (p q : Fin 56) :=
  (congrFun (at_v77 V) (ix5 b a p q (3 : Fin 4))).trans (joinLast _ _ _ _ _ b a p q (3 : Fin 4))
theorem L_v78 (b : Fin 16) (r : Fin 28224) (u : Fin 1) (k : Fin 4) : A⟦main_v78, S16x28224x1x4⟧ (ix4 b r u k) = A⟦main_v77, S16x9x56x56x4⟧ (ix5 b (Cert.Iou.rowAnchor r) (Cert.Iou.rowH r) (Cert.Iou.rowW r) k) := by
  rw [at_v78 V]; exact recastRows _ _ b r u k _ _ _ rfl rfl rfl
theorem L_v79 (b : Fin 16) (n : Fin 64) (k : Fin 4) (k' : Fin 5) (hk : k'.val = 0 + k.val) : A⟦main_v79, S16x64x4⟧ (ix3 b n k) = A⟦main_arg3, S16x64x5⟧ (ix3 b n k') :=
  (congrFun (at_v79 V) _).trans (lastSlice3 _ 0 _ b n k k' hk)
theorem L_v80 (b : Fin 16) (u : Fin 1) (n : Fin 64) (k : Fin 4) : A⟦main_v80, S16x1x64x4⟧ (ix4 b u n k) = A⟦main_v79, S16x64x4⟧ (ix3 b n k) :=
  (congrFun (at_v80 V) _).trans (bcastBoxes _ _ b u n k)
theorem L_v81 (b : Fin 16) (r : Fin 28224) (u : Fin 1) (j : Fin 2) (k' : Fin 4) (hk : k'.val = 0 + j.val) : A⟦main_v81, S16x28224x1x2⟧ (ix4 b r u j) = A⟦main_v78, S16x28224x1x4⟧ (ix4 b r u k') :=
  (congrFun (at_v81 V) _).trans (lastSlice4 _ 0 _ b r u j k' hk)
theorem L_v82 (b : Fin 16) (u : Fin 1) (n : Fin 64) (j : Fin 2) (k' : Fin 4) (hk : k'.val = 0 + j.val) : A⟦main_v82, S16x1x64x2⟧ (ix4 b u n j) = A⟦main_v80, S16x1x64x4⟧ (ix4 b u n k') :=
  (congrFun (at_v82 V) _).trans (lastSlice4 _ 0 _ b u n j k' hk)
theorem L_v83 (b : Fin 16) (r : Fin 28224) (n : Fin 64) (j : Fin 2) : A⟦main_v83, S16x28224x64x2⟧ (ix4 b r n j) = A⟦main_v81, S16x28224x1x2⟧ (ix4 b r (0 : Fin 1) j) :=
  (congrFun (at_v83 V) _).trans (bcastRowsOverBoxes2 _ _ b r n j)
theorem L_v84 (b : Fin 16) (r : Fin 28224) (n : Fin 64) (j : Fin 2) : A⟦main_v84, S16x28224x64x2⟧ (ix4 b r n j) = A⟦main_v82, S16x1x64x2⟧ (ix4 b (0 : Fin 1) n j) :=
  (congrFun (at_v84 V) _).trans (bcastBoxesOverRows2 _ _ b r n j)
theorem L_v85 (i : S16x28224x64x2.Idx) : A⟦main_v85, S16x28224x64x2⟧ i = @max EReal _ (A⟦main_v83, S16x28224x64x2⟧ i) (A⟦main_v84, S16x28224x64x2⟧ i) := congrFun (at_v85 V) i
theorem L_v86 (b : Fin 16) (r : Fin 28224) (u : Fin 1) (j : Fin 2) (k' : Fin 4) (hk : k'.val = 2 + j.val) : A⟦main_v86, S16x28224x1x2⟧ (ix4 b r u j) = A⟦main_v78, S16x28224x1x4⟧ (ix4 b r u k') :=
  (congrFun (at_v86 V) _).trans (lastSlice4 _ 2 _ b r u j k' hk)
theorem L_v87 (b : Fin 16) (u : Fin 1) (n : Fin 64) (j : Fin 2) (k' : Fin 4) (hk : k'.val = 2 + j.val) : A⟦main_v87, S16x1x64x2⟧ (ix4 b u n j) = A⟦main_v80, S16x1x64x4⟧ (ix4 b u n k') :=
  (congrFun (at_v87 V) _).trans (lastSlice4 _ 2 _ b u n j k' hk)
theorem L_v88 (b : Fin 16) (r : Fin 28224) (n : Fin 64) (j : Fin 2) : A⟦main_v88, S16x28224x64x2⟧ (ix4 b r n j) = A⟦main_v86, S16x28224x1x2⟧ (ix4 b r (0 : Fin 1) j) :=
  (congrFun (at_v88 V) _).trans (bcastRowsOverBoxes2 _ _ b r n j)
theorem L_v89 (b : Fin 16) (r : Fin 28224) (n : Fin 64) (j : Fin 2) : A⟦main_v89, S16x28224x64x2⟧ (ix4 b r n j) = A⟦main_v87, S16x1x64x2⟧ (ix4 b (0 : Fin 1) n j) :=
  (congrFun (at_v89 V) _).trans (bcastBoxesOverRows2 _ _ b r n j)
theorem L_v90 (i : S16x28224x64x2.Idx) : A⟦main_v90, S16x28224x64x2⟧ i = @min EReal _ (A⟦main_v88, S16x28224x64x2⟧ i) (A⟦main_v89, S16x28224x64x2⟧ i) := congrFun (at_v90 V) i
theorem L_v92 (b : Fin 16) (r : Fin 28224) (n : Fin 64) : A⟦main_v92, S16x28224x64⟧ (ix3 b r n) = A⟦main_v85, S16x28224x64x2⟧ (ix4 b r n (0 : Fin 2)) := by
  rw [at_v92 V, at_v91 V]; exact col4 _ 0 (by decide) _ _ b r n
theorem L_v94 (b : Fin 16) (r : Fin 28224) (n : Fin 64) : A⟦main_v94, S16x28224x64⟧ (ix3 b r n) = A⟦main_v90, S16x28224x64x2⟧ (ix4 b r n (0 : Fin 2)) := by
  rw [at_v94 V, at_v93 V]; exact col4 _ 0 (by decide) _ _ b r n
theorem L_v95 (i : S16x28224x64.Idx) : B⟦main_v95, S16x28224x64⟧ i = FloatOps.cmpf (F := Ideal) (φ := .f32) .ogt (A⟦main_v92, S16x28224x64⟧ i) (A⟦main_v94, S16x28224x64⟧ i) :=
  (congrFun (at_v95 V) i).trans (cmpf_apply .ogt _ _ i)
theorem L_v97 (b : Fin 16) (r : Fin 28224) (n : Fin 64) : A⟦main_v97, S16x28224x64⟧ (ix3 b r n) = A⟦main_v85, S16x28224x64x2⟧ (ix4 b r n (1 : Fin 2)) := by
  rw [at_v97 V, at_v96 V]; exact col4 _ 1 (by decide) _ _ b r n
theorem L_v99 (b : Fin 16) (r : Fin 28224) (n : Fin 64) : A⟦main_v99, S16x28224x64⟧ (ix3 b r n) = A⟦main_v90, S16x28224x64x2⟧ (ix4 b r n (1 : Fin 2)) := by
  rw [at_v99 V, at_v98 V]; exact col4 _ 1 (by decide) _ _ b r n
theorem L_v100 (i : S16x28224x64.Idx) : B⟦main_v100, S16x28224x64⟧ i = FloatOps.cmpf (F := Ideal) (φ := .f32) .ogt (A⟦main_v97, S16x28224x64⟧ i) (A⟦main_v99, S16x28224x64⟧ i) :=
  (congrFun (at_v100 V) i).trans (cmpf_apply .ogt _ _ i)
theorem L_v101 (i : S16x28224x64.Idx) : B⟦main_v101, S16x28224x64⟧ i = IntOp.ori (B⟦main_v95, S16x28224x64⟧ i) (B⟦main_v100, S16x28224x64⟧ i) := congrFun (at_v101 V) i
theorem L_v103 (b : Fin 16) (r : Fin 28224) (n : Fin 64) : A⟦main_v103, S16x28224x64⟧ (ix3 b r n) = A⟦main_v90, S16x28224x64x2⟧ (ix4 b r n (0 : Fin 2)) := by
  rw [at_v103 V, at_v102 V]; exact col4 _ 0 (by decide) _ _ b r n
theorem L_v105 (b : Fin 16) (r : Fin 28224) (n : Fin 64) : A⟦main_v105, S16x28224x64⟧ (ix3 b r n) = A⟦main_v85, S16x28224x64x2⟧ (ix4 b r n (0 : Fin 2)) := by
  rw [at_v105 V, at_v104 V]; exact col4 _ 0 (by decide) _ _ b r n
theorem L_v106 (i : S16x28224x64.Idx) : A⟦main_v106, S16x28224x64⟧ i = @HSub.hSub EReal EReal EReal _ (A⟦main_v103, S16x28224x64⟧ i) (A⟦main_v105, S16x28224x64⟧ i) :=
  (congrFun (at_v106 V) i).trans (subf_apply _ _ i)
theorem L_v108 (b : Fin 16) (r : Fin 28224) (n : Fin 64) : A⟦main_v108, S16x28224x64⟧ (ix3 b r n) = A⟦main_v90, S16x28224x64x2⟧ (ix4 b r n (1 : Fin 2)) := by
  rw [at_v108 V, at_v107 V]; exact col4 _ 1 (by decide) _ _ b r n
theorem L_v110 (b : Fin 16) (r : Fin 28224) (n : Fin 64) : A⟦main_v110, S16x28224x64⟧ (ix3 b r n) = A⟦main_v85, S16x28224x64x2⟧ (ix4 b r n (1 : Fin 2)) := by
  rw [at_v110 V, at_v109 V]; exact col4 _ 1 (by decide) _ _ b r n
theorem L_v111 (i : S16x28224x64.Idx) : A⟦main_v111, S16x28224x64⟧ i = @HSub.hSub EReal EReal EReal _ (A⟦main_v108, S16x28224x64⟧ i) (A⟦main_v110, S16x28224x64⟧ i) :=
  (congrFun (at_v111 V) i).trans (subf_apply _ _ i)
theorem L_v112 (i : S16x28224x64.Idx) : A⟦main_v112, S16x28224x64⟧ i = @HMul.hMul EReal EReal EReal _ (A⟦main_v106, S16x28224x64⟧ i) (A⟦main_v111, S16x28224x64⟧ i) :=
  (congrFun (at_v112 V) i).trans (mulf_apply _ _ i)
theorem L_call0_v1 (i : S16x28224x64.Idx) : A⟦main_call0_v1, S16x28224x64⟧ i = Cert.Iou.zero := by
  rw [at_call0_v1 V, at_call0_v0 V, at_cst_6 V]; exact bcastScalar _ _ _
theorem L_v113 (i : S16x28224x64.Idx) : A⟦main_v113, S16x28224x64⟧ i = @Scalar.select EReal (B⟦main_v101, S16x28224x64⟧ i) (A⟦main_call0_v1, S16x28224x64⟧ i) (A⟦main_v112, S16x28224x64⟧ i) :=
  (congrFun (at_v113 V) i).trans (select_apply _ _ _ i)

end Cert.ReferenceIdeal.Line

end
-- ==== Proof.RefReadA.lean ====
/-
  The reference's buffers read at an index, one buffer at a time (the anchors' table, the anchor boxes, their centres and sizes, the proposals' centres, sizes and edges): what each buffer
  holds after the line, at an index, in terms of what its operand buffers hold at the index its operation reads there.
  A pointwise operation reads both operands at the same index; a slice of the last axis followed by dropping it reads a
  column; a broadcast reads the index with `0` on the stretched axes; a join reads the piece that holds the index; the
  recast of (anchor, row, column) into one row index reads row `r` at anchor `r / 3136`, cell `(r % 3136 / 56, r % 56)`.
  The arithmetic is the extended reals' (the buffers' entries are extended reals by definition of the instance).
-/
import proofs.«107946_j57105885168323_1_alg».proof.Proof.RefEqs
import proofs.«107946_j57105885168323_1_alg».proof.Proof.IouLayout
import proofs.«107946_j57105885168323_1_alg».proof.Proof.IouSpec
import proofs.«107946_j57105885168323_1_alg».proof.Proof.RefReadB

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.Iou.Layout Cert.LibLastAxis

variable (V : Valuation τ sig (Elt Ideal))

/-- What buffer `b` holds after the line, as an array of extended reals of shape `S`. -/
local notation "A⟦" b ", " S "⟧" => (after (ops (F := Ideal)) V (Proc.devRef Proc.tc b) : Shape.Idx S → EReal)
/-- … and as an array of truth values. -/
local notation "B⟦" b ", " S "⟧" => (after (ops (F := Ideal)) V (Proc.devRef Proc.tc b) : Shape.Idx S → BitVec 1)

theorem L_v3 (a : Fin 9) : A⟦main_v3, S9⟧ (ix1 a) = A⟦main_arg0, S9x2⟧ (ix2 a (0 : Fin 2)) := by
  rw [at_v3 V, at_v2 V]; exact col2 _ 0 (by decide) _ _ a
theorem L_v4 (i : S9.Idx) : A⟦main_v4, S9⟧ i = @Neg.neg EReal _ (A⟦main_v3, S9⟧ i) := congrFun (at_v4 V) i
theorem L_v6 (a : Fin 9) : A⟦main_v6, S9⟧ (ix1 a) = A⟦main_arg0, S9x2⟧ (ix2 a (1 : Fin 2)) := by
  rw [at_v6 V, at_v5 V]; exact col2 _ 1 (by decide) _ _ a
theorem L_v7 (i : S9.Idx) : A⟦main_v7, S9⟧ i = @Neg.neg EReal _ (A⟦main_v6, S9⟧ i) := congrFun (at_v7 V) i
theorem L_v9 (a : Fin 9) : A⟦main_v9, S9⟧ (ix1 a) = A⟦main_arg0, S9x2⟧ (ix2 a (0 : Fin 2)) := by
  rw [at_v9 V, at_v8 V]; exact col2 _ 0 (by decide) _ _ a
theorem L_v11 (a : Fin 9) : A⟦main_v11, S9⟧ (ix1 a) = A⟦main_arg0, S9x2⟧ (ix2 a (1 : Fin 2)) := by
  rw [at_v11 V, at_v10 V]; exact col2 _ 1 (by decide) _ _ a
theorem L_v12 (a : Fin 9) (u : Fin 1) : A⟦main_v12, S9x1⟧ (ix2 a u) = A⟦main_v4, S9⟧ (ix1 a) :=
  (congrFun (at_v12 V) _).trans (bcastColumn9 _ _ a u)
theorem L_v13 (a : Fin 9) (u : Fin 1) : A⟦main_v13, S9x1⟧ (ix2 a u) = A⟦main_v7, S9⟧ (ix1 a) :=
  (congrFun (at_v13 V) _).trans (bcastColumn9 _ _ a u)
theorem L_v14 (a : Fin 9) (u : Fin 1) : A⟦main_v14, S9x1⟧ (ix2 a u) = A⟦main_v9, S9⟧ (ix1 a) :=
  (congrFun (at_v14 V) _).trans (bcastColumn9 _ _ a u)
theorem L_v15 (a : Fin 9) (u : Fin 1) : A⟦main_v15, S9x1⟧ (ix2 a u) = A⟦main_v11, S9⟧ (ix1 a) :=
  (congrFun (at_v15 V) _).trans (bcastColumn9 _ _ a u)
theorem L_v16_0 (a : Fin 9) : A⟦main_v16, S9x4⟧ (ix2 a (0 : Fin 4)) = A⟦main_v12, S9x1⟧ (ix2 a (0 : Fin 1)) :=
  (congrFun (at_v16 V) _).trans (joinColumns _ _ _ _ _ a (0 : Fin 4))
theorem L_v16_1 (a : Fin 9) : A⟦main_v16, S9x4⟧ (ix2 a (1 : Fin 4)) = A⟦main_v13, S9x1⟧ (ix2 a (0 : Fin 1)) :=
  (congrFun (at_v16 V) _).trans (joinColumns _ _ _ _ _ a (1 : Fin 4))
theorem L_v16_2 (a : Fin 9) : A⟦main_v16, S9x4⟧ (ix2 a (2 : Fin 4)) = A⟦main_v14, S9x1⟧ (ix2 a (0 : Fin 1)) :=
  (congrFun (at_v16 V) _).trans (joinColumns _ _ _ _ _ a (2 : Fin 4))
theorem L_v16_3 (a : Fin 9) : A⟦main_v16, S9x4⟧ (ix2 a (3 : Fin 4)) = A⟦main_v15, S9x1⟧ (ix2 a (0 : Fin 1)) :=
  (congrFun (at_v16 V) _).trans (joinColumns _ _ _ _ _ a (3 : Fin 4))
theorem L_v17 (i : S9x4.Idx) : A⟦main_v17, S9x4⟧ i = Cert.Iou.half := by
  rw [at_v17 V, at_cst V]; exact bcastScalar _ _ _
theorem L_v18 (i : S9x4.Idx) : A⟦main_v18, S9x4⟧ i = @HMul.hMul EReal EReal EReal _ (A⟦main_v17, S9x4⟧ i) (A⟦main_v16, S9x4⟧ i) := congrFun (at_v18 V) i
theorem L_v19 (u0 : Fin 1) (a : Fin 9) (u2 u3 : Fin 1) (k : Fin 4) : A⟦main_v19, S1x9x1x1x4⟧ (ix5 u0 a u2 u3 k) = A⟦main_v18, S9x4⟧ (ix2 a k) :=
  (congrFun (at_v19 V) _).trans (bcastAnchorAxes _ _ u0 a u2 u3 k)
theorem L_v21 (b : Fin 16) (a : Fin 9) (p q : Fin 56) (k : Fin 4) : A⟦main_v21, S16x9x56x56x4⟧ (ix5 b a p q k) = A⟦main_v19, S1x9x1x1x4⟧ (ix5 (0 : Fin 1) a (0 : Fin 1) (0 : Fin 1) k) :=
  (congrFun (at_v21 V) _).trans (bcastOverCells _ _ b a p q k)
theorem L_v0lo (b : Fin 16) (p q : Fin 56) (k : Fin 2) (k' : Fin 4) (hk : k'.val = k.val) : A⟦main_v0, S16x56x56x4⟧ (ix4 b p q k') = A⟦main_arg1, S16x56x56x2⟧ (ix4 b p q k) :=
  (congrFun (at_v0 V) _).trans (joinPairLo _ _ _ b p q k k' hk)
theorem L_v0hi (b : Fin 16) (p q : Fin 56) (k : Fin 2) (k' : Fin 4) (hk : k'.val = k.val + 2) : A⟦main_v0, S16x56x56x4⟧ (ix4 b p q k') = A⟦main_arg1, S16x56x56x2⟧ (ix4 b p q k) :=
  (congrFun (at_v0 V) _).trans (joinPairHi _ _ _ b p q k k' hk)
theorem L_v1 (b : Fin 16) (u : Fin 1) (p q : Fin 56) (k : Fin 4) : A⟦main_v1, S16x1x56x56x4⟧ (ix5 b u p q k) = A⟦main_v0, S16x56x56x4⟧ (ix4 b p q k) :=
  (congrFun (at_v1 V) _).trans (bcastInsert1 _ _ b u p q k)
theorem L_v20 (b : Fin 16) (a : Fin 9) (p q : Fin 56) (k : Fin 4) : A⟦main_v20, S16x9x56x56x4⟧ (ix5 b a p q k) = A⟦main_v1, S16x1x56x56x4⟧ (ix5 b (0 : Fin 1) p q k) :=
  (congrFun (at_v20 V) _).trans (bcastOverAnchors _ _ b a p q k)
theorem L_v22 (i : S16x9x56x56x4.Idx) : A⟦main_v22, S16x9x56x56x4⟧ i = @HAdd.hAdd EReal EReal EReal _ (A⟦main_v20, S16x9x56x56x4⟧ i) (A⟦main_v21, S16x9x56x56x4⟧ i) := congrFun (at_v22 V) i
theorem L_v24 (b : Fin 16) (a : Fin 9) (p q : Fin 56) : A⟦main_v24, S16x9x56x56⟧ (ix4 b a p q) = A⟦main_v22, S16x9x56x56x4⟧ (ix5 b a p q (0 : Fin 4)) := by
  rw [at_v24 V, at_v23 V]; exact col5 _ 0 (by decide) _ _ b a p q
theorem L_v26 (b : Fin 16) (a : Fin 9) (p q : Fin 56) : A⟦main_v26, S16x9x56x56⟧ (ix4 b a p q) = A⟦main_v22, S16x9x56x56x4⟧ (ix5 b a p q (2 : Fin 4)) := by
  rw [at_v26 V, at_v25 V]; exact col5 _ 2 (by decide) _ _ b a p q
theorem L_v27 (i : S16x9x56x56.Idx) : A⟦main_v27, S16x9x56x56⟧ i = @HAdd.hAdd EReal EReal EReal _ (A⟦main_v24, S16x9x56x56⟧ i) (A⟦main_v26, S16x9x56x56⟧ i) := congrFun (at_v27 V) i
theorem L_v28 (i : S16x9x56x56.Idx) : A⟦main_v28, S16x9x56x56⟧ i = Cert.Iou.half := by
  rw [at_v28 V, at_cst_0 V]; exact bcastScalar _ _ _
theorem L_v29 (i : S16x9x56x56.Idx) : A⟦main_v29, S16x9x56x56⟧ i = @HMul.hMul EReal EReal EReal _ (A⟦main_v28, S16x9x56x56⟧ i) (A⟦main_v27, S16x9x56x56⟧ i) := congrFun (at_v29 V) i
theorem L_v31 (b : Fin 16) (a : Fin 9) (p q : Fin 56) : A⟦main_v31, S16x9x56x56⟧ (ix4 b a p q) = A⟦main_v22, S16x9x56x56x4⟧ (ix5 b a p q (1 : Fin 4)) := by
  rw [at_v31 V, at_v30 V]; exact col5 _ 1 (by decide) _ _ b a p q
theorem L_v33 (b : Fin 16) (a : Fin 9) (p q : Fin 56) : A⟦main_v33, S16x9x56x56⟧ (ix4 b a p q) = A⟦main_v22, S16x9x56x56x4⟧ (ix5 b a p q (3 : Fin 4)) := by
  rw [at_v33 V, at_v32 V]; exact col5 _ 3 (by decide) _ _ b a p q
theorem L_v34 (i : S16x9x56x56.Idx) : A⟦main_v34, S16x9x56x56⟧ i = @HAdd.hAdd EReal EReal EReal _ (A⟦main_v31, S16x9x56x56⟧ i) (A⟦main_v33, S16x9x56x56⟧ i) := congrFun (at_v34 V) i
theorem L_v35 (i : S16x9x56x56.Idx) : A⟦main_v35, S16x9x56x56⟧ i = Cert.Iou.half := by
  rw [at_v35 V, at_cst_1 V]; exact bcastScalar _ _ _
theorem L_v36 (i : S16x9x56x56.Idx) : A⟦main_v36, S16x9x56x56⟧ i = @HMul.hMul EReal EReal EReal _ (A⟦main_v35, S16x9x56x56⟧ i) (A⟦main_v34, S16x9x56x56⟧ i) := congrFun (at_v36 V) i
theorem L_v38 (b : Fin 16) (a : Fin 9) (p q : Fin 56) : A⟦main_v38, S16x9x56x56⟧ (ix4 b a p q) = A⟦main_v22, S16x9x56x56x4⟧ (ix5 b a p q (2 : Fin 4)) := by
  rw [at_v38 V, at_v37 V]; exact col5 _ 2 (by decide) _ _ b a p q
theorem L_v40 (b : Fin 16) (a : Fin 9) (p q : Fin 56) : A⟦main_v40, S16x9x56x56⟧ (ix4 b a p q) = A⟦main_v22, S16x9x56x56x4⟧ (ix5 b a p q (0 : Fin 4)) := by
  rw [at_v40 V, at_v39 V]; exact col5 _ 0 (by decide) _ _ b a p q
theorem L_v41 (i : S16x9x56x56.Idx) : A⟦main_v41, S16x9x56x56⟧ i = @HSub.hSub EReal EReal EReal _ (A⟦main_v38, S16x9x56x56⟧ i) (A⟦main_v40, S16x9x56x56⟧ i) := congrFun (at_v41 V) i
theorem L_v43 (b : Fin 16) (a : Fin 9) (p q : Fin 56) : A⟦main_v43, S16x9x56x56⟧ (ix4 b a p q) = A⟦main_v22, S16x9x56x56x4⟧ (ix5 b a p q (3 : Fin 4)) := by
  rw [at_v43 V, at_v42 V]; exact col5 _ 3 (by decide) _ _ b a p q
theorem L_v45 (b : Fin 16) (a : Fin 9) (p q : Fin 56) : A⟦main_v45, S16x9x56x56⟧ (ix4 b a p q) = A⟦main_v22, S16x9x56x56x4⟧ (ix5 b a p q (1 : Fin 4)) := by
  rw [at_v45 V, at_v44 V]; exact col5 _ 1 (by decide) _ _ b a p q
theorem L_v46 (i : S16x9x56x56.Idx) : A⟦main_v46, S16x9x56x56⟧ i = @HSub.hSub EReal EReal EReal _ (A⟦main_v43, S16x9x56x56⟧ i) (A⟦main_v45, S16x9x56x56⟧ i) := congrFun (at_v46 V) i
theorem L_v48 (b : Fin 16) (a : Fin 9) (p q : Fin 56) : A⟦main_v48, S16x9x56x56⟧ (ix4 b a p q) = A⟦main_arg2, S16x9x56x56x4⟧ (ix5 b a p q (0 : Fin 4)) := by
  rw [at_v48 V, at_v47 V]; exact col5 _ 0 (by decide) _ _ b a p q
theorem L_v49 (i : S16x9x56x56.Idx) : A⟦main_v49, S16x9x56x56⟧ i = @HAdd.hAdd EReal EReal EReal _ (A⟦main_v29, S16x9x56x56⟧ i) (A⟦main_v48, S16x9x56x56⟧ i) := congrFun (at_v49 V) i
theorem L_v51 (b : Fin 16) (a : Fin 9) (p q : Fin 56) : A⟦main_v51, S16x9x56x56⟧ (ix4 b a p q) = A⟦main_arg2, S16x9x56x56x4⟧ (ix5 b a p q (1 : Fin 4)) := by
  rw [at_v51 V, at_v50 V]; exact col5 _ 1 (by decide) _ _ b a p q
theorem L_v52 (i : S16x9x56x56.Idx) : A⟦main_v52, S16x9x56x56⟧ i = @HAdd.hAdd EReal EReal EReal _ (A⟦main_v36, S16x9x56x56⟧ i) (A⟦main_v51, S16x9x56x56⟧ i) := congrFun (at_v52 V) i
theorem L_v54 (b : Fin 16) (a : Fin 9) (p q : Fin 56) : A⟦main_v54, S16x9x56x56⟧ (ix4 b a p q) = A⟦main_arg2, S16x9x56x56x4⟧ (ix5 b a p q (2 : Fin 4)) := by
  rw [at_v54 V, at_v53 V]; exact col5 _ 2 (by decide) _ _ b a p q
theorem L_v55 (i : S16x9x56x56.Idx) : A⟦main_v55, S16x9x56x56⟧ i = Ideal.exp (A⟦main_v54, S16x9x56x56⟧ i) := congrFun (at_v55 V) i
theorem L_v56 (i : S16x9x56x56.Idx) : A⟦main_v56, S16x9x56x56⟧ i = @HMul.hMul EReal EReal EReal _ (A⟦main_v41, S16x9x56x56⟧ i) (A⟦main_v55, S16x9x56x56⟧ i) := congrFun (at_v56 V) i
theorem L_v58 (b : Fin 16) (a : Fin 9) (p q : Fin 56) : A⟦main_v58, S16x9x56x56⟧ (ix4 b a p q) = A⟦main_arg2, S16x9x56x56x4⟧ (ix5 b a p q (3 : Fin 4)) := by
  rw [at_v58 V, at_v57 V]; exact col5 _ 3 (by decide) _ _ b a p q
theorem L_v59 (i : S16x9x56x56.Idx) : A⟦main_v59, S16x9x56x56⟧ i = Ideal.exp (A⟦main_v58, S16x9x56x56⟧ i) := congrFun (at_v59 V) i
theorem L_v60 (i : S16x9x56x56.Idx) : A⟦main_v60, S16x9x56x56⟧ i = @HMul.hMul EReal EReal EReal _ (A⟦main_v46, S16x9x56x56⟧ i) (A⟦main_v59, S16x9x56x56⟧ i) := congrFun (at_v60 V) i
theorem L_v61 (i : S16x9x56x56.Idx) : A⟦main_v61, S16x9x56x56⟧ i = Cert.Iou.half := by
  rw [at_v61 V, at_cst_2 V]; exact bcastScalar _ _ _
theorem L_v62 (i : S16x9x56x56.Idx) : A⟦main_v62, S16x9x56x56⟧ i = @HMul.hMul EReal EReal EReal _ (A⟦main_v61, S16x9x56x56⟧ i) (A⟦main_v56, S16x9x56x56⟧ i) := congrFun (at_v62 V) i
theorem L_v63 (i : S16x9x56x56.Idx) : A⟦main_v63, S16x9x56x56⟧ i = @HSub.hSub EReal EReal EReal _ (A⟦main_v49, S16x9x56x56⟧ i) (A⟦main_v62, S16x9x56x56⟧ i) := congrFun (at_v63 V) i
theorem L_v64 (i : S16x9x56x56.Idx) : A⟦main_v64, S16x9x56x56⟧ i = Cert.Iou.half := by
  rw [at_v64 V, at_cst_3 V]; exact bcastScalar _ _ _
theorem L_v65 (i : S16x9x56x56.Idx) : A⟦main_v65, S16x9x56x56⟧ i = @HMul.hMul EReal EReal EReal _ (A⟦main_v64, S16x9x56x56⟧ i) (A⟦main_v60, S16x9x56x56⟧ i) := congrFun (at_v65 V) i
theorem L_v66 (i : S16x9x56x56.Idx) : A⟦main_v66, S16x9x56x56⟧ i = @HSub.hSub EReal EReal EReal _ (A⟦main_v52, S16x9x56x56⟧ i) (A⟦main_v65, S16x9x56x56⟧ i) := congrFun (at_v66 V) i
theorem L_v67 (i : S16x9x56x56.Idx) : A⟦main_v67, S16x9x56x56⟧ i = Cert.Iou.half := by
  rw [at_v67 V, at_cst_4 V]; exact bcastScalar _ _ _
theorem L_v68 (i : S16x9x56x56.Idx) : A⟦main_v68, S16x9x56x56⟧ i = @HMul.hMul EReal EReal EReal _ (A⟦main_v67, S16x9x56x56⟧ i) (A⟦main_v56, S16x9x56x56⟧ i) := congrFun (at_v68 V) i
theorem L_v69 (i : S16x9x56x56.Idx) : A⟦main_v69, S16x9x56x56⟧ i = @HAdd.hAdd EReal EReal EReal _ (A⟦main_v49, S16x9x56x56⟧ i) (A⟦main_v68, S16x9x56x56⟧ i) := congrFun (at_v69 V) i
theorem L_v70 (i : S16x9x56x56.Idx) : A⟦main_v70, S16x9x56x56⟧ i = Cert.Iou.half := by
  rw [at_v70 V, at_cst_5 V]; exact bcastScalar _ _ _
theorem L_v71 (i : S16x9x56x56.Idx) : A⟦main_v71, S16x9x56x56⟧ i = @HMul.hMul EReal EReal EReal _ (A⟦main_v70, S16x9x56x56⟧ i) (A⟦main_v60, S16x9x56x56⟧ i) := congrFun (at_v71 V) i
theorem L_v72 (i : S16x9x56x56.Idx) : A⟦main_v72, S16x9x56x56⟧ i = @HAdd.hAdd EReal EReal EReal _ (A⟦main_v52, S16x9x56x56⟧ i) (A⟦main_v71, S16x9x56x56⟧ i) := congrFun (at_v72 V) i

end Cert.ReferenceIdeal.Line

end
-- ==== Proof.RefReadC.lean ====
/-
  The reference's buffers read at an index, one buffer at a time (the two areas and the quotient): what each buffer
  holds after the line, at an index, in terms of what its operand buffers hold at the index its operation reads there.
  A pointwise operation reads both operands at the same index; a slice of the last axis followed by dropping it reads a
  column; a broadcast reads the index with `0` on the stretched axes; a join reads the piece that holds the index; the
  recast of (anchor, row, column) into one row index reads row `r` at anchor `r / 3136`, cell `(r % 3136 / 56, r % 56)`.
  The arithmetic is the extended reals' (the buffers' entries are extended reals by definition of the instance).
-/
import proofs.«107946_j57105885168323_1_alg».proof.Proof.RefEqs
import proofs.«107946_j57105885168323_1_alg».proof.Proof.IouLayout
import proofs.«107946_j57105885168323_1_alg».proof.Proof.IouSpec
import proofs.«107946_j57105885168323_1_alg».proof.Proof.RefReadA

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.Iou.Layout Cert.LibLastAxis

variable (V : Valuation τ sig (Elt Ideal))

/-- What buffer `b` holds after the line, as an array of extended reals of shape `S`. -/
local notation "A⟦" b ", " S "⟧" => (after (ops (F := Ideal)) V (Proc.devRef Proc.tc b) : Shape.Idx S → EReal)
/-- … and as an array of truth values. -/
local notation "B⟦" b ", " S "⟧" => (after (ops (F := Ideal)) V (Proc.devRef Proc.tc b) : Shape.Idx S → BitVec 1)

theorem L_v115 (b : Fin 16) (r : Fin 28224) (u : Fin 1) : A⟦main_v115, S16x28224x1⟧ (ix3 b r u) = A⟦main_v78, S16x28224x1x4⟧ (ix4 b r u (2 : Fin 4)) := by
  rw [at_v115 V, at_v114 V]; exact col4 _ 2 (by decide) _ _ b r u
theorem L_v117 (b : Fin 16) (r : Fin 28224) (u : Fin 1) : A⟦main_v117, S16x28224x1⟧ (ix3 b r u) = A⟦main_v78, S16x28224x1x4⟧ (ix4 b r u (0 : Fin 4)) := by
  rw [at_v117 V, at_v116 V]; exact col4 _ 0 (by decide) _ _ b r u
theorem L_v118 (i : S16x28224x1.Idx) : A⟦main_v118, S16x28224x1⟧ i = @HSub.hSub EReal EReal EReal _ (A⟦main_v115, S16x28224x1⟧ i) (A⟦main_v117, S16x28224x1⟧ i) := congrFun (at_v118 V) i
theorem L_v120 (b : Fin 16) (r : Fin 28224) (u : Fin 1) : A⟦main_v120, S16x28224x1⟧ (ix3 b r u) = A⟦main_v78, S16x28224x1x4⟧ (ix4 b r u (3 : Fin 4)) := by
  rw [at_v120 V, at_v119 V]; exact col4 _ 3 (by decide) _ _ b r u
theorem L_v122 (b : Fin 16) (r : Fin 28224) (u : Fin 1) : A⟦main_v122, S16x28224x1⟧ (ix3 b r u) = A⟦main_v78, S16x28224x1x4⟧ (ix4 b r u (1 : Fin 4)) := by
  rw [at_v122 V, at_v121 V]; exact col4 _ 1 (by decide) _ _ b r u
theorem L_v123 (i : S16x28224x1.Idx) : A⟦main_v123, S16x28224x1⟧ i = @HSub.hSub EReal EReal EReal _ (A⟦main_v120, S16x28224x1⟧ i) (A⟦main_v122, S16x28224x1⟧ i) := congrFun (at_v123 V) i
theorem L_v124 (i : S16x28224x1.Idx) : A⟦main_v124, S16x28224x1⟧ i = @HMul.hMul EReal EReal EReal _ (A⟦main_v118, S16x28224x1⟧ i) (A⟦main_v123, S16x28224x1⟧ i) := congrFun (at_v124 V) i
theorem L_v126 (b : Fin 16) (u : Fin 1) (n : Fin 64) : A⟦main_v126, S16x1x64⟧ (ix3 b u n) = A⟦main_v80, S16x1x64x4⟧ (ix4 b u n (2 : Fin 4)) := by
  rw [at_v126 V, at_v125 V]; exact col4 _ 2 (by decide) _ _ b u n
theorem L_v128 (b : Fin 16) (u : Fin 1) (n : Fin 64) : A⟦main_v128, S16x1x64⟧ (ix3 b u n) = A⟦main_v80, S16x1x64x4⟧ (ix4 b u n (0 : Fin 4)) := by
  rw [at_v128 V, at_v127 V]; exact col4 _ 0 (by decide) _ _ b u n
theorem L_v129 (i : S16x1x64.Idx) : A⟦main_v129, S16x1x64⟧ i = @HSub.hSub EReal EReal EReal _ (A⟦main_v126, S16x1x64⟧ i) (A⟦main_v128, S16x1x64⟧ i) := congrFun (at_v129 V) i
theorem L_v131 (b : Fin 16) (u : Fin 1) (n : Fin 64) : A⟦main_v131, S16x1x64⟧ (ix3 b u n) = A⟦main_v80, S16x1x64x4⟧ (ix4 b u n (3 : Fin 4)) := by
  rw [at_v131 V, at_v130 V]; exact col4 _ 3 (by decide) _ _ b u n
theorem L_v133 (b : Fin 16) (u : Fin 1) (n : Fin 64) : A⟦main_v133, S16x1x64⟧ (ix3 b u n) = A⟦main_v80, S16x1x64x4⟧ (ix4 b u n (1 : Fin 4)) := by
  rw [at_v133 V, at_v132 V]; exact col4 _ 1 (by decide) _ _ b u n
theorem L_v134 (i : S16x1x64.Idx) : A⟦main_v134, S16x1x64⟧ i = @HSub.hSub EReal EReal EReal _ (A⟦main_v131, S16x1x64⟧ i) (A⟦main_v133, S16x1x64⟧ i) := congrFun (at_v134 V) i
theorem L_v135 (i : S16x1x64.Idx) : A⟦main_v135, S16x1x64⟧ i = @HMul.hMul EReal EReal EReal _ (A⟦main_v129, S16x1x64⟧ i) (A⟦main_v134, S16x1x64⟧ i) := congrFun (at_v135 V) i
theorem L_v136 (b : Fin 16) (r : Fin 28224) (n : Fin 64) : A⟦main_v136, S16x28224x64⟧ (ix3 b r n) = A⟦main_v124, S16x28224x1⟧ (ix3 b r (0 : Fin 1)) :=
  (congrFun (at_v136 V) _).trans (bcastRowsOverBoxes _ _ b r n)
theorem L_v137 (b : Fin 16) (r : Fin 28224) (n : Fin 64) : A⟦main_v137, S16x28224x64⟧ (ix3 b r n) = A⟦main_v135, S16x1x64⟧ (ix3 b (0 : Fin 1) n) :=
  (congrFun (at_v137 V) _).trans (bcastBoxesOverRows _ _ b r n)
theorem L_v138 (i : S16x28224x64.Idx) : A⟦main_v138, S16x28224x64⟧ i = @HAdd.hAdd EReal EReal EReal _ (A⟦main_v136, S16x28224x64⟧ i) (A⟦main_v137, S16x28224x64⟧ i) := congrFun (at_v138 V) i
theorem L_v139 (i : S16x28224x64.Idx) : A⟦main_v139, S16x28224x64⟧ i = @HSub.hSub EReal EReal EReal _ (A⟦main_v138, S16x28224x64⟧ i) (A⟦main_v113, S16x28224x64⟧ i) := congrFun (at_v139 V) i
theorem L_v140 (i : S16x28224x64.Idx) : A⟦main_v140, S16x28224x64⟧ i = Ideal.div (A⟦main_v113, S16x28224x64⟧ i) (A⟦main_v139, S16x28224x64⟧ i) := congrFun (at_v140 V) i

end Cert.ReferenceIdeal.Line

end
-- ==== Proof.RefValue.lean ====
/-
  The reference's result, index by index, is the specification's `cell`.

  The anchor box of (batch, anchor, cell) has edges `g ∓ ½·a` along each axis (`anchor0` … `anchor3`), `g` the cell's
  centre coordinate and `a` the anchor's size. The reference recovers the centre as `½ · (lower + upper)` and the size
  as `upper − lower`; for real `g` and `a` these are `g` and `a` again (`centre_x`, `size_x`, …: the only place where
  the precondition is used). From there both programs apply the same operations: the proposal's edges
  `(g + o) ∓ ½ · (a · exp e)`, the corners of the intersection, its area, the two areas, the quotient.
  The argument arrays appear as the launch contents of their buffers: no operation of the line writes them.
-/
import proofs.«107946_j57105885168323_1_alg».proof.Proof.RefReadA
import proofs.«107946_j57105885168323_1_alg».proof.Proof.RefReadB
import proofs.«107946_j57105885168323_1_alg».proof.Proof.RefReadC

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.Iou

variable (V : Valuation τ sig (Elt Ideal))

/-- What buffer `b` holds after the line. -/
local notation "A⟦" b ", " S "⟧" => (after (ops (F := Ideal)) V (Proc.devRef Proc.tc b) : Shape.Idx S → EReal)
/-- What argument buffer `b` holds at launch. -/
local notation "X⟦" b ", " S "⟧" => (V (Proc.devRef Proc.tc b) : Shape.Idx S → EReal)
/-- The extended reals' sum, product and negation, spelt with their type: a buffer's entry is an extended real by
    definition of the instance, which the usual notation does not look through. -/
local infixl:65 " +ₑ " => @HAdd.hAdd EReal EReal EReal _
local infixl:70 " *ₑ " => @HMul.hMul EReal EReal EReal _
local notation "negₑ " x:max => @Neg.neg EReal _ x

/-! ## The anchor boxes' edges -/

theorem anchor0 (b : Fin 16) (a : Fin 9) (p q : Fin 56) :
    A⟦main_v22, S16x9x56x56x4⟧ (ix5 b a p q (0 : Fin 4))
      = X⟦main_arg1, S16x56x56x2⟧ (ix4 b p q (0 : Fin 2)) +ₑ half *ₑ (negₑ (X⟦main_arg0, S9x2⟧ (ix2 a (0 : Fin 2)))) := by
  rw [L_v22 V, L_v20 V, L_v1 V, L_v0lo V b p q 0 0 rfl, L_v21 V, L_v19 V, L_v18 V, L_v17 V, L_v16_0 V, L_v12 V, L_v4 V, L_v3 V,
    at_arg0 V, at_arg1 V]

theorem anchor1 (b : Fin 16) (a : Fin 9) (p q : Fin 56) :
    A⟦main_v22, S16x9x56x56x4⟧ (ix5 b a p q (1 : Fin 4))
      = X⟦main_arg1, S16x56x56x2⟧ (ix4 b p q (1 : Fin 2)) +ₑ half *ₑ (negₑ (X⟦main_arg0, S9x2⟧ (ix2 a (1 : Fin 2)))) := by
  rw [L_v22 V, L_v20 V, L_v1 V, L_v0lo V b p q 1 1 rfl, L_v21 V, L_v19 V, L_v18 V, L_v17 V, L_v16_1 V, L_v13 V, L_v7 V, L_v6 V,
    at_arg0 V, at_arg1 V]

theorem anchor2 (b : Fin 16) (a : Fin 9) (p q : Fin 56) :
    A⟦main_v22, S16x9x56x56x4⟧ (ix5 b a p q (2 : Fin 4))
      = X⟦main_arg1, S16x56x56x2⟧ (ix4 b p q (0 : Fin 2)) +ₑ half *ₑ (X⟦main_arg0, S9x2⟧ (ix2 a (0 : Fin 2))) := by
  rw [L_v22 V, L_v20 V, L_v1 V, L_v0hi V b p q 0 2 rfl, L_v21 V, L_v19 V, L_v18 V, L_v17 V, L_v16_2 V, L_v14 V, L_v9 V,
    at_arg0 V, at_arg1 V]

theorem anchor3 (b : Fin 16) (a : Fin 9) (p q : Fin 56) :
    A⟦main_v22, S16x9x56x56x4⟧ (ix5 b a p q (3 : Fin 4))
      = X⟦main_arg1, S16x56x56x2⟧ (ix4 b p q (1 : Fin 2)) +ₑ half *ₑ (X⟦main_arg0, S9x2⟧ (ix2 a (1 : Fin 2))) := by
  rw [L_v22 V, L_v20 V, L_v1 V, L_v0hi V b p q 1 3 rfl, L_v21 V, L_v19 V, L_v18 V, L_v17 V, L_v16_3 V, L_v15 V, L_v11 V,
    at_arg0 V, at_arg1 V]

/-! ## Centres and sizes of the anchor boxes, for real centres and sizes -/

theorem centre_x (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v29, S16x9x56x56⟧ (ix4 b a p q) = X⟦main_arg1, S16x56x56x2⟧ (ix4 b p q (0 : Fin 2)) := by
  rw [L_v29 V, L_v28 V, L_v27 V, L_v24 V, L_v26 V, anchor0 V, anchor2 V]
  obtain ⟨g, hg⟩ := hG (ix4 b p q (0 : Fin 2))
  obtain ⟨w, hw⟩ := hA (ix2 a (0 : Fin 2))
  rw [hg, hw]
  exact centre_eq g w

theorem centre_y (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v36, S16x9x56x56⟧ (ix4 b a p q) = X⟦main_arg1, S16x56x56x2⟧ (ix4 b p q (1 : Fin 2)) := by
  rw [L_v36 V, L_v35 V, L_v34 V, L_v31 V, L_v33 V, anchor1 V, anchor3 V]
  obtain ⟨g, hg⟩ := hG (ix4 b p q (1 : Fin 2))
  obtain ⟨w, hw⟩ := hA (ix2 a (1 : Fin 2))
  rw [hg, hw]
  exact centre_eq g w

theorem size_x (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v41, S16x9x56x56⟧ (ix4 b a p q) = X⟦main_arg0, S9x2⟧ (ix2 a (0 : Fin 2)) := by
  rw [L_v41 V, L_v38 V, L_v40 V, anchor2 V, anchor0 V]
  obtain ⟨g, hg⟩ := hG (ix4 b p q (0 : Fin 2))
  obtain ⟨w, hw⟩ := hA (ix2 a (0 : Fin 2))
  rw [hg, hw]
  exact size_eq g w

theorem size_y (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v46, S16x9x56x56⟧ (ix4 b a p q) = X⟦main_arg0, S9x2⟧ (ix2 a (1 : Fin 2)) := by
  rw [L_v46 V, L_v43 V, L_v45 V, anchor3 V, anchor1 V]
  obtain ⟨g, hg⟩ := hG (ix4 b p q (1 : Fin 2))
  obtain ⟨w, hw⟩ := hA (ix2 a (1 : Fin 2))
  rw [hg, hw]
  exact size_eq g w

/-! ## The proposals' edges -/

theorem edge0 (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v63, S16x9x56x56⟧ (ix4 b a p q)
      = lo (X⟦main_arg1, S16x56x56x2⟧ (ix4 b p q (0 : Fin 2))) (X⟦main_arg2, S16x9x56x56x4⟧ (ix5 b a p q (0 : Fin 4)))
          (X⟦main_arg0, S9x2⟧ (ix2 a (0 : Fin 2))) (X⟦main_arg2, S16x9x56x56x4⟧ (ix5 b a p q (2 : Fin 4))) := by
  rw [L_v63 V, L_v49 V, centre_x V hA hG, L_v48 V, L_v62 V, L_v61 V, L_v56 V, size_x V hA hG, L_v55 V, L_v54 V, at_arg2 V]
  rfl

theorem edge1 (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v66, S16x9x56x56⟧ (ix4 b a p q)
      = lo (X⟦main_arg1, S16x56x56x2⟧ (ix4 b p q (1 : Fin 2))) (X⟦main_arg2, S16x9x56x56x4⟧ (ix5 b a p q (1 : Fin 4)))
          (X⟦main_arg0, S9x2⟧ (ix2 a (1 : Fin 2))) (X⟦main_arg2, S16x9x56x56x4⟧ (ix5 b a p q (3 : Fin 4))) := by
  rw [L_v66 V, L_v52 V, centre_y V hA hG, L_v51 V, L_v65 V, L_v64 V, L_v60 V, size_y V hA hG, L_v59 V, L_v58 V, at_arg2 V]
  rfl

theorem edge2 (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v69, S16x9x56x56⟧ (ix4 b a p q)
      = hi (X⟦main_arg1, S16x56x56x2⟧ (ix4 b p q (0 : Fin 2))) (X⟦main_arg2, S16x9x56x56x4⟧ (ix5 b a p q (0 : Fin 4)))
          (X⟦main_arg0, S9x2⟧ (ix2 a (0 : Fin 2))) (X⟦main_arg2, S16x9x56x56x4⟧ (ix5 b a p q (2 : Fin 4))) := by
  rw [L_v69 V, L_v49 V, centre_x V hA hG, L_v48 V, L_v68 V, L_v67 V, L_v56 V, size_x V hA hG, L_v55 V, L_v54 V, at_arg2 V]
  rfl

theorem edge3 (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (a : Fin 9) (p q : Fin 56) :
    A⟦main_v72, S16x9x56x56⟧ (ix4 b a p q)
      = hi (X⟦main_arg1, S16x56x56x2⟧ (ix4 b p q (1 : Fin 2))) (X⟦main_arg2, S16x9x56x56x4⟧ (ix5 b a p q (1 : Fin 4)))
          (X⟦main_arg0, S9x2⟧ (ix2 a (1 : Fin 2))) (X⟦main_arg2, S16x9x56x56x4⟧ (ix5 b a p q (3 : Fin 4))) := by
  rw [L_v72 V, L_v52 V, centre_y V hA hG, L_v51 V, L_v71 V, L_v70 V, L_v60 V, size_y V hA hG, L_v59 V, L_v58 V, at_arg2 V]
  rfl

/-- The four edges of row `r`'s proposal, as the recast array holds them: entry `k` of the joined array is the
    `k`-th edge array with a trailing unit axis. -/
theorem prop0 (b : Fin 16) (r : Fin 28224) (u : Fin 1) :
    A⟦main_v78, S16x28224x1x4⟧ (ix4 b r u (0 : Fin 4)) = A⟦main_v63, S16x9x56x56⟧ (ix4 b (rowAnchor r) (rowH r) (rowW r)) := by
  rw [L_v78 V, L_v77_0 V]
  dsimp only [Matrix.cons_val_zero, Matrix.cons_val_one, Matrix.cons_val]
  rw [L_v73 V]
theorem prop1 (b : Fin 16) (r : Fin 28224) (u : Fin 1) :
    A⟦main_v78, S16x28224x1x4⟧ (ix4 b r u (1 : Fin 4)) = A⟦main_v66, S16x9x56x56⟧ (ix4 b (rowAnchor r) (rowH r) (rowW r)) := by
  rw [L_v78 V, L_v77_1 V]
  dsimp only [Matrix.cons_val_zero, Matrix.cons_val_one, Matrix.cons_val]
  rw [L_v74 V]
theorem prop2 (b : Fin 16) (r : Fin 28224) (u : Fin 1) :
    A⟦main_v78, S16x28224x1x4⟧ (ix4 b r u (2 : Fin 4)) = A⟦main_v69, S16x9x56x56⟧ (ix4 b (rowAnchor r) (rowH r) (rowW r)) := by
  rw [L_v78 V, L_v77_2 V]
  dsimp only [Matrix.cons_val_zero, Matrix.cons_val_one, Matrix.cons_val]
  rw [L_v75 V]
theorem prop3 (b : Fin 16) (r : Fin 28224) (u : Fin 1) :
    A⟦main_v78, S16x28224x1x4⟧ (ix4 b r u (3 : Fin 4)) = A⟦main_v72, S16x9x56x56⟧ (ix4 b (rowAnchor r) (rowH r) (rowW r)) := by
  rw [L_v78 V, L_v77_3 V]
  dsimp only [Matrix.cons_val_zero, Matrix.cons_val_one, Matrix.cons_val]
  rw [L_v76 V]

/-- Coordinate `k` of box `n`. -/
theorem box (b : Fin 16) (u : Fin 1) (n : Fin 64) (k : Fin 4) (k' : Fin 5) (hk : k'.val = 0 + k.val) :
    A⟦main_v80, S16x1x64x4⟧ (ix4 b u n k) = X⟦main_arg3, S16x64x5⟧ (ix3 b n k') := by
  rw [L_v80 V, L_v79 V b n k k' hk, at_arg3 V]

/-- The lower corner of the intersection, coordinate `j`. -/
theorem lower (b : Fin 16) (r : Fin 28224) (n : Fin 64) (j : Fin 2) (k : Fin 4) (hk : k.val = 0 + j.val) :
    A⟦main_v85, S16x28224x64x2⟧ (ix4 b r n j)
      = @max EReal _ (A⟦main_v78, S16x28224x1x4⟧ (ix4 b r (0 : Fin 1) k)) (A⟦main_v80, S16x1x64x4⟧ (ix4 b (0 : Fin 1) n k)) := by
  rw [L_v85 V, L_v83 V, L_v81 V b r 0 j k hk, L_v84 V, L_v82 V b 0 n j k hk]

/-- The upper corner of the intersection, coordinate `j`. -/
theorem upper (b : Fin 16) (r : Fin 28224) (n : Fin 64) (j : Fin 2) (k : Fin 4) (hk : k.val = 2 + j.val) :
    A⟦main_v90, S16x28224x64x2⟧ (ix4 b r n j)
      = @min EReal _ (A⟦main_v78, S16x28224x1x4⟧ (ix4 b r (0 : Fin 1) k)) (A⟦main_v80, S16x1x64x4⟧ (ix4 b (0 : Fin 1) n k)) := by
  rw [L_v90 V, L_v88 V, L_v86 V b r 0 j k hk, L_v89 V, L_v87 V b 0 n j k hk]

/-! ## The result -/

/-- The reference's result at batch `b`, row `r`, box `n`. -/
theorem result_apply (hA : ∀ i : S9x2.Idx, ∃ x : ℝ, X⟦main_arg0, S9x2⟧ i = (x : EReal))
    (hG : ∀ i : S16x56x56x2.Idx, ∃ x : ℝ, X⟦main_arg1, S16x56x56x2⟧ i = (x : EReal))
    (b : Fin 16) (r : Fin 28224) (n : Fin 64) :
    A⟦main_v140, S16x28224x64⟧ (ix3 b r n)
      = cell (X⟦main_arg0, S9x2⟧) (X⟦main_arg1, S16x56x56x2⟧) (X⟦main_arg2, S16x9x56x56x4⟧) (X⟦main_arg3, S16x64x5⟧)
          b (rowAnchor r) (rowH r) (rowW r) n := by
  rw [L_v140 V, L_v139 V, L_v138 V, L_v136 V, L_v137 V, L_v124 V, L_v118 V, L_v115 V, L_v117 V, L_v123 V, L_v120 V, L_v122 V,
    L_v135 V, L_v129 V, L_v126 V, L_v128 V, L_v134 V, L_v131 V, L_v133 V,
    L_v113 V, L_call0_v1 V, L_v101 V, L_v95 V, L_v100 V, L_v92 V, L_v94 V, L_v97 V, L_v99 V,
    L_v112 V, L_v106 V, L_v103 V, L_v105 V, L_v111 V, L_v108 V, L_v110 V,
    lower V b r n 0 0 rfl, lower V b r n 1 1 rfl, upper V b r n 0 2 rfl, upper V b r n 1 3 rfl,
    prop0 V, prop1 V, prop2 V, prop3 V,
    edge0 V hA hG, edge1 V hA hG, edge2 V hA hG, edge3 V hA hG,
    box V b 0 n 0 0 rfl, box V b 0 n 1 1 rfl, box V b 0 n 2 2 rfl, box V b 0 n 3 3 rfl]
  rfl

end Cert.ReferenceIdeal.Line

end
-- ==== Proof.IouFinite.lean ====
/-
  What the precondition says of the anchors and of the cell centres: every entry is a real number.

  The precondition is the conjunction, over the four arguments, of "every entry's absolute value is below +∞". An
  extended real whose absolute value `max x (−x)` is below `+∞` is neither infinity, so it is a real. Only the first
  two conjuncts are needed: the law that joins the two programs (a box's centre and size from its two edges) cancels
  the anchors' half sizes against each other and the cell centre against itself, which the infinities do not allow.
-/
import proofs.«107946_j57105885168323_1_alg».proof.Pre_finite_inputs
import Idealize.ShloMosaic.PureOps.Ideal
import Idealize.ShloMosaic.Lib.ReduceAll
import Idealize.ShloMosaic.Lib.ValueIdx

noncomputable section

namespace Cert.Iou

open Idealize.ShloMosaic

/-- The pattern of `+∞`. -/
theorem ofBits_inf : Ideal.ofBits .f32 0x7F800000#32 = (⊤ : EReal) := by
  simp [Ideal.ofBits, Ideal.ieee]

/-- An extended real whose absolute value is below `+∞` is a real. -/
theorem real_of_abs_lt (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  induction x using EReal.rec with
  | bot =>
    exfalso
    revert h
    show Ideal.cmp .olt (max (⊥ : EReal) (-⊥)) (Ideal.ofBits .f32 0x7F800000#32) = 1#1 → False
    rw [ofBits_inf]
    simp [Ideal.cmp]
  | coe r => exact ⟨r, rfl⟩
  | top =>
    exfalso
    revert h
    show Ideal.cmp .olt (max (⊤ : EReal) (-⊤)) (Ideal.ofBits .f32 0x7F800000#32) = 1#1 → False
    rw [ofBits_inf]
    simp [Ideal.cmp]

instance : Subsingleton Cert.Pre_finite_inputs.S_.Idx := ⟨fun a b => funext fun d => d.elim0⟩

/-- Under the precondition every anchor entry and every cell-centre entry is a real. -/
theorem reals_of_pre [Cert.Pre_finite_inputs.Facts]
    (x0 : FVec Ideal Cert.Pre_finite_inputs.S9x2 .f32) (x1 : FVec Ideal Cert.Pre_finite_inputs.S16x56x56x2 .f32)
    (x2 : FVec Ideal Cert.Pre_finite_inputs.S16x9x56x56x4 .f32) (x3 : FVec Ideal Cert.Pre_finite_inputs.S16x64x5 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn, Cert.Pre_finite_inputs.fn_part1] at h0
  obtain ⟨h13, -⟩ := IntOp.andi_eq_one.1 h0
  obtain ⟨h8, -⟩ := IntOp.andi_eq_one.1 h13
  obtain ⟨h3, h7⟩ := IntOp.andi_eq_one.1 h8
  exact ⟨fun i => real_of_abs_lt _ (Host.reduce_andi_all _ _ _ _ _ h3 i),
    fun i => real_of_abs_lt _ (Host.reduce_andi_all _ _ _ _ _ h7 i)⟩

end Cert.Iou

end
-- ==== Proof.lean ====
/-
  The intersection over union of YOLO proposals with ground-truth boxes: the kernel against its jnp reference.

  For batch `b`, anchor `a`, cell `(h, w)` and box `n`, both programs compute the intersection over union of the
  proposal box — the cell's centre moved by the offsets, the anchor's size scaled by the exponentials of the log-space
  offsets — with box `n` (Proof/IouSpec.lean: `cell`, and `G`, the whole array, whose row `a · 3136 + h · 56 + w` is
  that anchor and cell).

  The kernel takes the cell's centre and the anchor's size as they are. The reference first builds the anchor box's
  edges `centre ∓ ½ · size` and recovers the centre as `½ · (lower + upper)` and the size as `upper − lower`: the same
  numbers when centre and size are real, which is what the precondition gives (it is not so at the infinities: there a
  sum of opposite infinities does not cancel). Past that point the two programs apply the same operations in the same
  order.

  Kernel side (Proof/KernelBody.lean, Proof/KernelValue.lean): grid point (batch, anchor) writes back the block of `G`
  for that batch and anchor, and the 144 blocks cover the result array. Reference side (Proof/RefLine.lean …
  Proof/RefValue.lean): the program is a straight line of 151 host operations read one operation at a time, each
  buffer at an index; Proof/IouFinite.lean reads the precondition.
-/
import proofs.«107946_j57105885168323_1_alg».proof.Defs
import proofs.«107946_j57105885168323_1_alg».proof.Proof.Gen.Kernel
import proofs.«107946_j57105885168323_1_alg».proof.Proof.Gen.Kernel.Skeleton
import proofs.«107946_j57105885168323_1_alg».proof.Proof.Gen.Kernel.Launch
import proofs.«107946_j57105885168323_1_alg».proof.Proof.Gen.Kernel.Points
import proofs.«107946_j57105885168323_1_alg».proof.Proof.Gen.Kernel.Frame
import proofs.«107946_j57105885168323_1_alg».proof.Proof.Gen.KernelIdeal
import proofs.«107946_j57105885168323_1_alg».proof.Proof.Gen.KernelIdeal.Skeleton
import proofs.«107946_j57105885168323_1_alg».proof.Proof.Gen.KernelIdeal.Launch
import proofs.«107946_j57105885168323_1_alg».proof.Proof.Gen.KernelIdeal.Points
import proofs.«107946_j57105885168323_1_alg».proof.Proof.Gen.KernelIdeal.Frame
import proofs.«107946_j57105885168323_1_alg».proof.Proof.Gen.ReferenceIdeal
import proofs.«107946_j57105885168323_1_alg».proof.Proof.Gen.Pre_finite_inputs
import proofs.«107946_j57105885168323_1_alg».proof.Proof.Gen.KernelIdeal.Value
import proofs.«107946_j57105885168323_1_alg».proof.Proof.KernelValue
import proofs.«107946_j57105885168323_1_alg».proof.Proof.RefValue
import proofs.«107946_j57105885168323_1_alg».proof.Proof.IouFinite
import Idealize.ShloMosaic.Adequacy
import Idealize.ShloMosaic.Init

noncomputable section

namespace Cert.Proof

open Idealize.ShloMosaic Idealize.ShloMosaic.TcCoe Idealize.SL.Sem Idealize.ShloMosaic.StableHlo
open Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference runs and leaves its arguments as they were: no operation of its line writes them. -/
theorem frame_ri : Cert.frame_ReferenceIdeal := fun m ρ _ =>
  (θ_run Cert.ReferenceIdeal.defs _ _).mono
    (fun _ h c => ⟨(h c Cert.ReferenceIdeal.main_arg0).trans (Cert.ReferenceIdeal.Line.at_arg0 _),
      (h c Cert.ReferenceIdeal.main_arg1).trans (Cert.ReferenceIdeal.Line.at_arg1 _),
      (h c Cert.ReferenceIdeal.main_arg2).trans (Cert.ReferenceIdeal.Line.at_arg2 _),
      (h c Cert.ReferenceIdeal.main_arg3).trans (Cert.ReferenceIdeal.Line.at_arg3 _)⟩)
    (Cert.ReferenceIdeal.Line.line_run (F := Ideal) m ρ)

/-- The ideal pass rewrote nothing. -/
theorem preserves : Cert.preserves_Kernel_KernelIdeal := trivial

/-- Both result arrays are the specification `G` of the argument arrays: the kernel's block by block, the reference's
    index by index under the precondition (the anchors and the cell centres are real). -/
theorem algebraic : Cert.algebraic_KernelIdeal_ReferenceIdeal := by
  intro m ρ m' ρ' hpre hagree
  refine ⟨fun c => Cert.KernelIdeal.IouValue.result m c, Cert.KernelIdeal.IouValue.run m ρ, ?_⟩
  refine (θ_run Cert.ReferenceIdeal.defs _ _).mono (fun r h c => ?_) (Cert.ReferenceIdeal.Line.line_run (F := Ideal) m' ρ')
  have e0 : launchContents m' c (Proc.devRef Proc.tc Cert.ReferenceIdeal.main_arg0)
      = m ((c.tc : Thread Cert.KernelIdeal.nD Cert.KernelIdeal.τ).loc Cert.KernelIdeal.main_arg0) := (hagree c).1
  have e1 : launchContents m' c (Proc.devRef Proc.tc Cert.ReferenceIdeal.main_arg1)
      = m ((c.tc : Thread Cert.KernelIdeal.nD Cert.KernelIdeal.τ).loc Cert.KernelIdeal.main_arg1) := (hagree c).2.1
  have e2 : launchContents m' c (Proc.devRef Proc.tc Cert.ReferenceIdeal.main_arg2)
      = m ((c.tc : Thread Cert.KernelIdeal.nD Cert.KernelIdeal.τ).loc Cert.KernelIdeal.main_arg2) := (hagree c).2.2.1
  have e3 : launchContents m' c (Proc.devRef Proc.tc Cert.ReferenceIdeal.main_arg3)
      = m ((c.tc : Thread Cert.KernelIdeal.nD Cert.KernelIdeal.τ).loc Cert.KernelIdeal.main_arg3) := (hagree c).2.2.2
  refine ⟨(h c Cert.ReferenceIdeal.main_v140).trans ?_,
    (h c Cert.ReferenceIdeal.main_arg0).trans (Cert.ReferenceIdeal.Line.at_arg0 _),
    (h c Cert.ReferenceIdeal.main_arg1).trans (Cert.ReferenceIdeal.Line.at_arg1 _),
    (h c Cert.ReferenceIdeal.main_arg2).trans (Cert.ReferenceIdeal.Line.at_arg2 _),
    (h c Cert.ReferenceIdeal.main_arg3).trans (Cert.ReferenceIdeal.Line.at_arg3 _)⟩
  obtain ⟨hA, hG⟩ := Cert.Iou.reals_of_pre _ _ _ _ (hpre c)
  funext i
  obtain ⟨b, r', n, rfl⟩ : ∃ (b : Fin 16) (r' : Fin 28224) (n : Fin 64), i = ix3 b r' n := ⟨i 0, i 1, i 2, eq_ix3 i⟩
  rw [Cert.ReferenceIdeal.Line.result_apply (launchContents m' c) (fun j => by rw [e0]; exact hA j) (fun j => by rw [e1]; exact hG j) b r' n,
    e0, e1, e2, e3]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
